-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x640000 : Shape := ⟨2, ![2, 640000]⟩
abbrev S128x1536 : Shape := ⟨2, ![128, 1536]⟩
abbrev S1536 : Shape := ⟨1, ![1536]⟩
abbrev S512x128 : Shape := ⟨2, ![512, 128]⟩
abbrev S128 : Shape := ⟨1, ![128]⟩
abbrev S257x128 : Shape := ⟨2, ![257, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x1536 : S_.BroadcastsInDim S128x1536 (![] : Fin 0 → Fin S128x1536.rank)
  reducesTo_S128x1536_S_d0_1 : S128x1536.ReducesTo [0, 1] S_
  bcast_S_S1536 : S_.BroadcastsInDim S1536 (![] : Fin 0 → Fin S1536.rank)
  reducesTo_S1536_S_d0 : S1536.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S257x128 : S_.BroadcastsInDim S257x128 (![] : Fin 0 → Fin S257x128.rank)
  reducesTo_S257x128_S_d0_1 : S257x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x1 .f32) (main_arg14 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S512x128 .f32) (main_arg6 : FVec F S128 .f32) (main_arg7 : FVec F S257x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S257x128 .f32 := Host.absf main_arg7
  let main_cst_10 : FVec F S_ .f32 := constant S_ .f32 0x7F800000#32
  let main_v30 : FVec F S257x128 .f32 := broadcastInDim S257x128 ![] bcast_S_S257x128 main_cst_10
  let main_v31 : IVec S257x128 1 := cmpf .olt main_v29 main_v30
  let main_c_11 : IVec S_ 1 := constantI S_ 1 1#1
  let main_v32 : IVec S_ 1 := (fun x v => Host.reduce IntOp.andi x v reducesTo_S257x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x640000 32) (main_arg3 : FVec F S128x1536 .f32) (main_arg4 : FVec F S1536 .f32) (main_arg5 : FVec F S512x128 .f32) (main_arg6 : FVec F S128 .f32) (main_arg7 : FVec F S257x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x1536 .f32 := Host.absf main_arg3
  let main_cst_2 : FVec F S_ .f32 := constant S_ .f32 0x7F800000#32
  let main_v10 : FVec F S128x1536 .f32 := broadcastInDim S128x1536 ![] bcast_S_S128x1536 main_cst_2
  let main_v11 : IVec S128x1536 1 := cmpf .olt main_v9 main_v10
  let main_c_3 : IVec S_ 1 := constantI S_ 1 1#1
  let main_v12 : IVec S_ 1 := (fun x v => Host.reduce IntOp.andi x v reducesTo_S128x1536_S_d0_1 h_S_) main_v11 main_c_3
  let main_v13 : IVec S_ 1 := andi main_v8 main_v12
  let main_v14 : FVec F S1536 .f32 := Host.absf main_arg4
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x640000 : Shape := ⟨2, ![2, 640000]⟩
abbrev S128x1536 : Shape := ⟨2, ![128, 1536]⟩
abbrev S1536 : Shape := ⟨1, ![1536]⟩
abbrev S512x128 : Shape := ⟨2, ![512, 128]⟩
abbrev S128 : Shape := ⟨1, ![128]⟩
abbrev S257x128 : Shape := ⟨2, ![257, 128]⟩
abbrev S128x128 : Shape := ⟨2, ![128, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x3 : Shape := ⟨2, ![640000, 3]⟩
abbrev S1x128 : Shape := ⟨2, ![1, 128]⟩
abbrev S1x1 : Shape := ⟨2, ![1, 1]⟩
abbrev S4000x128 : Shape := ⟨2, ![4000, 128]⟩
abbrev S4000x1 : Shape := ⟨2, ![4000, 1]⟩
abbrev S4000 : Shape := ⟨1, ![4000]⟩
abbrev S128x512 : Shape := ⟨2, ![128, 512]⟩
abbrev S512 : Shape := ⟨1, ![512]⟩
abbrev S1x512 : Shape := ⟨2, ![1, 512]⟩
abbrev S1000x128 : Shape := ⟨2, ![1000, 128]⟩
abbrev S1000x512 : Shape := ⟨2, ![1000, 512]⟩
abbrev S1000x64 : Shape := ⟨2, ![1000, 64]⟩
abbrev S1000 : Shape := ⟨1, ![1000]⟩
abbrev S1000x1 : Shape := ⟨2, ![1000, 1]⟩
abbrev S1000x8 : Shape := ⟨2, ![1000, 8]⟩

abbrev nBuf : Space → Nat
  | .hbm => 107
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x640000, .i32⟩
  | .hbm, ⟨3, _⟩ => ⟨S128x1536, .f32⟩
  | .hbm, ⟨4, _⟩ => ⟨S1536, .f32⟩
  | .hbm, ⟨5, _⟩ => ⟨S512x128, .f32⟩
  | .hbm, ⟨6, _⟩ => ⟨S128, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x3, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x3, .f32⟩
  | .hbm, ⟨55, _⟩ => ⟨S640000x3, .f32⟩
  | .hbm, ⟨56, _⟩ => ⟨S640000x3, .f32⟩
  | .hbm, ⟨57, _⟩ => ⟨S_, .f32⟩
  | .hbm, ⟨58, _⟩ => ⟨S640000, .f32⟩
  | .hbm, ⟨59, _⟩ => ⟨S640000x1, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x1, .f32⟩
  | .hbm, ⟨67, _⟩ => ⟨S1x128, .f32⟩
  | .hbm, ⟨68, _⟩ => ⟨S640000x1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S1x1, .f32⟩
  | .hbm, ⟨75, _⟩ => ⟨S640000x1, .f32⟩
  | .hbm, ⟨76, _⟩ => ⟨S640000x1, .f32⟩
  | .hbm, ⟨77, _⟩ => ⟨S640000x1, .f32⟩
  | .hbm, ⟨78, _⟩ => ⟨S_, .f32⟩
  | .hbm, ⟨79, _⟩ => ⟨S1, .f32⟩
  | .hbm, ⟨80, _⟩ => ⟨S1x1, .f32⟩
  | .hbm, ⟨81, _⟩ => ⟨S640000x1, .f32⟩
  | .hbm, ⟨82, _⟩ => ⟨S640000x1, .f32⟩
  | .hbm, ⟨83, _⟩ => ⟨S640000x3, .f32⟩
  | .hbm, ⟨84, _⟩ => ⟨S640000x3, .f32⟩
  | .hbm, ⟨85, _⟩ => ⟨S_, .f32⟩
  | .hbm, ⟨86, _⟩ => ⟨S50000x3, .f32⟩
  | .hbm, ⟨87, _⟩ => ⟨S_, .i32⟩
  | .hbm, ⟨88, _⟩ => ⟨S640000, .i32⟩
  | .hbm, ⟨89, _⟩ => ⟨S640000, .i1⟩
  | .hbm, ⟨90, _⟩ => ⟨S_, .i32⟩
  | .hbm, ⟨91, _⟩ => ⟨S640000, .i32⟩
  | .hbm, ⟨92, _⟩ => ⟨S640000, .i32⟩
  | .hbm, ⟨93, _⟩ => ⟨S640000, .i32⟩
  | .hbm, ⟨94, _⟩ => ⟨S640000x1, .i32⟩
  | .hbm, ⟨95, _⟩ => ⟨S50000x3, .f32⟩
  | .hbm, ⟨96, _⟩ => ⟨S128x512, .f32⟩
  | .hbm, ⟨97, _⟩ => ⟨S128x512, .f32⟩
  | .hbm, ⟨98, _⟩ => ⟨S128x512, .f32⟩
  | .hbm, ⟨99, _⟩ => ⟨S512, .f32⟩
  | .hbm, ⟨100, _⟩ => ⟨S1x512, .f32⟩
  | .hbm, ⟨101, _⟩ => ⟨S512, .f32⟩
  | .hbm, ⟨102, _⟩ => ⟨S1x512, .f32⟩
  | .hbm, ⟨103, _⟩ => ⟨S512, .f32⟩
  | .hbm, ⟨104, _⟩ => ⟨S1x512, .f32⟩
  | .hbm, ⟨105, _⟩ => ⟨S1x128, .f32⟩
  | .hbm, ⟨106, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S4000x1, .f32⟩
  | .local _ .vmem, ⟨17, _⟩ => ⟨S4000x1, .f32⟩
  | .local _ .vmem, ⟨18, _⟩ => ⟨S1000x128, .f32⟩
  | .local _ .vmem, ⟨19, _⟩ => ⟨S1000x128, .f32⟩
  | .local _ .vmem, ⟨20, _⟩ => ⟨S128x512, .f32⟩
  | .local _ .vmem, ⟨21, _⟩ => ⟨S1x512, .f32⟩
  | .local _ .vmem, ⟨22, _⟩ => ⟨S128x512, .f32⟩
  | .local _ .vmem, ⟨23, _⟩ => ⟨S1x512, .f32⟩
  | .local _ .vmem, ⟨24, _⟩ => ⟨S128x512, .f32⟩
  | .local _ .vmem, ⟨25, _⟩ => ⟨S1x512, .f32⟩
  | .local _ .vmem, ⟨26, _⟩ => ⟨S512x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  shapeCasts_S128x1_S1x128 : S128x1.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  reducesTo_S640000x1_S1_d0 : S640000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  slices_S128x1536_S128x512_0_0 : S128x1536.Slices ![0, 0] S128x512
  slices_S128x1536_S128x512_0_512 : S128x1536.Slices ![0, 512] S128x512
  slices_S128x1536_S128x512_0_1024 : S128x1536.Slices ![0, 1024] S128x512
  slices_S1536_S512_0 : S1536.Slices ![0] S512
  shapeCasts_S512_S1x512 : S512.ShapeCasts S1x512
  slices_S1536_S512_512 : S1536.Slices ![512] S512
  slices_S1536_S512_1024 : S1536.Slices ![1024] S512
  inb_S1000x128_S1000x128_0_0 : ∀ a, (![0, 0] : Fin 2 → Nat) a + S1000x128.size a ≤ S1000x128.size a
  h_S1000x128 : 0 < S1000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S1000x512_o0_0_S1000x64 : S1000x512.Slices ![0, 0] S1000x64
  slices_S1000x512_o0_64_S1000x64 : S1000x512.Slices ![0, 64] S1000x64
  slices_S1000x512_o0_128_S1000x64 : S1000x512.Slices ![0, 128] S1000x64
  slices_S1000x512_o0_192_S1000x64 : S1000x512.Slices ![0, 192] S1000x64
  slices_S1000x512_o0_256_S1000x64 : S1000x512.Slices ![0, 256] S1000x64
  slices_S1000x512_o0_320_S1000x64 : S1000x512.Slices ![0, 320] S1000x64
  slices_S1000x512_o0_384_S1000x64 : S1000x512.Slices ![0, 384] S1000x64
  slices_S1000x512_o0_448_S1000x64 : S1000x512.Slices ![0, 448] S1000x64
  reduces_S1000x64_S1000 : S1000x64.Reduces [1] S1000
  shapeCasts_S1000_S1000x1 : S1000.ShapeCasts S1000x1
  concatenates_S1000x1_S1000x1_S1000x1_S1000x1_S1000x1_S1000x1_S1000x1_S1000x1_S1000x8_d1 : Shape.Concatenates [S1000x1, S1000x1, S1000x1, S1000x1, S1000x1, S1000x1, S1000x1, S1000x1] S1000x8 1
  reduces_S1000x8_S1000 : S1000x8.Reduces [1] S1000
  broadcasts_S1000x1_S1000x8 : S1000x1.Broadcasts S1000x8
  slices_S1000x8_o0_0_S1000x1 : S1000x8.Slices ![0, 0] S1000x1
  broadcasts_S1000x1_S1000x64 : S1000x1.Broadcasts S1000x64
  slices_S1000x8_o0_1_S1000x1 : S1000x8.Slices ![0, 1] S1000x1
  slices_S1000x8_o0_2_S1000x1 : S1000x8.Slices ![0, 2] S1000x1
  slices_S1000x8_o0_3_S1000x1 : S1000x8.Slices ![0, 3] S1000x1
  slices_S1000x8_o0_4_S1000x1 : S1000x8.Slices ![0, 4] S1000x1
  slices_S1000x8_o0_5_S1000x1 : S1000x8.Slices ![0, 5] S1000x1
  slices_S1000x8_o0_6_S1000x1 : S1000x8.Slices ![0, 6] S1000x1
  slices_S1000x8_o0_7_S1000x1 : S1000x8.Slices ![0, 7] S1000x1
  concatenates_S1000x64_S1000x64_S1000x64_S1000x64_S1000x64_S1000x64_S1000x64_S1000x64_S1000x512_d1 : Shape.Concatenates [S1000x64, S1000x64, S1000x64, S1000x64, S1000x64, S1000x64, S1000x64, S1000x64] S1000x512 1
  inb_S512x128_S512x128_0_0 : ∀ a, (![0, 0] : Fin 2 → Nat) a + S512x128.size a ≤ S512x128.size a
  h_S512x128 : 0 < S512x128.numel
  broadcasts_S1x128_S1000x128 : S1x128.Broadcasts S1000x128
  gather_S50000x128_S640000x1_S640000x128_1_0_n_n_0_1_1128_wf : GatherDims.WF S50000x128 S640000x1 S640000x128 [1] [0] [] [0] [] 1 ![1, 128]
  gather_S50000x3_S640000x1_S640000x3_1_0_n_n_0_1_13_wf : GatherDims.WF S50000x3 S640000x1 S640000x3 [1] [0] [] [0] [] 1 ![1, 3]
  dot_S4000x128_S128x128_S4000x128_1_0_0_1_n_n_wf : DotDims.WF S4000x128 S128x128 S4000x128 [1] [0] [0] [1] [] []
  scatter_S50000x3_S640000x1_S640000x3_1_0_0_1_wf : ScatterDims.WF S50000x3 S640000x1 S640000x3 [1] [0] [0] 1
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S640000x1.size a
  hwx0_2 : ∀ i : grid0.Coords, EltTy.bits .f32 = 32 ∨ (Rect.block (s := S640000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x1.size a ≤ S640000x1.size a
  hwx0_13 : ∀ i : grid0.Coords, EltTy.bits .f32 = 32 ∨ (Rect.block (s := S640000x1) S4000x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .f32 = 32 ∨ (Rect.block (s := S128x512) S128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S512x128.size a
  hwx1_7 : ∀ i : grid1.Coords, EltTy.bits .f32 = 32 ∨ (Rect.block (s := S512x128) S512x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S4000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S512x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v75) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v76) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x640000 : Shape := ⟨2, ![2, 640000]⟩
abbrev S128x1536 : Shape := ⟨2, ![128, 1536]⟩
abbrev S1536 : Shape := ⟨1, ![1536]⟩
abbrev S512x128 : Shape := ⟨2, ![512, 128]⟩
abbrev S128 : Shape := ⟨1, ![128]⟩
abbrev S257x128 : Shape := ⟨2, ![257, 128]⟩
abbrev S128x128 : Shape := ⟨2, ![128, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S50000x1536 : Shape := ⟨2, ![50000, 1536]⟩
abbrev S1x1536 : Shape := ⟨2, ![1, 1536]⟩
abbrev S50000x512 : Shape := ⟨2, ![50000, 512]⟩
abbrev S50000x8x64 : Shape := ⟨3, ![50000, 8, 64]⟩
abbrev S50000x8x8 : Shape := ⟨3, ![50000, 8, 8]⟩
abbrev S50000x8 : Shape := ⟨2, ![50000, 8]⟩
abbrev S50000x8x1 : Shape := ⟨3, ![50000, 8, 1]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S128x1536, .f32⟩
  | 4 => ⟨S1536, .f32⟩
  | 5 => ⟨S512x128, .f32⟩
  | 6 => ⟨S128, .f32⟩
  | 7 => ⟨S257x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S1x640000, .i32⟩
  | 16 => ⟨S640000, .i32⟩
  | 17 => ⟨S1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x3, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x3, .f32⟩
  | 37 => ⟨S640000x3, .f32⟩
  | 38 => ⟨S640000x3, .f32⟩
  | 39 => ⟨S_, .f32⟩
  | 40 => ⟨S640000, .f32⟩
  | 41 => ⟨S640000x1, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x257, .f32⟩
  | 61 => ⟨S640000x128, .f32⟩
  | 62 => ⟨S1x128, .f32⟩
  | 63 => ⟨S640000x128, .f32⟩
  | 64 => ⟨S640000x128, .f32⟩
  | 65 => ⟨S640000x128, .f32⟩
  | 66 => ⟨S640000x128, .f32⟩
  | 67 => ⟨S_, .f32⟩
  | 68 => ⟨S640000x128, .f32⟩
  | 69 => ⟨S640000x128, .f32⟩
  | 70 => ⟨S_, .f32⟩
  | 71 => ⟨S640000x128, .f32⟩
  | 72 => ⟨S640000x128, .f32⟩
  | 73 => ⟨S640000x128, .f32⟩
  | 74 => ⟨S640000x128, .f32⟩
  | 75 => ⟨S1x128, .f32⟩
  | 76 => ⟨S640000x128, .f32⟩
  | 77 => ⟨S640000x128, .f32⟩
  | 78 => ⟨S640000x128, .f32⟩
  | 79 => ⟨S640000x128, .f32⟩
  | 80 => ⟨S_, .f32⟩
  | 81 => ⟨S640000x128, .f32⟩
  | 82 => ⟨S640000x128, .f32⟩
  | 83 => ⟨S_, .f32⟩
  | 84 => ⟨S640000x128, .f32⟩
  | 85 => ⟨S640000x128, .f32⟩
  | 86 => ⟨S640000x128, .f32⟩
  | 87 => ⟨S50000x1536, .f32⟩
  | 88 => ⟨S1x1536, .f32⟩
  | 89 => ⟨S50000x1536, .f32⟩
  | 90 => ⟨S50000x1536, .f32⟩
  | 91 => ⟨S50000x512, .f32⟩
  | 92 => ⟨S50000x512, .f32⟩
  | 93 => ⟨S50000x512, .f32⟩
  | 94 => ⟨S50000x8x64, .f32⟩
  | 95 => ⟨S50000x8x64, .f32⟩
  | 96 => ⟨S50000x8x64, .f32⟩
  | 97 => ⟨S50000x8x8, .f32⟩
  | 98 => ⟨S_, .f32⟩
  | 99 => ⟨S50000x8x8, .f32⟩
  | 100 => ⟨S50000x8x8, .f32⟩
  | 101 => ⟨S_, .f32⟩
  | 102 => ⟨S50000x8, .f32⟩
  | 103 => ⟨S_, .f32⟩
  | 104 => ⟨S50000x8, .f32⟩
  | 105 => ⟨S50000x8, .f32⟩
  | 106 => ⟨S50000x8x1, .f32⟩
  | 107 => ⟨S50000x8x8, .f32⟩
  | 108 => ⟨S50000x8x8, .f32⟩
  | 109 => ⟨S50000x8x8, .f32⟩
  | 110 => ⟨S_, .f32⟩
  | 111 => ⟨S50000x8, .f32⟩
  | 112 => ⟨S50000x8x1, .f32⟩
  | 113 => ⟨S50000x8x8, .f32⟩
  | 114 => ⟨S50000x8x8, .f32⟩
  | 115 => ⟨S50000x8x64, .f32⟩
  | 116 => ⟨S50000x512, .f32⟩
  | 117 => ⟨S50000x128, .f32⟩
  | 118 => ⟨S1x128, .f32⟩
  | 119 => ⟨S50000x128, .f32⟩
  | 120 => ⟨S50000x128, .f32⟩
  | 121 => ⟨S640000x128, .f32⟩
  | 122 => ⟨S1x128, .f32⟩
  | 123 => ⟨S640000x128, .f32⟩
  | 124 => ⟨S640000x128, .f32⟩
  | 125 => ⟨S640000x128, .f32⟩
  | 126 => ⟨S640000x128, .f32⟩
  | 127 => ⟨S_, .f32⟩
  | _ => ⟨S50000x128, .f32⟩

abbrev hbmTy0_1 (i : Nat) : BufTy := match i % 128 with
  | 0 => ⟨S640000x128, .f32⟩
  | 1 => ⟨S640000x128, .f32⟩
  | 2 => ⟨S_, .f32⟩
  | 3 => ⟨S640000x128, .f32⟩
  | 4 => ⟨S640000x128, .f32⟩
  | 5 => ⟨S640000x128, .f32⟩
  | 6 => ⟨S640000x1, .f32⟩
  | 7 => ⟨S1x1, .f32⟩
  | 8 => ⟨S640000x1, .f32⟩
  | 9 => ⟨S640000x1, .f32⟩
  | 10 => ⟨S_, .f32⟩
  | 11 => ⟨S1, .f32⟩
  | 12 => ⟨S_, .f32⟩
  | 13 => ⟨S1, .f32⟩
  | 14 => ⟨S1, .f32⟩
  | 15 => ⟨S1x1, .f32⟩
  | 16 => ⟨S640000x1, .f32⟩
  | 17 => ⟨S640000x1, .f32⟩
  | 18 => ⟨S640000x1, .f32⟩
  | 19 => ⟨S_, .f32⟩
  | 20 => ⟨S1, .f32⟩
  | 21 => ⟨S1x1, .f32⟩
  | 22 => ⟨S640000x1, .f32⟩
  | 23 => ⟨S640000x1, .f32⟩
  | 24 => ⟨S640000x3, .f32⟩
  | 25 => ⟨S640000x3, .f32⟩
  | 26 => ⟨S_, .f32⟩
  | 27 => ⟨S50000x3, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_15 : Ref sig .tc := ⟨.hbm, 127, rfl⟩
abbrev main_v95 : Ref sig .tc := ⟨.hbm, 128, rfl⟩
abbrev main_v96 : Ref sig .tc := ⟨.hbm, 129, rfl⟩
abbrev main_cst_16 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_17 : Ref sig .tc := ⟨.hbm, 138, rfl⟩
abbrev main_v104 : Ref sig .tc := ⟨.hbm, 139, rfl⟩
abbrev main_cst_18 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_20 : Ref sig .tc := ⟨.hbm, 154, rfl⟩
abbrev main_v117 : Ref sig .tc := ⟨.hbm, 155, rfl⟩
abbrev main_c_21 : Ref sig .tc := ⟨.hbm, 156, rfl⟩
abbrev main_v118 : Ref sig .tc := ⟨.hbm, 157, rfl⟩
abbrev main_v119 : Ref sig .tc := ⟨.hbm, 158, rfl⟩
abbrev main_c_22 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1536_S1x1536_1 : S1536.BroadcastsInDim S1x1536 (![1] : Fin 1 → Fin S1x1536.rank)
  bcast_S1x1536_S50000x1536_0_1 : S1x1536.BroadcastsInDim S50000x1536 (![0, 1] : Fin 2 → Fin S50000x1536.rank)
  slices_S50000x1536_S50000x512_0_0 : S50000x1536.Slices ![0, 0] S50000x512
  slices_S50000x1536_S50000x512_0_512 : S50000x1536.Slices ![0, 512] S50000x512
  slices_S50000x1536_S50000x512_0_1024 : S50000x1536.Slices ![0, 1024] S50000x512
  shapeCasts_S50000x512_S50000x8x64 : S50000x512.ShapeCasts S50000x8x64
  bcast_S_S50000x8x8 : S_.BroadcastsInDim S50000x8x8 (![] : Fin 0 → Fin S50000x8x8.rank)
  reducesTo_S50000x8x8_S50000x8_d2 : S50000x8x8.ReducesTo [2] S50000x8
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S50000x8x1_S50000x8x8_0_1_2 : S50000x8x1.BroadcastsInDim S50000x8x8 (![0, 1, 2] : Fin 3 → Fin S50000x8x8.rank)
  shapeCasts_S50000x8x64_S50000x512 : S50000x8x64.ShapeCasts S50000x512
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S1_d0 : S640000x1.ReducesTo [0] S1
  bcast_S_S1 : S_.BroadcastsInDim S1 (![] : Fin 0 → Fin S1.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  gather_S50000x3_S640000x1_S640000x3_1_0_n_n_0_1_13_wf : GatherDims.WF S50000x3 S640000x1 S640000x3 [1] [0] [] [0] [] 1 ![1, 3]
  gather_S50000x128_S640000x1_S640000x128_1_0_n_n_0_1_1128_wf : GatherDims.WF S50000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S50000x128_S128x1536_S50000x1536_1_0_0_1_n_n_wf : DotDims.WF S50000x128 S128x1536 S50000x1536 [1] [0] [0] [1] [] []
  dot_S50000x8x64_S50000x8x64_S50000x8x8_2_2_1_1_0_0_wf : DotDims.WF S50000x8x64 S50000x8x64 S50000x8x8 [2] [2] [1] [1] [0] [0]
  dot_S50000x8x8_S50000x8x64_S50000x8x64_2_1_1_2_0_0_wf : DotDims.WF S50000x8x8 S50000x8x64 S50000x8x64 [2] [1] [1] [2] [0] [0]
  dot_S50000x512_S512x128_S50000x128_1_0_0_1_n_n_wf : DotDims.WF S50000x512 S512x128 S50000x128 [1] [0] [0] [1] [] []
  dot_S640000x128_S128x1_S640000x1_1_0_0_1_n_n_wf : DotDims.WF S640000x128 S128x1 S640000x1 [1] [0] [0] [1] [] []
  scatter_S50000x3_S640000x1_S640000x3_1_0_0_1_wf : ScatterDims.WF S50000x3 S640000x1 S640000x3 [1] [0] [0] 1

variable [Facts₀]

def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S50000x128_S128x1536_S50000x1536_1_0_0_1_n_n : DotDims S50000x128 S128x1536 S50000x1536 where
  lhsContracting := [1]
  rhsContracting := [0]
  lhsNonContracting := [0]
  rhsNonContracting := [1]
  lhsBatch := []
  rhsBatch := []
  wf := dot_S50000x128_S128x1536_S50000x1536_1_0_0_1_n_n_wf
def dot_S50000x8x64_S50000x8x64_S50000x8x8_2_2_1_1_0_0 : DotDims S50000x8x64 S50000x8x64 S50000x8x8 where
  lhsContracting := [2]
  rhsContracting := [2]
  lhsNonContracting := [1]
  rhsNonContracting := [1]
  lhsBatch := [0]
  rhsBatch := [0]
  wf := dot_S50000x8x64_S50000x8x64_S50000x8x8_2_2_1_1_0_0_wf
def dot_S50000x8x8_S50000x8x64_S50000x8x64_2_1_1_2_0_0 : DotDims S50000x8x8 S50000x8x64 S50000x8x64 where
  lhsContracting := [2]
  rhsContracting := [1]
  lhsNonContracting := [1]
  rhsNonContracting := [2]
  lhsBatch := [0]
  rhsBatch := [0]
  wf := dot_S50000x8x8_S50000x8x64_S50000x8x64_2_1_1_2_0_0_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf

class Facts : Prop extends Facts₀ where

variable [Facts]
-- ==== Proof.KernelRun.lean ====
/-
  The idealized kernel program's run with its two results named.

  The program is four stretches: host operations, the edge region, host operations, the node region.  The contents
  of every unscoped buffer after each stretch are a fold from the launch memory (`W0` … `W4` of the generated frame
  module); the run ends with every unscoped buffer at `W4`.  Read at the two result buffers this gives the results'
  final contents, beside the arguments, which end as launched.
-/
import proofs.«151386_j49555332662092_1_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two results end at the last
    boundary's contents and the arguments as launched. -/
theorem run_values : θ_run defs (onTc (τ := τ) (main (F := F))) ⟨m, fun _ => 0, ρ⟩ (fun r => ∀ c : Dev nD,
      r.2.mem ((c.tc : Thread nD τ).loc main_v76) = W4 m ρ c (Proc.devRef .tc main_v76)
      ∧ r.2.mem ((c.tc : Thread nD τ).loc main_v65) = W4 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v76 (by decide)), h c _ (mem_uc main_v65 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Values

end
-- ==== Proof.Tail.lean ====
/-
  The last stretch of host operations, shared by both programs: a softmax of the edge logits over ALL edges
  (shifted by their maximum taken from the floor `0xFF800000`, the denominator a sum over every edge), each edge's
  weight times its relative position, and the scatter-add of those rows into the nodes (an index below zero counts
  from the end).  It is carried as ONE function of the logits, the relative positions and the row indices and never
  opened: the two programs apply it to equal arguments.
-/
import proofs.«151386_j49555332662092_1_alg».proof.Proof.Gen.ReferenceIdeal
import Idealize.ShloMosaic.PureOps.Ideal

noncomputable section

namespace Cert.Tail

open Cert.ReferenceIdeal Cert.ReferenceIdeal.Gen Idealize.ShloMosaic

/-- The exponentials of the shifted logits. -/
def expd (ew : FVec Ideal S640000x1 .f32) : FVec Ideal S640000x1 .f32 :=
  Host.exp (F := Ideal) (subf ew (broadcastInDim S640000x1 ![0, 1] bcast_S1x1_S640000x1_0_1 (broadcastInDim S1x1 ![1] bcast_S1_S1x1_1 (maximumf (broadcastInDim S1 ![] bcast_S_S1 (constant (F := Ideal) S_ .f32 0xFF800000#32)) (Host.reduce (FloatOps.maximumf (F := Ideal)) ew (constant (F := Ideal) S_ .f32 0xFF800000#32) reducesTo_S640000x1_S1_d0 h_S_)))))

/-- The coordinate update: softmax weights times relative positions, scatter-added by row index. -/
def coords (ew : FVec Ideal S640000x1 .f32) (rel : FVec Ideal S640000x3 .f32) (rowi : IVec S640000 32) :
    FVec Ideal S50000x3 .f32 :=
  Host.scatterAdd (F := Ideal) scatter_S50000x3_S640000x1_S640000x3_1_0_0_1 (broadcastInDim S50000x3 ![] bcast_S_S50000x3 (constant (F := Ideal) S_ .f32 0x00000000#32)) (broadcastInDim S640000x1 ![0] bcast_S640000_S640000x1_0 (select (cmpi .slt rowi (broadcastInDim S640000 ![] bcast_S_S640000 (constantI S_ 32 0#32))) (addi rowi (broadcastInDim S640000 ![] bcast_S_S640000 (constantI S_ 32 50000#32))) rowi)) (mulf (broadcastInDim S640000x3 ![0, 1] bcast_S640000x1_S640000x3_0_1 (Host.divf (F := Ideal) (expd ew) (broadcastInDim S640000x1 ![0, 1] bcast_S1x1_S640000x1_0_1 (broadcastInDim S1x1 ![1] bcast_S1_S1x1_1 (Host.reduceAdd (F := Ideal) (expd ew) (constant (F := Ideal) S_ .f32 0x00000000#32) reducesTo_S640000x1_S1_d0 h_S_))))) rel)

end Cert.Tail

end
-- ==== Proof.HostTerms.lean ====
/-
  The host-side quantities both programs compute from the arguments before any floating-point work that differs:
  the two rows of edge indices, the index normalisation (an index below zero counts from the end), the gathered
  node rows and positions, the relative positions and their squared lengths.  Both programs print the same
  operations for them; they are carried by name and never opened.
-/
import proofs.«151386_j49555332662092_1_alg».proof.Proof.Gen.ReferenceIdeal
import Idealize.ShloMosaic.PureOps.Ideal

noncomputable section

namespace Cert.HostTerms

open Cert.ReferenceIdeal Cert.ReferenceIdeal.Gen Idealize.ShloMosaic

/-- Row `o` (0: sources, 1: targets) of the [2, E] index array, as a vector of E indices. -/
def rowIdx (a2 : IVec S2x640000 32) : IVec S640000 32 :=
  shapeCast _ (extractStridedSlice S1x640000 ![0, 0] a2 slices_S2x640000_S1x640000_0_0) shapeCasts_S1x640000_S640000
def colIdx (a2 : IVec S2x640000 32) : IVec S640000 32 :=
  shapeCast _ (extractStridedSlice S1x640000 ![1, 0] a2 slices_S2x640000_S1x640000_1_0) shapeCasts_S1x640000_S640000

/-- The index normalisation before a gather or scatter: an index below zero has the table length added; the
    result as a column of start indices. -/
def wrap (r : IVec S640000 32) : IVec S640000x1 32 :=
  broadcastInDim S640000x1 ![0] bcast_S640000_S640000x1_0 (select (cmpi .slt r (broadcastInDim S640000 ![] bcast_S_S640000 (constantI S_ 32 0#32))) (addi r (broadcastInDim S640000 ![] bcast_S_S640000 (constantI S_ 32 50000#32))) r)

/-- The node rows gathered at the edges' sources and targets. -/
def gatherRow (a0 : FVec Ideal S50000x128 .f32) (a2 : IVec S2x640000 32) : FVec Ideal S640000x128 .f32 :=
  Host.gather gather_S50000x128_S640000x1_S640000x128_1_0_n_n_0_1_1128 a0 (wrap (rowIdx a2))
def gatherCol (a0 : FVec Ideal S50000x128 .f32) (a2 : IVec S2x640000 32) : FVec Ideal S640000x128 .f32 :=
  Host.gather gather_S50000x128_S640000x1_S640000x128_1_0_n_n_0_1_1128 a0 (wrap (colIdx a2))

/-- The edges' relative positions: source position minus target position. -/
def relPos (a1 : FVec Ideal S50000x3 .f32) (a2 : IVec S2x640000 32) : FVec Ideal S640000x3 .f32 :=
  subf (Host.gather gather_S50000x3_S640000x1_S640000x3_1_0_n_n_0_1_13 a1 (wrap (rowIdx a2))) (Host.gather gather_S50000x3_S640000x1_S640000x3_1_0_n_n_0_1_13 a1 (wrap (colIdx a2)))

/-- Their squared lengths, as a column. -/
def sqDist (a1 : FVec Ideal S50000x3 .f32) (a2 : IVec S2x640000 32) : FVec Ideal S640000x1 .f32 :=
  broadcastInDim S640000x1 ![0] bcast_S640000_S640000x1_0 (Host.reduceAdd (F := Ideal) (mulf (relPos a1 a2) (relPos a1 a2)) (constant (F := Ideal) S_ .f32 0x00000000#32) reducesTo_S640000x3_S640000_d1 h_S_)

end Cert.HostTerms

end
-- ==== Proof.KernelSide.lean ====
/-
  The kernel program's buffers at the boundaries of its four stretches, read back to the arguments.

  Before the edge region the host prepares the gathered rows, the relative positions and their squared lengths,
  and cuts the first edge weight into its three row blocks and the bias vectors into rows; between the regions it
  runs the shared last stretch on the edge logits and cuts the projection weight and bias into their three column
  blocks.  No stretch writes an argument.  Each buffer a region reads is named here as its operations' term of the
  arguments; the coordinate result is the shared last stretch of the edge logits, the relative positions and the
  row indices.
-/
import proofs.«151386_j49555332662092_1_alg».proof.Proof.KernelRun
import proofs.«151386_j49555332662092_1_alg».proof.Proof.Tail
import proofs.«151386_j49555332662092_1_alg».proof.Proof.HostTerms
import Idealize.ShloMosaic.Lib.StableHlo.Run

set_option maxRecDepth 16384

noncomputable section

namespace Cert.KernelIdeal.Values

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg1 : W1 m ρ c (Proc.devRef .tc main_arg1) = m ((c : Thread nD τ).loc main_arg1) := by
  show StableHlo.after hostOps0 (W0 m ρ c) (Proc.devRef .tc main_arg1) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg9 : W1 m ρ c (Proc.devRef .tc main_arg9) = m ((c : Thread nD τ).loc main_arg9) := by
  show StableHlo.after hostOps0 (W0 m ρ c) (Proc.devRef .tc main_arg9) = _
  after_results_simp <;> rfl
theorem W1_arg10 : W1 m ρ c (Proc.devRef .tc main_arg10) = m ((c : Thread nD τ).loc main_arg10) := by
  show StableHlo.after hostOps0 (W0 m ρ c) (Proc.devRef .tc main_arg10) = _
  after_results_simp <;> rfl
theorem W1_arg11 : W1 m ρ c (Proc.devRef .tc main_arg11) = m ((c : Thread nD τ).loc main_arg11) := by
  show StableHlo.after hostOps0 (W0 m ρ c) (Proc.devRef .tc main_arg11) = _
  after_results_simp <;> rfl
theorem W1_arg12 : W1 m ρ c (Proc.devRef .tc main_arg12) = m ((c : Thread nD τ).loc main_arg12) := by
  show StableHlo.after hostOps0 (W0 m ρ c) (Proc.devRef .tc main_arg12) = _
  after_results_simp <;> rfl
theorem W1_arg13 : W1 m ρ c (Proc.devRef .tc main_arg13) = m ((c : Thread nD τ).loc main_arg13) := by
  show StableHlo.after hostOps0 (W0 m ρ c) (Proc.devRef .tc main_arg13) = _
  after_results_simp <;> rfl
theorem W1_arg14 : W1 m ρ c (Proc.devRef .tc main_arg14) = m ((c : Thread nD τ).loc main_arg14) := by
  show StableHlo.after hostOps0 (W0 m ρ c) (Proc.devRef .tc main_arg14) = _
  after_results_simp <;> rfl

theorem W1_v1 : W1 m ρ c (Proc.devRef .tc main_v1) = Cert.HostTerms.rowIdx (m ((c : Thread nD τ).loc main_arg2)) := by
  show StableHlo.after hostOps0 (W0 m ρ c) (Proc.devRef .tc main_v1) = _
  after_results_simp
  rfl
theorem W1_v32 : W1 m ρ c (Proc.devRef .tc main_v32) = Cert.HostTerms.relPos (m ((c : Thread nD τ).loc main_arg1)) (m ((c : Thread nD τ).loc main_arg2)) := by
  show StableHlo.after hostOps0 (W0 m ρ c) (Proc.devRef .tc main_v32) = _
  after_results_simp
  rfl
theorem W1_v10 : W1 m ρ c (Proc.devRef .tc main_v10) = Cert.HostTerms.gatherRow (m ((c : Thread nD τ).loc main_arg0)) (m ((c : Thread nD τ).loc main_arg2)) := by
  show StableHlo.after hostOps0 (W0 m ρ c) (Proc.devRef .tc main_v10) = _
  after_results_simp
  rfl
theorem W1_v17 : W1 m ρ c (Proc.devRef .tc main_v17) = Cert.HostTerms.gatherCol (m ((c : Thread nD τ).loc main_arg0)) (m ((c : Thread nD τ).loc main_arg2)) := by
  show StableHlo.after hostOps0 (W0 m ρ c) (Proc.devRef .tc main_v17) = _
  after_results_simp
  rfl
theorem W1_v35 : W1 m ρ c (Proc.devRef .tc main_v35) = Cert.HostTerms.sqDist (m ((c : Thread nD τ).loc main_arg1)) (m ((c : Thread nD τ).loc main_arg2)) := by
  show StableHlo.after hostOps0 (W0 m ρ c) (Proc.devRef .tc main_v35) = _
  after_results_simp
  rfl
theorem W1_v36 : W1 m ρ c (Proc.devRef .tc main_v36) = extractStridedSlice S128x128 ![0, 0] (m ((c : Thread nD τ).loc main_arg7)) slices_S257x128_S128x128_0_0 := by
  show StableHlo.after hostOps0 (W0 m ρ c) (Proc.devRef .tc main_v36) = _
  after_results_simp
theorem W1_v37 : W1 m ρ c (Proc.devRef .tc main_v37) = extractStridedSlice S128x128 ![128, 0] (m ((c : Thread nD τ).loc main_arg7)) slices_S257x128_S128x128_128_0 := by
  show StableHlo.after hostOps0 (W0 m ρ c) (Proc.devRef .tc main_v37) = _
  after_results_simp
theorem W1_v38 : W1 m ρ c (Proc.devRef .tc main_v38) = extractStridedSlice S1x128 ![256, 0] (m ((c : Thread nD τ).loc main_arg7)) slices_S257x128_S1x128_256_0 := by
  show StableHlo.after hostOps0 (W0 m ρ c) (Proc.devRef .tc main_v38) = _
  after_results_simp
theorem W1_v39 : W1 m ρ c (Proc.devRef .tc main_v39) = shapeCast S1x128 (m ((c : Thread nD τ).loc main_arg8)) shapeCasts_S128_S1x128 := by
  show StableHlo.after hostOps0 (W0 m ρ c) (Proc.devRef .tc main_v39) = _
  after_results_simp
  rfl
theorem W1_v40 : W1 m ρ c (Proc.devRef .tc main_v40) = shapeCast S1x128 (m ((c : Thread nD τ).loc main_arg10)) shapeCasts_S128_S1x128 := by
  show StableHlo.after hostOps0 (W0 m ρ c) (Proc.devRef .tc main_v40) = _
  after_results_simp
  rfl
theorem W1_v41 : W1 m ρ c (Proc.devRef .tc main_v41) = shapeCast S1x128 (m ((c : Thread nD τ).loc main_arg12)) shapeCasts_S128_S1x128 := by
  show StableHlo.after hostOps0 (W0 m ρ c) (Proc.devRef .tc main_v41) = _
  after_results_simp
  rfl
theorem W1_v42 : W1 m ρ c (Proc.devRef .tc main_v42) = shapeCast S1x1 (m ((c : Thread nD τ).loc main_arg14)) shapeCasts_S1_S1x1 := by
  show StableHlo.after hostOps0 (W0 m ρ c) (Proc.devRef .tc main_v42) = _
  after_results_simp
  rfl
theorem W1_v43 : W1 m ρ c (Proc.devRef .tc main_v43) = shapeCast S1x128 (m ((c : Thread nD τ).loc main_arg13)) shapeCasts_S128x1_S1x128 := by
  show StableHlo.after hostOps0 (W0 m ρ c) (Proc.devRef .tc main_v43) = _
  after_results_simp
  rfl

/-! ## After the edge region: only its output column has changed -/

theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_v1 : W2 m ρ c (Proc.devRef .tc main_v1) = Cert.HostTerms.rowIdx (m ((c : Thread nD τ).loc main_arg2)) :=
  (W2_of_ne m ρ c main_v1 (by decide)).trans (W1_v1 m ρ c)
theorem W2_v32 : W2 m ρ c (Proc.devRef .tc main_v32) = Cert.HostTerms.relPos (m ((c : Thread nD τ).loc main_arg1)) (m ((c : Thread nD τ).loc main_arg2)) :=
  (W2_of_ne m ρ c main_v32 (by decide)).trans (W1_v32 m ρ c)

/-! ## After the second host stretch -/

theorem W3_v65 : W3 m ρ c (Proc.devRef .tc main_v65)
    = Cert.Tail.coords (W2 m ρ c (Proc.devRef .tc main_v44)) (W2 m ρ c (Proc.devRef .tc main_v32)) (W2 m ρ c (Proc.devRef .tc main_v1)) := by
  show StableHlo.after hostOps1 (W2 m ρ c) (Proc.devRef .tc main_v65) = _
  after_results_simp
  rfl
theorem W3_arg0 : W3 m ρ c (Proc.devRef .tc main_arg0) = m ((c : Thread nD τ).loc main_arg0) := by
  show StableHlo.after hostOps1 (W2 m ρ c) (Proc.devRef .tc main_arg0) = _
  after_results_simp
  exact W2_arg0 m ρ c
theorem W3_arg5 : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_v66 : W3 m ρ c (Proc.devRef .tc main_v66) = extractStridedSlice S128x512 ![0, 0] (m ((c : Thread nD τ).loc main_arg3)) slices_S128x1536_S128x512_0_0 := by
  show StableHlo.after hostOps1 (W2 m ρ c) (Proc.devRef .tc main_v66) = _
  after_results_simp
  rw [W2_arg3 m ρ c]
theorem W3_v67 : W3 m ρ c (Proc.devRef .tc main_v67) = extractStridedSlice S128x512 ![0, 512] (m ((c : Thread nD τ).loc main_arg3)) slices_S128x1536_S128x512_0_512 := by
  show StableHlo.after hostOps1 (W2 m ρ c) (Proc.devRef .tc main_v67) = _
  after_results_simp
  rw [W2_arg3 m ρ c]
theorem W3_v68 : W3 m ρ c (Proc.devRef .tc main_v68) = extractStridedSlice S128x512 ![0, 1024] (m ((c : Thread nD τ).loc main_arg3)) slices_S128x1536_S128x512_0_1024 := by
  show StableHlo.after hostOps1 (W2 m ρ c) (Proc.devRef .tc main_v68) = _
  after_results_simp
  rw [W2_arg3 m ρ c]
theorem W3_v70 : W3 m ρ c (Proc.devRef .tc main_v70) = shapeCast S1x512 (extractStridedSlice S512 ![0] (m ((c : Thread nD τ).loc main_arg4)) slices_S1536_S512_0) shapeCasts_S512_S1x512 := by
  show StableHlo.after hostOps1 (W2 m ρ c) (Proc.devRef .tc main_v70) = _
  after_results_simp
  rw [W2_arg4 m ρ c]
  rfl
theorem W3_v72 : W3 m ρ c (Proc.devRef .tc main_v72) = shapeCast S1x512 (extractStridedSlice S512 ![512] (m ((c : Thread nD τ).loc main_arg4)) slices_S1536_S512_512) shapeCasts_S512_S1x512 := by
  show StableHlo.after hostOps1 (W2 m ρ c) (Proc.devRef .tc main_v72) = _
  after_results_simp
  rw [W2_arg4 m ρ c]
  rfl
theorem W3_v74 : W3 m ρ c (Proc.devRef .tc main_v74) = shapeCast S1x512 (extractStridedSlice S512 ![1024] (m ((c : Thread nD τ).loc main_arg4)) slices_S1536_S512_1024) shapeCasts_S512_S1x512 := by
  show StableHlo.after hostOps1 (W2 m ρ c) (Proc.devRef .tc main_v74) = _
  after_results_simp
  rw [W2_arg4 m ρ c]
  rfl
theorem W3_v75 : W3 m ρ c (Proc.devRef .tc main_v75) = shapeCast S1x128 (m ((c : Thread nD τ).loc main_arg6)) shapeCasts_S128_S1x128 := by
  show StableHlo.after hostOps1 (W2 m ρ c) (Proc.devRef .tc main_v75) = _
  after_results_simp
  rw [W2_arg6 m ρ c]
  rfl

end Cert.KernelIdeal.Values

end
-- ==== Proof.Spec.lean ====
/-
  The two row functions both programs compute, on the extended reals.

  * `nodeRow`: one node's output features.  The node's 128 inputs are projected three times to 512 lanes
    (queries, keys, values: a sum over the inputs plus a bias), the 512 lanes are read as 8 heads of 64; head
    `hh` scores every head `j` by the dot product of its query with `j`'s key times 1/8, the eight scores go
    through a softmax (shifted by their maximum), the head's feature is the softmax-weighted sum of the eight
    value heads, and the 512 features are projected back to 128 lanes (a sum plus a bias).
  * `edgeRow`: one edge's logit.  Three affine layers of width 128 with `z · logistic z` after each; the first
    layer reads the two gathered node rows and the squared distance (a sum over 128 + a sum over 128 + one
    product + bias); the last step is a dot product with a weight row plus a bias.

  Literals stay as their f32 words: 1/8 is `0x3E000000`, the softmax's floor is `0xFF800000`.
-/
import Idealize.ShloMosaic.PureOps.Ideal
import Idealize.ShloMosaic.Lib.ValueIdx

noncomputable section

namespace Cert.Spec

open Idealize.ShloMosaic

/-- The f32 word of minus infinity, the floor every maximum starts from. -/
def FLOOR : EReal := Ideal.ofBits .f32 0xFF800000#32
/-- The f32 word of 1/8 = 64^(-1/2). -/
def EIGHTH : EReal := Ideal.ofBits .f32 0x3E000000#32

/-- `z · logistic z`. -/
def silu (z : EReal) : EReal := z * Ideal.logistic z

/-- Lane `hh·64 + d` of a 512-lane row: coordinate `d` of head `hh`. -/
def lane (hh : Fin 8) (d : Fin 64) : Fin 512 := ⟨hh.val * 64 + d.val, by omega⟩
/-- The head a lane belongs to, and its coordinate inside the head. -/
def headOf (c : Fin 512) : Fin 8 := ⟨c.val / 64, by omega⟩
def coordOf (c : Fin 512) : Fin 64 := ⟨c.val % 64, by omega⟩

/-- Column `o·512 + c` of the 1536-column projection weight: block `o` is the queries' (0), keys' (1) or values' (2). -/
def col3 (o : Fin 3) (c : Fin 512) : Fin 1536 := ⟨o.val * 512 + c.val, by omega⟩
/-- Row `o·128 + a` of the 257-row first edge weight: block `o` multiplies the first (0) or second (1) gathered row. -/
def row2 (o : Fin 2) (a : Fin 128) : Fin 257 := ⟨o.val * 128 + a.val, by omega⟩
/-- The last row of that weight, which multiplies the squared distance. -/
def rowLast : Fin 257 := ⟨256, by omega⟩

/-- An affine projection of a 128-vector to lane `c`: the sum over the inputs, then the bias. -/
def proj {n : Nat} (x : Fin 128 → EReal) (W : Fin 128 → Fin n → EReal) (b : Fin n → EReal) (c : Fin n) : EReal :=
  (∑ a : Fin 128, x a * W a c) + b c

/-- Head `hh`'s score of head `j`: the dot product over the 64 coordinates, times 1/8. -/
def score (q k : Fin 512 → EReal) (hh j : Fin 8) : EReal :=
  (∑ d : Fin 64, q (lane hh d) * k (lane j d)) * EIGHTH

/-- The shift of a softmax over eight scores: their maximum, taken from the floor. -/
def shift (s : Fin 8 → EReal) : EReal := max FLOOR ((Finset.univ : Finset (Fin 8)).fold max FLOOR s)

/-- The softmax of eight scores at position `j`. -/
def softmax8 (s : Fin 8 → EReal) (j : Fin 8) : EReal :=
  Ideal.div (Ideal.exp (s j - shift s)) (∑ j' : Fin 8, Ideal.exp (s j' - shift s))

/-- Coordinate `d` of head `hh`'s feature: the softmax-weighted sum of the eight value heads. -/
def feat (q k v : Fin 512 → EReal) (hh : Fin 8) (d : Fin 64) : EReal :=
  ∑ j : Fin 8, softmax8 (score q k hh) j * v (lane j d)

/-- One node's output at lane `f`. -/
def nodeRow (x : Fin 128 → EReal)
    (Wq : Fin 128 → Fin 512 → EReal) (bq : Fin 512 → EReal)
    (Wk : Fin 128 → Fin 512 → EReal) (bk : Fin 512 → EReal)
    (Wv : Fin 128 → Fin 512 → EReal) (bv : Fin 512 → EReal)
    (Wo : Fin 512 → Fin 128 → EReal) (bo : Fin 128 → EReal) (f : Fin 128) : EReal :=
  (∑ c : Fin 512, feat (proj x Wq bq) (proj x Wk bk) (proj x Wv bv) (headOf c) (coordOf c) * Wo c f) + bo f

/-- A linear map of a 128-vector to lane `l`. -/
def lin (x : Fin 128 → EReal) (W : Fin 128 → Fin 128 → EReal) (l : Fin 128) : EReal :=
  ∑ a : Fin 128, x a * W a l

/-- The first edge layer: the two gathered rows through their halves of the weight, the squared distance times its
    weight row, the bias, then `silu`. -/
def edge1 (hr hc : Fin 128 → EReal) (rd : EReal) (W1a W1b : Fin 128 → Fin 128 → EReal) (w1c b1 : Fin 128 → EReal)
    (l : Fin 128) : EReal :=
  silu (((lin hr W1a l + lin hc W1b l) + rd * w1c l) + b1 l)

/-- A later layer: linear map, bias, `silu`. -/
def layer (x : Fin 128 → EReal) (W : Fin 128 → Fin 128 → EReal) (b : Fin 128 → EReal) (l : Fin 128) : EReal :=
  silu (lin x W l + b l)

/-- One edge's logit. -/
def edgeRow (hr hc : Fin 128 → EReal) (rd : EReal) (W1a W1b : Fin 128 → Fin 128 → EReal) (w1c b1 : Fin 128 → EReal)
    (W2 : Fin 128 → Fin 128 → EReal) (b2 : Fin 128 → EReal) (Wc : Fin 128 → Fin 128 → EReal) (bc : Fin 128 → EReal)
    (wd : Fin 128 → EReal) (bd : EReal) : EReal :=
  (∑ l : Fin 128, layer (layer (edge1 hr hc rd W1a W1b w1c b1) W2 b2) Wc bc l * wd l) + bd

end Cert.Spec

end
-- ==== Proof.ArrDef.lean ====
/-
  The two output arrays of the kernel program's regions as whole-array functions.

  `nodeArr`: at `(n, f)`, the node row function of row `n` of the node table and the weight arrays, at lane `f`.
  `edgeArr`: at `(e, 0)`, the edge row function of rows `e` of the two gathered tables, entry `e` of the distance
  column and the weight arrays.  Both row functions respect pointwise equal arguments.
-/
import proofs.«151386_j49555332662092_1_alg».proof.Proof.Gen.KernelIdeal
import proofs.«151386_j49555332662092_1_alg».proof.Proof.Spec
import Idealize.ShloMosaic.Lib.ValueIdx

noncomputable section

namespace Cert.KernelIdeal.Values

open Cert.KernelIdeal Cert.KernelIdeal.Gen
open Idealize.ShloMosaic Idealize.ShloMosaic.ValueIdx

/-- The array of node outputs: at `(n, f)`, the row function of node `n`'s row and the weights, at lane `f`. -/
def nodeArr (B0 : S50000x128.Idx → EReal) (Q : S128x512.Idx → EReal) (bQ : S1x512.Idx → EReal)
    (K : S128x512.Idx → EReal) (bK : S1x512.Idx → EReal) (Vw : S128x512.Idx → EReal) (bV : S1x512.Idx → EReal)
    (O : S512x128.Idx → EReal) (bO : S1x128.Idx → EReal) : S50000x128.Idx → EReal :=
  fun i => Cert.Spec.nodeRow (fun a => B0 (ix2 (n0 := 50000) (i 0) a)) (fun a c => Q (ix2 a c)) (fun c => bQ (ix2 0 c))
    (fun a c => K (ix2 a c)) (fun c => bK (ix2 0 c)) (fun a c => Vw (ix2 a c)) (fun c => bV (ix2 0 c))
    (fun c f => O (ix2 c f)) (fun f => bO (ix2 0 f)) (i 1)

/-- The node row function respects pointwise equal arguments. -/
theorem nodeRow_congr {x x' : Fin 128 → EReal} {Wq Wq' : Fin 128 → Fin 512 → EReal} {bq bq' : Fin 512 → EReal}
    {Wk Wk' : Fin 128 → Fin 512 → EReal} {bk bk' : Fin 512 → EReal} {Wv Wv' : Fin 128 → Fin 512 → EReal} {bv bv' : Fin 512 → EReal}
    {Wo Wo' : Fin 512 → Fin 128 → EReal} {bo bo' : Fin 128 → EReal} {f f' : Fin 128}
    (hx : ∀ a, x a = x' a) (hq : ∀ a c, Wq a c = Wq' a c) (hbq : ∀ c, bq c = bq' c)
    (hk : ∀ a c, Wk a c = Wk' a c) (hbk : ∀ c, bk c = bk' c) (hv : ∀ a c, Wv a c = Wv' a c) (hbv : ∀ c, bv c = bv' c)
    (ho : ∀ c f, Wo c f = Wo' c f) (hbo : ∀ f, bo f = bo' f) (hf : f = f') :
    Cert.Spec.nodeRow x Wq bq Wk bk Wv bv Wo bo f = Cert.Spec.nodeRow x' Wq' bq' Wk' bk' Wv' bv' Wo' bo' f' := by
  obtain rfl : x = x' := funext hx
  obtain rfl : Wq = Wq' := funext fun a => funext (hq a)
  obtain rfl : bq = bq' := funext hbq
  obtain rfl : Wk = Wk' := funext fun a => funext (hk a)
  obtain rfl : bk = bk' := funext hbk
  obtain rfl : Wv = Wv' := funext fun a => funext (hv a)
  obtain rfl : bv = bv' := funext hbv
  obtain rfl : Wo = Wo' := funext fun a => funext (ho a)
  obtain rfl : bo = bo' := funext hbo
  rw [hf]

/-- The column of edge logits: at `(e, 0)`, the edge row function of edge `e`'s gathered rows and distance. -/
def edgeArr (HR HC : S640000x128.Idx → EReal) (RD : S640000x1.Idx → EReal)
    (W1a W1b : S128x128.Idx → EReal) (w1c b1 : S1x128.Idx → EReal) (W2 : S128x128.Idx → EReal) (b2 : S1x128.Idx → EReal)
    (Wc : S128x128.Idx → EReal) (bc : S1x128.Idx → EReal) (wd : S1x128.Idx → EReal) (bd : S1x1.Idx → EReal) :
    S640000x1.Idx → EReal :=
  fun i => Cert.Spec.edgeRow (fun a => HR (ix2 (n0 := 640000) (i 0) a)) (fun a => HC (ix2 (n0 := 640000) (i 0) a))
    (RD (ix2 (n0 := 640000) (i 0) 0))
    (fun a l => W1a (ix2 a l)) (fun a l => W1b (ix2 a l)) (fun l => w1c (ix2 0 l)) (fun l => b1 (ix2 0 l))
    (fun a l => W2 (ix2 a l)) (fun l => b2 (ix2 0 l)) (fun a l => Wc (ix2 a l)) (fun l => bc (ix2 0 l))
    (fun l => wd (ix2 0 l)) (bd (ix2 0 0))

/-- The edge row function respects pointwise equal arguments. -/
theorem edgeRow_congr {hr hr' hc hc' : Fin 128 → EReal} {rd rd' : EReal} {W1a W1a' W1b W1b' : Fin 128 → Fin 128 → EReal}
    {w1c w1c' b1 b1' : Fin 128 → EReal} {W2 W2' : Fin 128 → Fin 128 → EReal} {b2 b2' : Fin 128 → EReal}
    {Wc Wc' : Fin 128 → Fin 128 → EReal} {bc bc' wd wd' : Fin 128 → EReal} {bd bd' : EReal}
    (h1 : ∀ a, hr a = hr' a) (h2 : ∀ a, hc a = hc' a) (h3 : rd = rd') (h4 : ∀ a l, W1a a l = W1a' a l)
    (h5 : ∀ a l, W1b a l = W1b' a l) (h6 : ∀ l, w1c l = w1c' l) (h7 : ∀ l, b1 l = b1' l) (h8 : ∀ a l, W2 a l = W2' a l)
    (h9 : ∀ l, b2 l = b2' l) (h10 : ∀ a l, Wc a l = Wc' a l) (h11 : ∀ l, bc l = bc' l) (h12 : ∀ l, wd l = wd' l)
    (h13 : bd = bd') :
    Cert.Spec.edgeRow hr hc rd W1a W1b w1c b1 W2 b2 Wc bc wd bd
      = Cert.Spec.edgeRow hr' hc' rd' W1a' W1b' w1c' b1' W2' b2' Wc' bc' wd' bd' := by
  obtain rfl : hr = hr' := funext h1
  obtain rfl : hc = hc' := funext h2
  obtain rfl : W1a = W1a' := funext fun a => funext (h4 a)
  obtain rfl : W1b = W1b' := funext fun a => funext (h5 a)
  obtain rfl : w1c = w1c' := funext h6
  obtain rfl : b1 = b1' := funext h7
  obtain rfl : W2 = W2' := funext fun a => funext (h8 a)
  obtain rfl : b2 = b2' := funext h9
  obtain rfl : Wc = Wc' := funext fun a => funext (h10 a)
  obtain rfl : bc = bc' := funext h11
  obtain rfl : wd = wd' := funext h12
  rw [h3, h13]

end Cert.KernelIdeal.Values

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.NodeKernelBody.lean ====
import proofs.«151386_j49555332662092_1_alg».proof.Proof.Gen.KernelIdeal.Frame
import proofs.«151386_j49555332662092_1_alg».proof.Proof.Spec
import proofs.«151386_j49555332662092_1_alg».proof.Proof.LibRowMax
import proofs.«151386_j49555332662092_1_alg».proof.Proof.LibColumn
import proofs.«151386_j49555332662092_1_alg».proof.Proof.LibLastAxis

/-
  The per-node attention body as ONE structured term.

  The body's value is a regular computation: three affine projections of the node rows to 512 lanes (queries,
  keys, values), each cut into 8 heads of 64 lanes; for every query head the eight scores against the key heads
  (a lane sum of products, times 1/8) put side by side, a softmax along those eight, and the softmax-weighted sum
  of the eight value heads; the eight features side by side, projected back to 128 lanes.  This file writes that
  computation with one function per stage (`scoreCol`, `scores`, `softmaxRows`, `mix`, `headFeat`, `proj`,
  `outProj`, `body`), and shows that the generated payload terms compose to exactly it: every equation here holds
  by unfolding definitions.
-/

noncomputable section
open Idealize.ShloMosaic Idealize.ShloMosaic.ValueIdx Idealize.SL.Sem

namespace Cert.NodeKernel
open Cert.KernelIdeal Cert.KernelIdeal.Gen

variable {F : FTy → Type} [FloatOps F]

/-- The scores of one query head against one key head, as a column: the lane sum of the products, times 1/8. -/
def scoreCol (qh kj : FVec F S1000x64 .f32) : FVec F S1000x1 .f32 :=
  mulf (shapeCast S1000x1 (multiReduction .add [1] S1000 (mulf qh kj) 0x00000000#32 reduces_S1000x64_S1000 (.inl rfl) rfl)
      shapeCasts_S1000_S1000x1)
    (broadcast S1000x1 (Scalar.ofBits .f32 0x3E000000#32))

/-- The eight score columns of one query head, side by side. -/
def scores (qh k0 k1 k2 k3 k4 k5 k6 k7 : FVec F S1000x64 .f32) : FVec F S1000x8 .f32 :=
  concatenate S1000x8 1 [⟨S1000x1, scoreCol qh k0⟩, ⟨S1000x1, scoreCol qh k1⟩, ⟨S1000x1, scoreCol qh k2⟩,
    ⟨S1000x1, scoreCol qh k3⟩, ⟨S1000x1, scoreCol qh k4⟩, ⟨S1000x1, scoreCol qh k5⟩, ⟨S1000x1, scoreCol qh k6⟩,
    ⟨S1000x1, scoreCol qh k7⟩]
    concatenates_S1000x1_S1000x1_S1000x1_S1000x1_S1000x1_S1000x1_S1000x1_S1000x1_S1000x8_d1

/-- A row's maximum (taken from the floor), as a column broadcast back over the eight lanes. -/
def rowShift (s : FVec F S1000x8 .f32) : FVec F S1000x8 .f32 :=
  broadcastTo S1000x8 (shapeCast S1000x1
      (maximumf (broadcast S1000 (Scalar.ofBits .f32 0xFF800000#32))
        (multiReduction .maximumf [1] S1000 s 0xFF800000#32 reduces_S1000x8_S1000 (.inl rfl) rfl))
      shapeCasts_S1000_S1000x1) broadcasts_S1000x1_S1000x8

/-- The exponentials of the shifted scores. -/
def expShift (s : FVec F S1000x8 .f32) : FVec F S1000x8 .f32 := exp (subf s (rowShift s))

/-- A row's sum of exponentials, as a column broadcast back over the eight lanes. -/
def rowDen (e : FVec F S1000x8 .f32) : FVec F S1000x8 .f32 :=
  broadcastTo S1000x8 (shapeCast S1000x1
      (multiReduction .add [1] S1000 e 0x00000000#32 reduces_S1000x8_S1000 (.inl rfl) rfl)
      shapeCasts_S1000_S1000x1) broadcasts_S1000x1_S1000x8

/-- The softmax along the eight lanes. -/
def softmaxRows (s : FVec F S1000x8 .f32) : FVec F S1000x8 .f32 := divf (expShift s) (rowDen (expShift s))

/-- Lane `o` of the weights, broadcast over a head's 64 lanes, times that value head. -/
def wcol (a : FVec F S1000x8 .f32) (o : Nat) (h : S1000x8.Slices ![0, o] S1000x1) (v : FVec F S1000x64 .f32) :
    FVec F S1000x64 .f32 :=
  mulf (broadcastTo S1000x64 (extractStridedSlice S1000x1 ![0, o] a h) broadcasts_S1000x1_S1000x64) v

/-- The weighted sum of the eight value heads, summed from the left. -/
def mix (a : FVec F S1000x8 .f32) (v0 v1 v2 v3 v4 v5 v6 v7 : FVec F S1000x64 .f32) : FVec F S1000x64 .f32 :=
  addf (addf (addf (addf (addf (addf (addf (wcol a 0 slices_S1000x8_o0_0_S1000x1 v0) (wcol a 1 slices_S1000x8_o0_1_S1000x1 v1))
    (wcol a 2 slices_S1000x8_o0_2_S1000x1 v2)) (wcol a 3 slices_S1000x8_o0_3_S1000x1 v3))
    (wcol a 4 slices_S1000x8_o0_4_S1000x1 v4)) (wcol a 5 slices_S1000x8_o0_5_S1000x1 v5))
    (wcol a 6 slices_S1000x8_o0_6_S1000x1 v6)) (wcol a 7 slices_S1000x8_o0_7_S1000x1 v7)

/-- One head's feature. -/
def headFeat (qh k0 k1 k2 k3 k4 k5 k6 k7 v0 v1 v2 v3 v4 v5 v6 v7 : FVec F S1000x64 .f32) : FVec F S1000x64 .f32 :=
  mix (softmaxRows (scores qh k0 k1 k2 k3 k4 k5 k6 k7)) v0 v1 v2 v3 v4 v5 v6 v7

/-- An affine projection of the node rows to 512 lanes: the product into a zero accumulator, plus the bias row. -/
def proj (x : Vec F S1000x128 .f32) (w : Vec F S128x512 .f32) (b : Vec F S1x512 .f32) : FVec F S1000x512 .f32 :=
  addf (matmul dot_S1000x128_S128x512_S1000x512_1_0_0_1_n_n none (truncf .bf16 x bitsLt_bf16_f32)
      (truncf .bf16 (shapeCast S128x512 w shapeCasts_S128x512_S128x512) bitsLt_bf16_f32)
      (constant S1000x512 .f32 0x00000000#32))
    (broadcastTo S1000x512 (shapeCast S1x512 b shapeCasts_S1x512_S1x512) broadcasts_S1x512_S1000x512)

/-- The head whose lanes start at `o`. -/
def hd (o : Nat) (h : S1000x512.Slices ![0, o] S1000x64) (X : FVec F S1000x512 .f32) : FVec F S1000x64 .f32 :=
  extractStridedSlice S1000x64 ![0, o] X h

/-- The eight features side by side, projected back to 128 lanes, plus the bias row. -/
def outProj (f0 f1 f2 f3 f4 f5 f6 f7 : FVec F S1000x64 .f32) (w : Vec F S512x128 .f32) (b : Vec F S1x128 .f32) :
    FVec F S1000x128 .f32 :=
  addf (matmul dot_S1000x512_S512x128_S1000x128_1_0_0_1_n_n none
      (truncf .bf16 (concatenate S1000x512 1 [⟨S1000x64, f0⟩, ⟨S1000x64, f1⟩, ⟨S1000x64, f2⟩, ⟨S1000x64, f3⟩,
          ⟨S1000x64, f4⟩, ⟨S1000x64, f5⟩, ⟨S1000x64, f6⟩, ⟨S1000x64, f7⟩]
          concatenates_S1000x64_S1000x64_S1000x64_S1000x64_S1000x64_S1000x64_S1000x64_S1000x64_S1000x512_d1)
        bitsLt_bf16_f32)
      (truncf .bf16 w bitsLt_bf16_f32) (constant S1000x128 .f32 0x00000000#32))
    (broadcastTo S1000x128 (shapeCast S1x128 b shapeCasts_S1x128_S1x128) broadcasts_S1x128_S1000x128)

/-- Head `o`'s feature from the three projections. -/
def featOf (o : Nat) (h : S1000x512.Slices ![0, o] S1000x64) (Q K V : FVec F S1000x512 .f32) : FVec F S1000x64 .f32 :=
  headFeat (hd o h Q)
    (hd 0 slices_S1000x512_o0_0_S1000x64 K) (hd 64 slices_S1000x512_o0_64_S1000x64 K)
    (hd 128 slices_S1000x512_o0_128_S1000x64 K) (hd 192 slices_S1000x512_o0_192_S1000x64 K)
    (hd 256 slices_S1000x512_o0_256_S1000x64 K) (hd 320 slices_S1000x512_o0_320_S1000x64 K)
    (hd 384 slices_S1000x512_o0_384_S1000x64 K) (hd 448 slices_S1000x512_o0_448_S1000x64 K)
    (hd 0 slices_S1000x512_o0_0_S1000x64 V) (hd 64 slices_S1000x512_o0_64_S1000x64 V)
    (hd 128 slices_S1000x512_o0_128_S1000x64 V) (hd 192 slices_S1000x512_o0_192_S1000x64 V)
    (hd 256 slices_S1000x512_o0_256_S1000x64 V) (hd 320 slices_S1000x512_o0_320_S1000x64 V)
    (hd 384 slices_S1000x512_o0_384_S1000x64 V) (hd 448 slices_S1000x512_o0_448_S1000x64 V)

/-- The whole body from the three projections. -/
def bodyOf (Q K V : FVec F S1000x512 .f32) (w : Vec F S512x128 .f32) (b : Vec F S1x128 .f32) : FVec F S1000x128 .f32 :=
  outProj (featOf 0 slices_S1000x512_o0_0_S1000x64 Q K V) (featOf 64 slices_S1000x512_o0_64_S1000x64 Q K V)
    (featOf 128 slices_S1000x512_o0_128_S1000x64 Q K V) (featOf 192 slices_S1000x512_o0_192_S1000x64 Q K V)
    (featOf 256 slices_S1000x512_o0_256_S1000x64 Q K V) (featOf 320 slices_S1000x512_o0_320_S1000x64 Q K V)
    (featOf 384 slices_S1000x512_o0_384_S1000x64 Q K V) (featOf 448 slices_S1000x512_o0_448_S1000x64 Q K V) w b

/-- The whole body from the blocks read. -/
def body (x0 : Vec F S1000x128 .f32) (x1 : Vec F S128x512 .f32) (x2 : Vec F S1x512 .f32) (x3 : Vec F S128x512 .f32)
    (x4 : Vec F S1x512 .f32) (x5 : Vec F S128x512 .f32) (x6 : Vec F S1x512 .f32) (x7 : Vec F S512x128 .f32)
    (x8 : Vec F S1x128 .f32) : FVec F S1000x128 .f32 :=
  bodyOf (proj x0 x1 x2) (proj x0 x3 x4) (proj x0 x5 x6) x7 x8

/-! ## The payload terms compose to the structured term

Each equation holds by unfolding the payload definitions. -/

theorem head0_eq (q k0 k1 k2 k3 k4 k5 k6 k7 v0 v1 v2 v3 v4 v5 v6 v7 : FVec F S1000x64 .f32) :
    k1_pay37 v0 v1 v2 v3 v4 v5 v6 v7 (k1_pay29 q k0) (k1_pay30 q k1) (k1_pay31 q k2) (k1_pay32 q k3) (k1_pay33 q k4)
        (k1_pay34 q k5) (k1_pay35 q k6) (k1_pay36 q k7)
      = headFeat q k0 k1 k2 k3 k4 k5 k6 k7 v0 v1 v2 v3 v4 v5 v6 v7 := rfl

theorem head1_eq (q k0 k1 k2 k3 k4 k5 k6 k7 v0 v1 v2 v3 v4 v5 v6 v7 : FVec F S1000x64 .f32) :
    k1_pay42 v0 v1 v2 v3 v4 v5 v6 v7
        (k1_pay40 q k2 k3 k4 k5 k6 k7 (k1_pay38 q k0) (k1_pay39 q k1))
        (k1_pay41 q k2 k3 k4 k5 k6 k7 (k1_pay38 q k0) (k1_pay39 q k1))
      = headFeat q k0 k1 k2 k3 k4 k5 k6 k7 v0 v1 v2 v3 v4 v5 v6 v7 := rfl

theorem head2_eq (q k0 k1 k2 k3 k4 k5 k6 k7 v0 v1 v2 v3 v4 v5 v6 v7 : FVec F S1000x64 .f32) :
    k1_pay50 v4 v5 v6 v7
        (k1_pay47 q k4 k5 k6 k7 (k1_pay43 q k0) (k1_pay44 q k1) (k1_pay45 q k2) (k1_pay46 q k3))
        (k1_pay48 q k4 k5 k6 k7 v0 v1 v2 v3 (k1_pay43 q k0) (k1_pay44 q k1) (k1_pay45 q k2) (k1_pay46 q k3))
        (k1_pay49 q k4 k5 k6 k7 (k1_pay43 q k0) (k1_pay44 q k1) (k1_pay45 q k2) (k1_pay46 q k3))
      = headFeat q k0 k1 k2 k3 k4 k5 k6 k7 v0 v1 v2 v3 v4 v5 v6 v7 := rfl

theorem head3_eq (q k0 k1 k2 k3 k4 k5 k6 k7 v0 v1 v2 v3 v4 v5 v6 v7 : FVec F S1000x64 .f32) :
    k1_pay58 q k7 v0 v1 v2 v3 v4 v5 v6 v7 (k1_pay51 q k0) (k1_pay52 q k1) (k1_pay53 q k2) (k1_pay54 q k3)
        (k1_pay55 q k4) (k1_pay56 q k5) (k1_pay57 q k6)
      = headFeat q k0 k1 k2 k3 k4 k5 k6 k7 v0 v1 v2 v3 v4 v5 v6 v7 := rfl

theorem head4_eq (q k0 k1 k2 k3 k4 k5 k6 k7 v0 v1 v2 v3 v4 v5 v6 v7 : FVec F S1000x64 .f32) :
    k1_pay62 v0 v1 v2 v3 v4 v5 v6 v7
        (k1_pay60 q k1 k2 k3 k4 k5 k6 k7 (k1_pay59 q k0))
        (k1_pay61 q k1 k2 k3 k4 k5 k6 k7 (k1_pay59 q k0))
      = headFeat q k0 k1 k2 k3 k4 k5 k6 k7 v0 v1 v2 v3 v4 v5 v6 v7 := rfl

theorem head5_eq (q k0 k1 k2 k3 k4 k5 k6 k7 v0 v1 v2 v3 v4 v5 v6 v7 : FVec F S1000x64 .f32) :
    k1_pay69 v3 v4 v5 v6 v7
        (k1_pay67 q k4 k5 k6 k7 (k1_pay63 q k0) (k1_pay64 q k1) (k1_pay65 q k2) (k1_pay66 q k3))
        (k1_pay68 q k4 k5 k6 k7 v0 v1 v2 (k1_pay63 q k0) (k1_pay64 q k1) (k1_pay65 q k2) (k1_pay66 q k3))
      = headFeat q k0 k1 k2 k3 k4 k5 k6 k7 v0 v1 v2 v3 v4 v5 v6 v7 := rfl

theorem head6_eq (q k0 k1 k2 k3 k4 k5 k6 k7 v0 v1 v2 v3 v4 v5 v6 v7 : FVec F S1000x64 .f32) :
    k1_pay79 v7
        (k1_pay77 q k6 k7 v0 v1 v2 v3 v4 v5 v6 (k1_pay70 q k0) (k1_pay71 q k1) (k1_pay72 q k2) (k1_pay73 q k3)
          (k1_pay74 q k4) (k1_pay75 q k5) (Scalar.ofBits .f32 0x3E000000#32))
        (k1_pay78 q k6 k7 (k1_pay70 q k0) (k1_pay71 q k1) (k1_pay72 q k2) (k1_pay73 q k3)
          (k1_pay74 q k4) (k1_pay75 q k5) (Scalar.ofBits .f32 0x3E000000#32))
      = headFeat q k0 k1 k2 k3 k4 k5 k6 k7 v0 v1 v2 v3 v4 v5 v6 v7 := rfl

theorem head7_eq (q k0 k1 k2 k3 k4 k5 k6 k7 v0 v1 v2 v3 v4 v5 v6 v7 f0 f1 f2 f3 f4 f5 f6 : FVec F S1000x64 .f32)
    (w : Vec F S512x128 .f32) (b : Vec F S1x128 .f32) :
    k1_pay81 v0 v1 v2 v3 v4 v5 v6 v7 f0 f1 f2 f3 f4 f5 f6 (k1_pay80 q k0 k1 k2 k3 k4 k5 k6 k7) w b
      = outProj f0 f1 f2 f3 f4 f5 f6 (headFeat q k0 k1 k2 k3 k4 k5 k6 k7 v0 v1 v2 v3 v4 v5 v6 v7) w b := rfl

theorem proj_eq2 (x : Vec F S1000x128 .f32) (w : Vec F S128x512 .f32) (b : Vec F S1x512 .f32) :
    k1_pay2 x w b = proj x w b := rfl
theorem proj_eq3 (x : Vec F S1000x128 .f32) (w : Vec F S128x512 .f32) (b : Vec F S1x512 .f32) :
    k1_pay3 x w b = proj x w b := rfl
theorem proj_eq4 (x : Vec F S1000x128 .f32) (w : Vec F S128x512 .f32) (b : Vec F S1x512 .f32) :
    k1_pay4 x w b = proj x w b := rfl

set_option maxRecDepth 4096 in
/-- The body's output block is the structured term of the blocks read. -/
theorem out_eq (x0 : Vec F S1000x128 .f32) (x1 : Vec F S128x512 .f32) (x2 : Vec F S1x512 .f32) (x3 : Vec F S128x512 .f32)
    (x4 : Vec F S1x512 .f32) (x5 : Vec F S128x512 .f32) (x6 : Vec F S1x512 .f32) (x7 : Vec F S512x128 .f32)
    (x8 : Vec F S1x128 .f32) :
    out1_9 x0 x1 x2 x3 x4 x5 x6 x7 x8
      = View.canon [⟨r1_0, body (View.ld x0 r1_0) (View.ld x1 r1_1) (View.ld x2 r1_2) (View.ld x3 r1_1) (View.ld x4 r1_2)
          (View.ld x5 r1_1) (View.ld x6 r1_2) (View.ld x7 r1_3) (View.ld x8 r1_4)⟩] := by
  unfold out1_9
  rw [head7_eq, head0_eq, head1_eq, head2_eq, head3_eq, head4_eq, head5_eq, head6_eq]
  rfl

end Cert.NodeKernel
end
-- ==== Proof.NodeKernel.lean ====
import proofs.«151386_j49555332662092_1_alg».proof.Proof.NodeKernelBody

/-
  The per-node attention body read entry by entry on the extended reals.

  Each stage of the structured term (`NodeKernelBody`) is read at an index given by its coordinates: a score column
  is a lane sum of products times 1/8, the eight columns side by side read the column their lane names, the softmax
  along the eight lanes is `Spec.softmax8` of the row, the weighted sum of the value heads is the sum over the eight
  heads, a projection is a sum over the inputs plus the bias, a head is a run of 64 lanes.  Put together, the body's
  block at `(p, f)` is `Spec.nodeRow` of row `p` of the node block and the weights.
-/

noncomputable section
open Idealize.ShloMosaic Idealize.ShloMosaic.ValueIdx Idealize.SL.Sem

namespace Cert.NodeKernel
open Cert.KernelIdeal Cert.KernelIdeal.Gen

/-! ## Eight pieces of one width side by side -/

/-- Eight `[1000, w]` pieces side by side read, at lane `l`, piece `l / w` at lane `l % w`. -/
theorem cat8_apply {w W : Nat} (c : Fin 8 → FVec Ideal ⟨2, ![1000, w]⟩ .f32)
    (h : Shape.Concatenates [(⟨2, ![1000, w]⟩ : Shape), ⟨2, ![1000, w]⟩, ⟨2, ![1000, w]⟩, ⟨2, ![1000, w]⟩,
      ⟨2, ![1000, w]⟩, ⟨2, ![1000, w]⟩, ⟨2, ![1000, w]⟩, ⟨2, ![1000, w]⟩] ⟨2, ![1000, W]⟩ 1)
    (p : Fin 1000) (l : Fin W) (n : Fin 8) (d : Fin w) (hn : l.val / w = n.val) (hd : d.val = l.val % w) :
    concatenate ⟨2, ![1000, W]⟩ 1 [⟨⟨2, ![1000, w]⟩, c 0⟩, ⟨⟨2, ![1000, w]⟩, c 1⟩, ⟨⟨2, ![1000, w]⟩, c 2⟩,
        ⟨⟨2, ![1000, w]⟩, c 3⟩, ⟨⟨2, ![1000, w]⟩, c 4⟩, ⟨⟨2, ![1000, w]⟩, c 5⟩, ⟨⟨2, ![1000, w]⟩, c 6⟩,
        ⟨⟨2, ![1000, w]⟩, c 7⟩] h (ix2 p l)
      = c n (ix2 p d) :=
  concatenate_ofFn_apply (t := ⟨2, ![1000, W]⟩) (s₁ := ⟨2, ![1000, w]⟩) 1 c h rfl w rfl (ix2 p l) n hn (ix2 p d) hd
    (fun b hb => by
      match b with
      | ⟨0, _⟩ => rfl
      | ⟨1, _⟩ => exact absurd rfl hb)

/-! ## The scores -/

/-- A score column at row `p`: the lane sum of the products, times 1/8. -/
theorem scoreCol_apply (qh kj : FVec Ideal S1000x64 .f32) (p : Fin 1000) (u : Fin 1) :
    scoreCol qh kj (ix2 p u) = (∑ d : Fin 64, qh (ix2 p d) * kj (ix2 p d)) * Cert.Spec.EIGHTH := by
  refine (mulf_apply _ _ _).trans ?_
  refine congrArg (· * Cert.Spec.EIGHTH) ?_
  refine (Cert.LibColumn.shapeCast_a_a1_apply _ _ p u).trans ?_
  exact Cert.LibColumn.sum_last_apply _ _ _ _ p

/-- The eight score columns side by side, at `(p, j)`: head `j`'s score. -/
theorem scores_apply (qh : FVec Ideal S1000x64 .f32) (kk : Fin 8 → FVec Ideal S1000x64 .f32) (p : Fin 1000) (j : Fin 8) :
    scores qh (kk 0) (kk 1) (kk 2) (kk 3) (kk 4) (kk 5) (kk 6) (kk 7) (ix2 p j)
      = (∑ d : Fin 64, qh (ix2 p d) * kk j (ix2 p d)) * Cert.Spec.EIGHTH := by
  refine (cat8_apply (fun n => scoreCol qh (kk n)) _ p j j (0 : Fin 1) (Nat.div_one _) (Nat.mod_one _).symm).trans ?_
  exact scoreCol_apply qh (kk j) p 0

/-! ## The softmax along the eight lanes -/

/-- The shift at `(p, j)`: the row's maximum, taken from the floor. -/
theorem rowShift_apply (s : FVec Ideal S1000x8 .f32) (p : Fin 1000) (j : Fin 8) :
    rowShift s (ix2 p j) = Cert.Spec.shift (fun j' => s (ix2 p j')) := by
  refine (Cert.LibColumn.broadcastTo_a1_ab_apply _ _ p j).trans ?_
  refine (Cert.LibColumn.shapeCast_a_a1_apply _ _ p 0).trans ?_
  refine (maximumf_apply _ _ _).trans ?_
  exact congrArg (max Cert.Spec.FLOOR) (Cert.LibLastAxis.max_last_apply s _ _ _ _ p)

/-- The exponentials at `(p, j)`. -/
theorem expShift_apply (s : FVec Ideal S1000x8 .f32) (p : Fin 1000) (j : Fin 8) :
    expShift s (ix2 p j) = Ideal.exp (s (ix2 p j) - Cert.Spec.shift (fun j' => s (ix2 p j'))) := by
  show Ideal.exp (s (ix2 p j) - rowShift s (ix2 p j)) = _
  rw [rowShift_apply]

/-- The denominator at `(p, j)`: the row's sum. -/
theorem rowDen_apply (e : FVec Ideal S1000x8 .f32) (p : Fin 1000) (j : Fin 8) :
    rowDen e (ix2 p j) = ∑ j' : Fin 8, e (ix2 p j') := by
  refine (Cert.LibColumn.broadcastTo_a1_ab_apply _ _ p j).trans ?_
  refine (Cert.LibColumn.shapeCast_a_a1_apply _ _ p 0).trans ?_
  exact Cert.LibColumn.sum_last_apply _ _ _ _ p

/-- The softmax at `(p, j)` is the softmax of the row's eight scores. -/
theorem softmaxRows_apply (s : FVec Ideal S1000x8 .f32) (p : Fin 1000) (j : Fin 8) :
    softmaxRows s (ix2 p j) = Cert.Spec.softmax8 (fun j' => s (ix2 p j')) j := by
  refine (divf_apply _ _ _).trans ?_
  rw [rowDen_apply, expShift_apply]
  refine congrArg (Ideal.div _) (Finset.sum_congr rfl fun j' _ => ?_)
  exact expShift_apply s p j'

/-! ## The weighted sum of the value heads -/

/-- One weighted value head at `(p, d)`. -/
theorem wcol_apply (a : FVec Ideal S1000x8 .f32) (o : Nat) (h : S1000x8.Slices ![0, o] S1000x1)
    (v : FVec Ideal S1000x64 .f32) (p : Fin 1000) (d : Fin 64) (j : Fin 8) (hj : j.val = o) :
    wcol a o h v (ix2 p d) = a (ix2 p j) * v (ix2 p d) := by
  refine (mulf_apply _ _ _).trans ?_
  refine congrArg (· * v (ix2 p d)) ?_
  refine (Cert.LibColumn.broadcastTo_a1_ab_apply _ _ p d).trans ?_
  exact slice2_axis1_apply o a h p (0 : Fin 1) j (by rw [hj]; rfl)

/-- The weighted sum at `(p, d)`: the sum over the eight heads. -/
theorem mix_apply (a : FVec Ideal S1000x8 .f32) (vv : Fin 8 → FVec Ideal S1000x64 .f32) (p : Fin 1000) (d : Fin 64) :
    mix a (vv 0) (vv 1) (vv 2) (vv 3) (vv 4) (vv 5) (vv 6) (vv 7) (ix2 p d)
      = ∑ j : Fin 8, a (ix2 p j) * vv j (ix2 p d) := by
  rw [Fin.sum_univ_eight]
  show wcol a 0 _ (vv 0) (ix2 p d) + wcol a 1 _ (vv 1) (ix2 p d) + wcol a 2 _ (vv 2) (ix2 p d)
      + wcol a 3 _ (vv 3) (ix2 p d) + wcol a 4 _ (vv 4) (ix2 p d) + wcol a 5 _ (vv 5) (ix2 p d)
      + wcol a 6 _ (vv 6) (ix2 p d) + wcol a 7 _ (vv 7) (ix2 p d) = _
  rw [wcol_apply a 0 _ (vv 0) p d 0 rfl, wcol_apply a 1 _ (vv 1) p d 1 rfl, wcol_apply a 2 _ (vv 2) p d 2 rfl,
    wcol_apply a 3 _ (vv 3) p d 3 rfl, wcol_apply a 4 _ (vv 4) p d 4 rfl, wcol_apply a 5 _ (vv 5) p d 5 rfl,
    wcol_apply a 6 _ (vv 6) p d 6 rfl, wcol_apply a 7 _ (vv 7) p d 7 rfl]

/-- One head's feature at `(p, d)`. -/
theorem headFeat_apply (qh : FVec Ideal S1000x64 .f32) (kk vv : Fin 8 → FVec Ideal S1000x64 .f32) (p : Fin 1000) (d : Fin 64) :
    headFeat qh (kk 0) (kk 1) (kk 2) (kk 3) (kk 4) (kk 5) (kk 6) (kk 7) (vv 0) (vv 1) (vv 2) (vv 3) (vv 4) (vv 5) (vv 6) (vv 7)
        (ix2 p d)
      = ∑ j : Fin 8, Cert.Spec.softmax8 (fun j' => (∑ d' : Fin 64, qh (ix2 p d') * kk j' (ix2 p d')) * Cert.Spec.EIGHTH) j
          * vv j (ix2 p d) := by
  refine (mix_apply _ vv p d).trans ?_
  refine Finset.sum_congr rfl fun j _ => ?_
  rw [softmaxRows_apply]
  refine congrArg (fun s => Cert.Spec.softmax8 s j * vv j (ix2 p d)) (funext fun j' => ?_)
  exact scores_apply qh kk p j'

/-! ## The projections, the heads, the output projection -/

/-- A projection at `(p, c)`: the sum over the 128 inputs, plus the bias. -/
theorem proj_apply (x : Vec Ideal S1000x128 .f32) (w : Vec Ideal S128x512 .f32) (b : Vec Ideal S1x512 .f32)
    (p : Fin 1000) (c : Fin 512) :
    proj x w b (ix2 p c) = Cert.Spec.proj (fun a => x (ix2 p a)) (fun a c' => w (ix2 a c')) (fun c' => b (ix2 0 c')) c := by
  refine (addf_apply _ _ _).trans ?_
  show _ = (∑ a : Fin 128, x (ix2 p a) * w (ix2 a c)) + b (ix2 0 c)
  congr 1
  · refine (Cert.LibRowMax.matmul_plain_apply _ none _ _ p c).trans ?_
    refine Finset.sum_congr rfl fun e _ => ?_
    show x (ix2 p e) * shapeCast S128x512 w shapeCasts_S128x512_S128x512 (ix2 e c) = _
    rw [shapeCast_self]
  · refine (broadcastTo_1b_ab_apply _ _ p c).trans ?_
    rw [shapeCast_self]

/-- Head `j`'s lanes start at `j · 64`. -/
theorem hd_apply (o : Nat) (h : S1000x512.Slices ![0, o] S1000x64) (X : FVec Ideal S1000x512 .f32) (p : Fin 1000)
    (d : Fin 64) (j : Fin 8) (ho : j.val * 64 = o) :
    hd o h X (ix2 p d) = X (ix2 p (Cert.Spec.lane j d)) :=
  slice2_axis1_apply o X h p d (Cert.Spec.lane j d) (by rw [← ho]; rfl)

/-- The eight heads of a 512-lane array. -/
def heads (X : FVec Ideal S1000x512 .f32) : Fin 8 → FVec Ideal S1000x64 .f32 :=
  ![hd 0 slices_S1000x512_o0_0_S1000x64 X, hd 64 slices_S1000x512_o0_64_S1000x64 X,
    hd 128 slices_S1000x512_o0_128_S1000x64 X, hd 192 slices_S1000x512_o0_192_S1000x64 X,
    hd 256 slices_S1000x512_o0_256_S1000x64 X, hd 320 slices_S1000x512_o0_320_S1000x64 X,
    hd 384 slices_S1000x512_o0_384_S1000x64 X, hd 448 slices_S1000x512_o0_448_S1000x64 X]

theorem heads_apply (X : FVec Ideal S1000x512 .f32) (j : Fin 8) (p : Fin 1000) (d : Fin 64) :
    heads X j (ix2 p d) = X (ix2 p (Cert.Spec.lane j d)) := by
  match j with
  | ⟨0, _⟩ => exact hd_apply 0 slices_S1000x512_o0_0_S1000x64 X p d ⟨0, by omega⟩ rfl
  | ⟨1, _⟩ => exact hd_apply 64 slices_S1000x512_o0_64_S1000x64 X p d ⟨1, by omega⟩ rfl
  | ⟨2, _⟩ => exact hd_apply 128 slices_S1000x512_o0_128_S1000x64 X p d ⟨2, by omega⟩ rfl
  | ⟨3, _⟩ => exact hd_apply 192 slices_S1000x512_o0_192_S1000x64 X p d ⟨3, by omega⟩ rfl
  | ⟨4, _⟩ => exact hd_apply 256 slices_S1000x512_o0_256_S1000x64 X p d ⟨4, by omega⟩ rfl
  | ⟨5, _⟩ => exact hd_apply 320 slices_S1000x512_o0_320_S1000x64 X p d ⟨5, by omega⟩ rfl
  | ⟨6, _⟩ => exact hd_apply 384 slices_S1000x512_o0_384_S1000x64 X p d ⟨6, by omega⟩ rfl
  | ⟨7, _⟩ => exact hd_apply 448 slices_S1000x512_o0_448_S1000x64 X p d ⟨7, by omega⟩ rfl

/-- One head's feature from the three projections, at `(p, d)`. -/
theorem featOf_apply (o : Nat) (h : S1000x512.Slices ![0, o] S1000x64) (Q K V : FVec Ideal S1000x512 .f32)
    (p : Fin 1000) (d : Fin 64) (hh : Fin 8) (ho : hh.val * 64 = o) :
    featOf o h Q K V (ix2 p d)
      = Cert.Spec.feat (fun c => Q (ix2 p c)) (fun c => K (ix2 p c)) (fun c => V (ix2 p c)) hh d := by
  refine (headFeat_apply (hd o h Q) (heads K) (heads V) p d).trans ?_
  have e1 : ∀ d', hd o h Q (ix2 p d') = Q (ix2 p (Cert.Spec.lane hh d')) := fun d' => hd_apply o h Q p d' hh ho
  simp only [e1, heads_apply]
  rfl

/-- The output projection at `(p, f)`: lane `c` of the eight features side by side is head `c / 64` at `c % 64`. -/
theorem outProj_apply (ff : Fin 8 → FVec Ideal S1000x64 .f32) (w : Vec Ideal S512x128 .f32) (b : Vec Ideal S1x128 .f32)
    (p : Fin 1000) (f : Fin 128) :
    outProj (ff 0) (ff 1) (ff 2) (ff 3) (ff 4) (ff 5) (ff 6) (ff 7) w b (ix2 p f)
      = (∑ c : Fin 512, ff (Cert.Spec.headOf c) (ix2 p (Cert.Spec.coordOf c)) * w (ix2 c f)) + b (ix2 0 f) := by
  refine (addf_apply _ _ _).trans ?_
  congr 1
  · refine (Cert.LibRowMax.matmul_plain_apply _ none _ _ p f).trans ?_
    refine Finset.sum_congr rfl fun c _ => ?_
    refine congrArg (· * w (ix2 c f)) ?_
    exact cat8_apply ff concatenates_S1000x64_S1000x64_S1000x64_S1000x64_S1000x64_S1000x64_S1000x64_S1000x64_S1000x512_d1 p c
      (Cert.Spec.headOf c) (Cert.Spec.coordOf c) rfl rfl
  · refine (broadcastTo_1b_ab_apply _ _ p f).trans ?_
    rw [shapeCast_self]

/-! ## The body's block, entry by entry -/

/-- The eight features of the three projections. -/
def feats (Q K V : FVec Ideal S1000x512 .f32) : Fin 8 → FVec Ideal S1000x64 .f32 :=
  ![featOf 0 slices_S1000x512_o0_0_S1000x64 Q K V, featOf 64 slices_S1000x512_o0_64_S1000x64 Q K V,
    featOf 128 slices_S1000x512_o0_128_S1000x64 Q K V, featOf 192 slices_S1000x512_o0_192_S1000x64 Q K V,
    featOf 256 slices_S1000x512_o0_256_S1000x64 Q K V, featOf 320 slices_S1000x512_o0_320_S1000x64 Q K V,
    featOf 384 slices_S1000x512_o0_384_S1000x64 Q K V, featOf 448 slices_S1000x512_o0_448_S1000x64 Q K V]

theorem feats_apply (Q K V : FVec Ideal S1000x512 .f32) (hh : Fin 8) (p : Fin 1000) (d : Fin 64) :
    feats Q K V hh (ix2 p d)
      = Cert.Spec.feat (fun c => Q (ix2 p c)) (fun c => K (ix2 p c)) (fun c => V (ix2 p c)) hh d := by
  match hh with
  | ⟨0, _⟩ => exact featOf_apply 0 slices_S1000x512_o0_0_S1000x64 Q K V p d ⟨0, by omega⟩ rfl
  | ⟨1, _⟩ => exact featOf_apply 64 slices_S1000x512_o0_64_S1000x64 Q K V p d ⟨1, by omega⟩ rfl
  | ⟨2, _⟩ => exact featOf_apply 128 slices_S1000x512_o0_128_S1000x64 Q K V p d ⟨2, by omega⟩ rfl
  | ⟨3, _⟩ => exact featOf_apply 192 slices_S1000x512_o0_192_S1000x64 Q K V p d ⟨3, by omega⟩ rfl
  | ⟨4, _⟩ => exact featOf_apply 256 slices_S1000x512_o0_256_S1000x64 Q K V p d ⟨4, by omega⟩ rfl
  | ⟨5, _⟩ => exact featOf_apply 320 slices_S1000x512_o0_320_S1000x64 Q K V p d ⟨5, by omega⟩ rfl
  | ⟨6, _⟩ => exact featOf_apply 384 slices_S1000x512_o0_384_S1000x64 Q K V p d ⟨6, by omega⟩ rfl
  | ⟨7, _⟩ => exact featOf_apply 448 slices_S1000x512_o0_448_S1000x64 Q K V p d ⟨7, by omega⟩ rfl

/-- The body's output block at `(p, f)` is the node row function of row `p` of the node block and the weights. -/
theorem out_row (x0 : Vec Ideal S1000x128 .f32) (x1 : Vec Ideal S128x512 .f32) (x2 : Vec Ideal S1x512 .f32)
    (x3 : Vec Ideal S128x512 .f32) (x4 : Vec Ideal S1x512 .f32) (x5 : Vec Ideal S128x512 .f32) (x6 : Vec Ideal S1x512 .f32)
    (x7 : Vec Ideal S512x128 .f32) (x8 : Vec Ideal S1x128 .f32) (p : Fin 1000) (f : Fin 128) :
    Cert.KernelIdeal.Gen.out1_9 (F := Ideal) x0 x1 x2 x3 x4 x5 x6 x7 x8 (ix2 p f)
      = Cert.Spec.nodeRow (fun a => x0 (ix2 p a)) (fun a c => x1 (ix2 a c)) (fun c => x2 (ix2 0 c))
          (fun a c => x3 (ix2 a c)) (fun c => x4 (ix2 0 c)) (fun a c => x5 (ix2 a c)) (fun c => x6 (ix2 0 c))
          (fun c f => x7 (ix2 c f)) (fun f => x8 (ix2 0 f)) f := by
  have hz : (![0, 0] : Fin 2 → Nat) = fun _ => 0 := funext fun a => by fin_cases a <;> rfl
  rw [out_eq, View.canon_unit_zero hz]
  simp only [View.ld_unit_zero (S := S1000x128) hz, View.ld_unit_zero (S := S128x512) hz,
    View.ld_unit_zero (S := S1x512) hz, View.ld_unit_zero (S := S512x128) hz, View.ld_unit_zero (S := S1x128) hz]
  refine (outProj_apply (feats (proj x0 x1 x2) (proj x0 x3 x4) (proj x0 x5 x6)) x7 x8 p f).trans ?_
  simp only [feats_apply]
  have eq : ∀ (w : Vec Ideal S128x512 .f32) (b : Vec Ideal S1x512 .f32),
      (fun c => proj x0 w b (ix2 p c))
        = Cert.Spec.proj (fun a => x0 (ix2 p a)) (fun a c => w (ix2 a c)) (fun c => b (ix2 0 c)) :=
    fun w b => funext fun c => proj_apply x0 w b p c
  rw [eq x1 x2, eq x3 x4, eq x5 x6]
  rfl

end Cert.NodeKernel
end
-- ==== Proof.NodeArray.lean ====
/-
  The node region's output array after the run.

  Grid point `t` of the 50 reads rows `1000·t … 1000·t + 999` of the node table and the whole of every weight, and
  writes back the same rows of the output.  Row by row the body's value is the node row function of that node's
  row and the weights, so what a point writes back is a block of `nodeArr`; the 50 blocks tile the array (row `n`
  lies in block `n / 1000`), so the array the region leaves is `nodeArr` of the arrays it found.
-/
import proofs.«151386_j49555332662092_1_alg».proof.Proof.Gen.KernelIdeal.Frame
import proofs.«151386_j49555332662092_1_alg».proof.Proof.ArrDef
import proofs.«151386_j49555332662092_1_alg».proof.Proof.NodeKernel
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The printed index maps over the 50 points: the row window and the output move together, one block per point;
    every weight window stays at block 0. -/
theorem idx_facts1 : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

section
variable (V : (c : Dev nD) → (b : Ref sig .tc) → Buf (Elt Ideal) ((c : Thread nD τ).loc b))

/-- The row window's block at point `t`: local row `p` is row `1000·t + p` of the node table, which is also the row
    the output's block puts local row `p` at. -/
theorem blk1_0 (c : Dev nD) (t : Fin cfg1.N) (p : Fin 1000) (f : Fin 128) (a : Fin 128) : iblk1 V c 0 t (ix2 p a)
      = V c main_arg0 (ix2 (n0 := 50000) ((((cfg1.win 9).blk t).view.emb (ix2 p f)) 0) a) := by
  obtain ⟨e90, e91, e00, e01, e10, e11, e20, e21, e30, e31, e40, e41, e50, e51, e60, e61, e70, e71, e80, e81⟩ := idx_facts1 t
  show V c main_arg0 (((cfg1.win 0).blk t).view.emb (ix2 p a)) = _
  refine congrArg (V c main_arg0) ?_
  funext d; apply Fin.ext
  match d with
  | ⟨0, _⟩ => show win1_0.index t (0 : Fin 2) * 1000 + 1 * p.val = win1_9.index t (0 : Fin 2) * 1000 + 1 * p.val; omega
  | ⟨1, _⟩ => show win1_0.index t (1 : Fin 2) * 128 + 1 * a.val = a.val; omega

/-! Each weight window's block is its whole array. -/
theorem blk1_1 (c : Dev nD) (t : Fin cfg1.N) (a : Fin 128) (c' : Fin 512) : iblk1 V c 1 t (ix2 a c') = V c main_v66 (ix2 a c') := by
  obtain ⟨e90, e91, e00, e01, e10, e11, e20, e21, e30, e31, e40, e41, e50, e51, e60, e61, e70, e71, e80, e81⟩ := idx_facts1 t
  show V c main_v66 (((cfg1.win 1).blk t).view.emb (ix2 a c')) = _
  refine congrArg (V c main_v66) ?_
  funext d; apply Fin.ext
  match d with
  | ⟨0, _⟩ => show win1_1.index t (0 : Fin 2) * 128 + 1 * a.val = a.val; omega
  | ⟨1, _⟩ => show win1_1.index t (1 : Fin 2) * 512 + 1 * c'.val = c'.val; omega

theorem blk1_2 (c : Dev nD) (t : Fin cfg1.N) (a : Fin 1) (c' : Fin 512) : iblk1 V c 2 t (ix2 a c') = V c main_v70 (ix2 a c') := by
  obtain ⟨e90, e91, e00, e01, e10, e11, e20, e21, e30, e31, e40, e41, e50, e51, e60, e61, e70, e71, e80, e81⟩ := idx_facts1 t
  show V c main_v70 (((cfg1.win 2).blk t).view.emb (ix2 a c')) = _
  refine congrArg (V c main_v70) ?_
  funext d; apply Fin.ext
  match d with
  | ⟨0, _⟩ => show win1_2.index t (0 : Fin 2) * 1 + 1 * a.val = a.val; omega
  | ⟨1, _⟩ => show win1_2.index t (1 : Fin 2) * 512 + 1 * c'.val = c'.val; omega

theorem blk1_3 (c : Dev nD) (t : Fin cfg1.N) (a : Fin 128) (c' : Fin 512) : iblk1 V c 3 t (ix2 a c') = V c main_v67 (ix2 a c') := by
  obtain ⟨e90, e91, e00, e01, e10, e11, e20, e21, e30, e31, e40, e41, e50, e51, e60, e61, e70, e71, e80, e81⟩ := idx_facts1 t
  show V c main_v67 (((cfg1.win 3).blk t).view.emb (ix2 a c')) = _
  refine congrArg (V c main_v67) ?_
  funext d; apply Fin.ext
  match d with
  | ⟨0, _⟩ => show win1_3.index t (0 : Fin 2) * 128 + 1 * a.val = a.val; omega
  | ⟨1, _⟩ => show win1_3.index t (1 : Fin 2) * 512 + 1 * c'.val = c'.val; omega

theorem blk1_4 (c : Dev nD) (t : Fin cfg1.N) (a : Fin 1) (c' : Fin 512) : iblk1 V c 4 t (ix2 a c') = V c main_v72 (ix2 a c') := by
  obtain ⟨e90, e91, e00, e01, e10, e11, e20, e21, e30, e31, e40, e41, e50, e51, e60, e61, e70, e71, e80, e81⟩ := idx_facts1 t
  show V c main_v72 (((cfg1.win 4).blk t).view.emb (ix2 a c')) = _
  refine congrArg (V c main_v72) ?_
  funext d; apply Fin.ext
  match d with
  | ⟨0, _⟩ => show win1_4.index t (0 : Fin 2) * 1 + 1 * a.val = a.val; omega
  | ⟨1, _⟩ => show win1_4.index t (1 : Fin 2) * 512 + 1 * c'.val = c'.val; omega

theorem blk1_5 (c : Dev nD) (t : Fin cfg1.N) (a : Fin 128) (c' : Fin 512) : iblk1 V c 5 t (ix2 a c') = V c main_v68 (ix2 a c') := by
  obtain ⟨e90, e91, e00, e01, e10, e11, e20, e21, e30, e31, e40, e41, e50, e51, e60, e61, e70, e71, e80, e81⟩ := idx_facts1 t
  show V c main_v68 (((cfg1.win 5).blk t).view.emb (ix2 a c')) = _
  refine congrArg (V c main_v68) ?_
  funext d; apply Fin.ext
  match d with
  | ⟨0, _⟩ => show win1_5.index t (0 : Fin 2) * 128 + 1 * a.val = a.val; omega
  | ⟨1, _⟩ => show win1_5.index t (1 : Fin 2) * 512 + 1 * c'.val = c'.val; omega

theorem blk1_6 (c : Dev nD) (t : Fin cfg1.N) (a : Fin 1) (c' : Fin 512) : iblk1 V c 6 t (ix2 a c') = V c main_v74 (ix2 a c') := by
  obtain ⟨e90, e91, e00, e01, e10, e11, e20, e21, e30, e31, e40, e41, e50, e51, e60, e61, e70, e71, e80, e81⟩ := idx_facts1 t
  show V c main_v74 (((cfg1.win 6).blk t).view.emb (ix2 a c')) = _
  refine congrArg (V c main_v74) ?_
  funext d; apply Fin.ext
  match d with
  | ⟨0, _⟩ => show win1_6.index t (0 : Fin 2) * 1 + 1 * a.val = a.val; omega
  | ⟨1, _⟩ => show win1_6.index t (1 : Fin 2) * 512 + 1 * c'.val = c'.val; omega

theorem blk1_7 (c : Dev nD) (t : Fin cfg1.N) (a : Fin 512) (c' : Fin 128) : iblk1 V c 7 t (ix2 a c') = V c main_arg5 (ix2 a c') := by
  obtain ⟨e90, e91, e00, e01, e10, e11, e20, e21, e30, e31, e40, e41, e50, e51, e60, e61, e70, e71, e80, e81⟩ := idx_facts1 t
  show V c main_arg5 (((cfg1.win 7).blk t).view.emb (ix2 a c')) = _
  refine congrArg (V c main_arg5) ?_
  funext d; apply Fin.ext
  match d with
  | ⟨0, _⟩ => show win1_7.index t (0 : Fin 2) * 512 + 1 * a.val = a.val; omega
  | ⟨1, _⟩ => show win1_7.index t (1 : Fin 2) * 128 + 1 * c'.val = c'.val; omega

theorem blk1_8 (c : Dev nD) (t : Fin cfg1.N) (a : Fin 1) (c' : Fin 128) : iblk1 V c 8 t (ix2 a c') = V c main_v75 (ix2 a c') := by
  obtain ⟨e90, e91, e00, e01, e10, e11, e20, e21, e30, e31, e40, e41, e50, e51, e60, e61, e70, e71, e80, e81⟩ := idx_facts1 t
  show V c main_v75 (((cfg1.win 8).blk t).view.emb (ix2 a c')) = _
  refine congrArg (V c main_v75) ?_
  funext d; apply Fin.ext
  match d with
  | ⟨0, _⟩ => show win1_8.index t (0 : Fin 2) * 1 + 1 * a.val = a.val; omega
  | ⟨1, _⟩ => show win1_8.index t (1 : Fin 2) * 128 + 1 * c'.val = c'.val; omega

/-- The output block keeps the lane. -/
theorem blk1_lane (t : Fin cfg1.N) (p : Fin 1000) (f : Fin 128) : (f : Fin 128) = (((cfg1.win 9).blk t).view.emb (ix2 p f)) 1 := by
  obtain ⟨e90, e91, e00, e01, e10, e11, e20, e21, e30, e31, e40, e41, e50, e51, e60, e61, e70, e71, e80, e81⟩ := idx_facts1 t
  apply Fin.ext
  show f.val = win1_9.index t (1 : Fin 2) * 128 + 1 * f.val
  omega

/-- What point `t` writes back is block `t` of `nodeArr` of the arrays the region finds. -/
theorem flushed1_9_eq (c : Dev nD) (t : Fin cfg1.N) :
    (dat1 V c).flushed 9 t = ((cfg1.win 9).blk t).view.read (Elt Ideal)
      (nodeArr (V c main_arg0) (V c main_v66) (V c main_v70) (V c main_v67) (V c main_v72) (V c main_v68) (V c main_v74)
        (V c main_arg5) (V c main_v75)) := by
  show (cfg1.win 9).cut (grid1.coords t) ((dat1 V c).after 9 t) = _
  rw [after1_9]
  funext j
  obtain ⟨p, f, rfl⟩ : ∃ (p : Fin 1000) (f : Fin 128), j = ix2 p f := ⟨j 0, j 1, eq_ix2 j⟩
  show out1_9 (iblk1 V c 0 t) (iblk1 V c 1 t) (iblk1 V c 2 t) (iblk1 V c 3 t) (iblk1 V c 4 t) (iblk1 V c 5 t)
        (iblk1 V c 6 t) (iblk1 V c 7 t) (iblk1 V c 8 t) (ix2 p f)
      = nodeArr (V c main_arg0) (V c main_v66) (V c main_v70) (V c main_v67) (V c main_v72) (V c main_v68) (V c main_v74)
        (V c main_arg5) (V c main_v75) (((cfg1.win 9).blk t).view.emb (ix2 p f))
  refine (Cert.NodeKernel.out_row (iblk1 V c 0 t) (iblk1 V c 1 t) (iblk1 V c 2 t) (iblk1 V c 3 t) (iblk1 V c 4 t) (iblk1 V c 5 t)
        (iblk1 V c 6 t) (iblk1 V c 7 t) (iblk1 V c 8 t) p f).trans ?_
  exact nodeRow_congr (blk1_0 V c t p f) (blk1_1 V c t) (blk1_2 V c t 0) (blk1_3 V c t) (blk1_4 V c t 0) (blk1_5 V c t)
    (blk1_6 V c t 0) (blk1_7 V c t) (blk1_8 V c t 0) (blk1_lane t p f)

/-- An index of the output array is in point `t`'s block iff each coordinate is in the block's range on its axis. -/
theorem mem_blk1_9 (t : Fin cfg1.N) (i : S50000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole main_v76).slice (win1_9.rect t)).set ↔ _
  rw [View.set_slice_whole, Rect.mem_set_unit]
  exact Iff.rfl

/-- Every index of the output array lies in the block of the point its row falls in. -/
theorem cover1_9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨e90, e91, e00, e01, e10, e11, e20, e21, e30, e31, e40, e41, e50, e51, e60, e61, e70, e71, e80, e81⟩ := idx_facts1 t
  refine ⟨t, flush1_9 t, ?_⟩
  rw [mem_blk1_9]
  intro a
  match a with
  | ⟨0, _⟩ => show win1_9.index t (0 : Fin 2) * 1000 ≤ (i 0).val ∧ (i 0).val < win1_9.index t (0 : Fin 2) * 1000 + 1000; omega
  | ⟨1, _⟩ => show win1_9.index t (1 : Fin 2) * 128 ≤ (i 1).val ∧ (i 1).val < win1_9.index t (1 : Fin 2) * 128 + 128; omega

/-- The output array after the region: `nodeArr` of the arrays the region found. -/
theorem final1_9 (c : Dev nD) : (dat1 V c).arrAt 9 cfg1.N
    = nodeArr (V c main_arg0) (V c main_v66) (V c main_v70) (V c main_v67) (V c main_v72) (V c main_v68) (V c main_v74)
        (V c main_arg5) (V c main_v75) :=
  (dat1 V c).arrAt_eq_of_cover 9 _ (fun t _ => flushed1_9_eq V c t) cover1_9

end

end Cert.KernelIdeal.Values

end
-- ==== Proof.LibSilu.lean ====
/-
  `silu z = z · 1 / (1 + e^{-z})` on the extended reals, in the two spellings programs use.

  * A kernel's vector unit multiplies a vector by its logistic, entry by entry: entry `i` of `x · logistic x` is
    `x i · logistic (x i)` (`vector_form`).
  * The host expands the logistic into negate, exponential, add and divide, and writes the number one as the
    f32 literal `0x3F800000`: `z · (one / (one + exp (−z)))` is `z · logistic z` (`host_spelling`), since that
    literal is the number one and the host's negation, exponential, sum and quotient are the extended reals'.
  Both hold at every extended real, the infinities included.
-/
import Idealize.ShloMosaic.PureOps.Ideal
import Idealize.ShloMosaic.Lib.IdealHost

noncomputable section

namespace Cert.LibSilu

open Idealize.ShloMosaic

/-- The vector unit's `x · logistic x` at entry `i`. -/
theorem vector_form {s : Shape} (x : FVec Ideal s .f32) (i : s.Idx) :
    mulf x (logistic x) i = x i * Ideal.logistic (x i) := rfl

/-- The host's `z · (one / (one + exp (−z)))`, with both ones the f32 literal for one. -/
theorem host_spelling (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = z * Ideal.logistic z := by
  show z * Ideal.div (Ideal.ofBits .f32 0x3F800000#32) (Ideal.ofBits .f32 0x3F800000#32 + Ideal.exp (-z))
    = z * Ideal.div 1 (1 + Ideal.exp (-z))
  rw [Ideal.ofBits_one_f32]

end Cert.LibSilu

end
-- ==== Proof.EdgeKernel.lean ====
/-
  The edge branch of the kernel, read row by row.

  One block of 4000 edges goes through three affine layers of width 128, each followed by `z · logistic z`, and
  a final dot product with a weight row plus a bias.  Entry `(p, 0)` of the block's output is `Cert.Spec.edgeRow` of
  row `p` of the two gathered blocks, entry `p` of the squared-distance column, and the weights.

  The format changes to bf16 are the identity on the extended reals; each product `[4000,128] × [128,128]` into a
  zero accumulator is a sum over the 128 contracted lanes; a `[1,128]` row broadcast down the rows reads the row, a
  `[4000,1]` column broadcast across the lanes reads the column; the lane sum of the last step is a sum over 128.
-/
import proofs.«151386_j49555332662092_1_alg».proof.Proof.Gen.KernelIdeal.Frame
import proofs.«151386_j49555332662092_1_alg».proof.Proof.Spec
import proofs.«151386_j49555332662092_1_alg».proof.Proof.LibRowMax
import proofs.«151386_j49555332662092_1_alg».proof.Proof.LibColumn
import proofs.«151386_j49555332662092_1_alg».proof.Proof.LibSilu

noncomputable section

namespace Cert.EdgeKernel

open Idealize.ShloMosaic Idealize.ShloMosaic.ValueIdx Cert.KernelIdeal Cert.KernelIdeal.Gen

/-- The zero offsets of a rank-2 rectangle, as the constant function. -/
theorem zeros2 : (![0, 0] : Fin 2 → Nat) = fun _ => 0 := funext fun a => by fin_cases a <;> rfl

/-- A product `[4000,128] × [128,128]` into a zero accumulator, at `(p, l)`: the sum over the contracted lane. -/
theorem mm_apply {φ₁ φ₂ : FTy} (A : FVec Ideal S4000x128 φ₁) (B : FVec Ideal S128x128 φ₂) (p : Fin 4000) (l : Fin 128) :
    matmul dot_S4000x128_S128x128_S4000x128_1_0_0_1_n_n none A B (constant S4000x128 .f32 0x00000000#32) (ix2 p l)
      = ∑ e : Fin 128, A (ix2 p e) * B (ix2 e l) :=
  LibRowMax.matmul_plain_apply (a := 4000) (k := 128) (b := 128)
    dot_S4000x128_S128x128_S4000x128_1_0_0_1_n_n.wf none A B p l

/-- A `[1,128]` row broadcast down 4000 rows reads, at `(p, l)`, the row at `l`. -/
theorem row_apply (v : FVec Ideal S1x128 .f32) (p : Fin 4000) (l : Fin 128) :
    broadcastTo S4000x128 v broadcasts_S1x128_S4000x128 (ix2 p l) = v (ix2 (0 : Fin 1) l) :=
  broadcastTo_1b_ab_apply v broadcasts_S1x128_S4000x128 p l

/-- A `[4000,1]` column broadcast across 128 lanes reads, at `(p, l)`, the column at `p`. -/
theorem col_apply (v : FVec Ideal S4000x1 .f32) (p : Fin 4000) (l : Fin 128) :
    broadcastTo S4000x128 v broadcasts_S4000x1_S4000x128 (ix2 p l) = v (ix2 p (0 : Fin 1)) :=
  LibColumn.broadcastTo_a1_ab_apply v broadcasts_S4000x1_S4000x128 p l

/-- The first layer's pre-activation at `(p, e)`: the two products, the squared-distance term and the bias. -/
theorem pre1_apply {φ₁ φ₂ : FTy} (A0 A3 : FVec Ideal S4000x128 φ₁) (B6 B9 : FVec Ideal S128x128 φ₂)
    (v12 : FVec Ideal S4000x1 .f32) (v14 v23 : FVec Ideal S1x128 .f32) (p : Fin 4000) (e : Fin 128) :
    addf (addf (addf
        (matmul dot_S4000x128_S128x128_S4000x128_1_0_0_1_n_n none A0 B6 (constant S4000x128 .f32 0x00000000#32))
        (matmul dot_S4000x128_S128x128_S4000x128_1_0_0_1_n_n none A3 B9 (constant S4000x128 .f32 0x00000000#32)))
        (mulf (broadcastTo S4000x128 v12 broadcasts_S4000x1_S4000x128)
          (broadcastTo S4000x128 v14 broadcasts_S1x128_S4000x128)))
        (broadcastTo S4000x128 v23 broadcasts_S1x128_S4000x128) (ix2 p e)
      = (((∑ a : Fin 128, A0 (ix2 p a) * B6 (ix2 a e)) + (∑ a : Fin 128, A3 (ix2 p a) * B9 (ix2 a e)))
          + v12 (ix2 p (0 : Fin 1)) * v14 (ix2 (0 : Fin 1) e)) + v23 (ix2 (0 : Fin 1) e) := by
  rw [addf_apply, addf_apply, addf_apply, mulf_apply, mm_apply, mm_apply, row_apply, row_apply, col_apply]

/-- The second layer's pre-activation at `(p, l)`: the first layer's row through the second weight, plus the bias. -/
theorem pay2_apply (v0 v3 : Vec Ideal S4000x128 .f32) (v6 v9 : Vec Ideal S128x128 .f32) (v12 : Vec Ideal S4000x1 .f32)
    (v14 v23 : Vec Ideal S1x128 .f32) (v30 : Vec Ideal S128x128 .f32) (v33 : Vec Ideal S1x128 .f32)
    (p : Fin 4000) (l : Fin 128) :
    k0_pay2 (F := Ideal) v0 v3 v6 v9 v12 v14 v23 v30 v33 (ix2 p l)
      = Spec.lin (Spec.edge1 (fun a => v0 (ix2 p a)) (fun a => v3 (ix2 p a)) (v12 (ix2 p 0))
            (fun a l => v6 (ix2 a l)) (fun a l => v9 (ix2 a l)) (fun l => v14 (ix2 0 l)) (fun l => v23 (ix2 0 l)))
          (fun a l => v30 (ix2 a l)) l + v33 (ix2 0 l) := by
  unfold k0_pay2
  simp only [shapeCast_self]
  rw [addf_apply, mm_apply, row_apply]
  refine congrArg (· + _) (Finset.sum_congr rfl fun e _ => ?_)
  rw [truncf_apply, truncf_apply]
  refine congrArg (· * _) ?_
  refine (LibSilu.vector_form _ _).trans ?_
  rw [pre1_apply]
  rfl

/-- A `[1,1]` array broadcast down 4000 rows reads its one entry everywhere. -/
theorem one_apply (v : FVec Ideal S1x1 .f32) (p : Fin 4000) (z : Fin 1) :
    broadcastTo S4000x1 v broadcasts_S1x1_S4000x1 (ix2 p z) = v (ix2 (0 : Fin 1) (0 : Fin 1)) := by
  obtain rfl : z = 0 := Subsingleton.elim _ _
  exact broadcastTo_1b_ab_apply v broadcasts_S1x1_S4000x1 p 0

/-- The block's output at `(p, z)` from the second layer's pre-activation `u` and its logistic: the second layer's
    row `u · logistic u` goes through the third layer, then the dot product with the last weight row plus the bias. -/
theorem pay1_apply (u : FVec Ideal S4000x128 .f32) (v40 : Vec Ideal S128x128 .f32) (v43 v49 : Vec Ideal S1x128 .f32)
    (v55 : Vec Ideal S1x1 .f32) (p : Fin 4000) (z : Fin 1) :
    k0_pay1 (F := Ideal) u (logistic u) v40 v43 v49 v55 (ix2 p z)
      = (∑ l : Fin 128, Spec.layer (fun a => Spec.silu (u (ix2 p a))) (fun a l => v40 (ix2 a l))
            (fun l => v43 (ix2 0 l)) l * v49 (ix2 0 l)) + v55 (ix2 0 0) := by
  unfold k0_pay1
  simp only [shapeCast_self]
  refine (addf_apply _ _ _).trans ?_
  refine congrArg₂ (· + ·) ?_ (one_apply _ p z)
  refine (LibColumn.shapeCast_a_a1_apply _ shapeCasts_S4000_S4000x1 p z).trans ?_
  refine (LibColumn.sum_last_apply _ reduces_S4000x128_S4000 _ _ p).trans ?_
  refine Finset.sum_congr rfl fun l _ => ?_
  refine (mulf_apply _ _ _).trans ?_
  refine congrArg₂ (· * ·) ?_ (row_apply _ p l)
  refine (LibSilu.vector_form _ _).trans ?_
  rw [addf_apply, mm_apply, row_apply]
  rfl

/-- Entry `(p, z)` of the block the first region leaves is the edge logit of row `p`. -/
theorem out_row (x0 x1 : Vec Ideal S4000x128 .f32) (x2 : Vec Ideal S4000x1 .f32) (x3 x4 : Vec Ideal S128x128 .f32)
    (x5 x6 : Vec Ideal S1x128 .f32) (x7 : Vec Ideal S128x128 .f32) (x8 : Vec Ideal S1x128 .f32)
    (x9 : Vec Ideal S128x128 .f32) (x10 x11 : Vec Ideal S1x128 .f32) (x12 : Vec Ideal S1x1 .f32) (p : Fin 4000) (z : Fin 1) :
    Cert.KernelIdeal.Gen.out0_13 (F := Ideal) x0 x1 x2 x3 x4 x5 x6 x7 x8 x9 x10 x11 x12 (ix2 p z)
      = Cert.Spec.edgeRow (fun a => x0 (ix2 p a)) (fun a => x1 (ix2 p a)) (x2 (ix2 p 0))
          (fun a l => x3 (ix2 a l)) (fun a l => x4 (ix2 a l)) (fun l => x5 (ix2 0 l)) (fun l => x6 (ix2 0 l))
          (fun a l => x7 (ix2 a l)) (fun l => x8 (ix2 0 l)) (fun a l => x9 (ix2 a l)) (fun l => x10 (ix2 0 l))
          (fun l => x11 (ix2 0 l)) (x12 (ix2 0 0)) := by
  unfold out0_13
  rw [View.canon_unit_zero zeros2]
  simp only [View.ld_unit_zero (S := S4000x128) zeros2, View.ld_unit_zero (S := S128x128) zeros2,
    View.ld_unit_zero (S := S4000x1) zeros2, View.ld_unit_zero (S := S1x128) zeros2,
    View.ld_unit_zero (S := S1x1) zeros2]
  unfold k0_pay3
  refine (pay1_apply _ _ _ _ _ p z).trans ?_
  unfold Spec.edgeRow
  refine congrArg (· + _) (Finset.sum_congr rfl fun l _ => congrArg (· * _) ?_)
  refine congrArg (fun f => Spec.layer f _ _ l) (funext fun a => ?_)
  rw [pay2_apply]
  rfl

end Cert.EdgeKernel

end
-- ==== Proof.EdgeArray.lean ====
/-
  The edge region's output column after the run.

  Grid point `t` of the 160 reads rows `4000·t … 4000·t + 3999` of the two gathered tables and of the distance
  column and the whole of every weight, and writes back the same rows of the output column.  Row by row the body's
  value is the edge row function, so what a point writes back is a block of `edgeArr`; the 160 blocks tile the
  column (row `e` lies in block `e / 4000`), so the column the region leaves is `edgeArr` of the arrays it found.
-/
import proofs.«151386_j49555332662092_1_alg».proof.Proof.Gen.KernelIdeal.Frame
import proofs.«151386_j49555332662092_1_alg».proof.Proof.ArrDef
import proofs.«151386_j49555332662092_1_alg».proof.Proof.EdgeKernel
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The printed index maps over the 160 points: the three row windows and the output move together, one block per
    point; every weight window stays at block 0. -/
theorem idx_facts0 : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

section
variable (V : (c : Dev nD) → (b : Ref sig .tc) → Buf (Elt Ideal) ((c : Thread nD τ).loc b))

/-! The row windows' blocks at point `t`: local row `p` is row `4000·t + p`, where the output's block puts it. -/
theorem blk0_0 (c : Dev nD) (t : Fin cfg0.N) (p : Fin 4000) (z : Fin 1) (a : Fin 128) : iblk0 V c 0 t (ix2 p a)
      = V c main_v10 (ix2 (n0 := 640000) ((((cfg0.win 13).blk t).view.emb (ix2 p z)) 0) a) := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v10 (((cfg0.win 0).blk t).view.emb (ix2 p a)) = _
  refine congrArg (V c main_v10) ?_
  funext d; apply Fin.ext
  match d with
  | ⟨0, _⟩ => show win0_0.index t (0 : Fin 2) * 4000 + 1 * p.val = win0_13.index t (0 : Fin 2) * 4000 + 1 * p.val; omega
  | ⟨1, _⟩ => show win0_0.index t (1 : Fin 2) * 128 + 1 * a.val = a.val; omega

theorem blk0_1 (c : Dev nD) (t : Fin cfg0.N) (p : Fin 4000) (z : Fin 1) (a : Fin 128) : iblk0 V c 1 t (ix2 p a)
      = V c main_v17 (ix2 (n0 := 640000) ((((cfg0.win 13).blk t).view.emb (ix2 p z)) 0) a) := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v17 (((cfg0.win 1).blk t).view.emb (ix2 p a)) = _
  refine congrArg (V c main_v17) ?_
  funext d; apply Fin.ext
  match d with
  | ⟨0, _⟩ => show win0_1.index t (0 : Fin 2) * 4000 + 1 * p.val = win0_13.index t (0 : Fin 2) * 4000 + 1 * p.val; omega
  | ⟨1, _⟩ => show win0_1.index t (1 : Fin 2) * 128 + 1 * a.val = a.val; omega

theorem blk0_2 (c : Dev nD) (t : Fin cfg0.N) (p : Fin 4000) (z : Fin 1) : iblk0 V c 2 t (ix2 p 0)
      = V c main_v35 (ix2 (n0 := 640000) ((((cfg0.win 13).blk t).view.emb (ix2 p z)) 0) 0) := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v35 (((cfg0.win 2).blk t).view.emb (ix2 p 0)) = _
  refine congrArg (V c main_v35) ?_
  funext d; apply Fin.ext
  match d with
  | ⟨0, _⟩ => show win0_2.index t (0 : Fin 2) * 4000 + 1 * p.val = win0_13.index t (0 : Fin 2) * 4000 + 1 * p.val; omega
  | ⟨1, _⟩ => show win0_2.index t (1 : Fin 2) * 1 + 1 * 0 = 0; omega

/-! Each weight window's block is its whole array. -/
theorem blk0_3 (c : Dev nD) (t : Fin cfg0.N) (a : Fin 128) (c' : Fin 128) : iblk0 V c 3 t (ix2 a c') = V c main_v36 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v36 (((cfg0.win 3).blk t).view.emb (ix2 a c')) = _
  refine congrArg (V c main_v36) ?_
  funext d; apply Fin.ext
  match d with
  | ⟨0, _⟩ => show win0_3.index t (0 : Fin 2) * 128 + 1 * a.val = a.val; omega
  | ⟨1, _⟩ => show win0_3.index t (1 : Fin 2) * 128 + 1 * c'.val = c'.val; omega

theorem blk0_4 (c : Dev nD) (t : Fin cfg0.N) (a : Fin 128) (c' : Fin 128) : iblk0 V c 4 t (ix2 a c') = V c main_v37 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v37 (((cfg0.win 4).blk t).view.emb (ix2 a c')) = _
  refine congrArg (V c main_v37) ?_
  funext d; apply Fin.ext
  match d with
  | ⟨0, _⟩ => show win0_4.index t (0 : Fin 2) * 128 + 1 * a.val = a.val; omega
  | ⟨1, _⟩ => show win0_4.index t (1 : Fin 2) * 128 + 1 * c'.val = c'.val; omega

theorem blk0_5 (c : Dev nD) (t : Fin cfg0.N) (a : Fin 1) (c' : Fin 128) : iblk0 V c 5 t (ix2 a c') = V c main_v38 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v38 (((cfg0.win 5).blk t).view.emb (ix2 a c')) = _
  refine congrArg (V c main_v38) ?_
  funext d; apply Fin.ext
  match d with
  | ⟨0, _⟩ => show win0_5.index t (0 : Fin 2) * 1 + 1 * a.val = a.val; omega
  | ⟨1, _⟩ => show win0_5.index t (1 : Fin 2) * 128 + 1 * c'.val = c'.val; omega

theorem blk0_6 (c : Dev nD) (t : Fin cfg0.N) (a : Fin 1) (c' : Fin 128) : iblk0 V c 6 t (ix2 a c') = V c main_v39 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v39 (((cfg0.win 6).blk t).view.emb (ix2 a c')) = _
  refine congrArg (V c main_v39) ?_
  funext d; apply Fin.ext
  match d with
  | ⟨0, _⟩ => show win0_6.index t (0 : Fin 2) * 1 + 1 * a.val = a.val; omega
  | ⟨1, _⟩ => show win0_6.index t (1 : Fin 2) * 128 + 1 * c'.val = c'.val; omega

theorem blk0_7 (c : Dev nD) (t : Fin cfg0.N) (a : Fin 128) (c' : Fin 128) : iblk0 V c 7 t (ix2 a c') = V c main_arg9 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_arg9 (((cfg0.win 7).blk t).view.emb (ix2 a c')) = _
  refine congrArg (V c main_arg9) ?_
  funext d; apply Fin.ext
  match d with
  | ⟨0, _⟩ => show win0_7.index t (0 : Fin 2) * 128 + 1 * a.val = a.val; omega
  | ⟨1, _⟩ => show win0_7.index t (1 : Fin 2) * 128 + 1 * c'.val = c'.val; omega

theorem blk0_8 (c : Dev nD) (t : Fin cfg0.N) (a : Fin 1) (c' : Fin 128) : iblk0 V c 8 t (ix2 a c') = V c main_v40 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v40 (((cfg0.win 8).blk t).view.emb (ix2 a c')) = _
  refine congrArg (V c main_v40) ?_
  funext d; apply Fin.ext
  match d with
  | ⟨0, _⟩ => show win0_8.index t (0 : Fin 2) * 1 + 1 * a.val = a.val; omega
  | ⟨1, _⟩ => show win0_8.index t (1 : Fin 2) * 128 + 1 * c'.val = c'.val; omega

theorem blk0_9 (c : Dev nD) (t : Fin cfg0.N) (a : Fin 128) (c' : Fin 128) : iblk0 V c 9 t (ix2 a c') = V c main_arg11 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_arg11 (((cfg0.win 9).blk t).view.emb (ix2 a c')) = _
  refine congrArg (V c main_arg11) ?_
  funext d; apply Fin.ext
  match d with
  | ⟨0, _⟩ => show win0_9.index t (0 : Fin 2) * 128 + 1 * a.val = a.val; omega
  | ⟨1, _⟩ => show win0_9.index t (1 : Fin 2) * 128 + 1 * c'.val = c'.val; omega

theorem blk0_10 (c : Dev nD) (t : Fin cfg0.N) (a : Fin 1) (c' : Fin 128) : iblk0 V c 10 t (ix2 a c') = V c main_v41 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v41 (((cfg0.win 10).blk t).view.emb (ix2 a c')) = _
  refine congrArg (V c main_v41) ?_
  funext d; apply Fin.ext
  match d with
  | ⟨0, _⟩ => show win0_10.index t (0 : Fin 2) * 1 + 1 * a.val = a.val; omega
  | ⟨1, _⟩ => show win0_10.index t (1 : Fin 2) * 128 + 1 * c'.val = c'.val; omega

theorem blk0_11 (c : Dev nD) (t : Fin cfg0.N) (a : Fin 1) (c' : Fin 128) : iblk0 V c 11 t (ix2 a c') = V c main_v43 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v43 (((cfg0.win 11).blk t).view.emb (ix2 a c')) = _
  refine congrArg (V c main_v43) ?_
  funext d; apply Fin.ext
  match d with
  | ⟨0, _⟩ => show win0_11.index t (0 : Fin 2) * 1 + 1 * a.val = a.val; omega
  | ⟨1, _⟩ => show win0_11.index t (1 : Fin 2) * 128 + 1 * c'.val = c'.val; omega

theorem blk0_12 (c : Dev nD) (t : Fin cfg0.N) (a : Fin 1) (c' : Fin 1) : iblk0 V c 12 t (ix2 a c') = V c main_v42 (ix2 a c') := by
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  show V c main_v42 (((cfg0.win 12).blk t).view.emb (ix2 a c')) = _
  refine congrArg (V c main_v42) ?_
  funext d; apply Fin.ext
  match d with
  | ⟨0, _⟩ => show win0_12.index t (0 : Fin 2) * 1 + 1 * a.val = a.val; omega
  | ⟨1, _⟩ => show win0_12.index t (1 : Fin 2) * 1 + 1 * c'.val = c'.val; omega

/-- What point `t` writes back is block `t` of `edgeArr` of the arrays the region finds. -/
theorem flushed0_13_eq (c : Dev nD) (t : Fin cfg0.N) :
    (dat0 V c).flushed 13 t = ((cfg0.win 13).blk t).view.read (Elt Ideal) (edgeArr (V c main_v10) (V c main_v17) (V c main_v35) (V c main_v36) (V c main_v37) (V c main_v38) (V c main_v39) (V c main_arg9) (V c main_v40) (V c main_arg11) (V c main_v41) (V c main_v43) (V c main_v42)) := by
  show (cfg0.win 13).cut (grid0.coords t) ((dat0 V c).after 13 t) = _
  rw [after0_13]
  funext j
  obtain ⟨p, z, rfl⟩ : ∃ (p : Fin 4000) (z : Fin 1), j = ix2 p z := ⟨j 0, j 1, eq_ix2 j⟩
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p z)
      = edgeArr (V c main_v10) (V c main_v17) (V c main_v35) (V c main_v36) (V c main_v37) (V c main_v38) (V c main_v39) (V c main_arg9) (V c main_v40) (V c main_arg11) (V c main_v41) (V c main_v43) (V c main_v42) (((cfg0.win 13).blk t).view.emb (ix2 p z))
  refine (Cert.EdgeKernel.out_row (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p z).trans ?_
  exact edgeRow_congr (blk0_0 V c t p z) (blk0_1 V c t p z) (blk0_2 V c t p z) (blk0_3 V c t) (blk0_4 V c t) (blk0_5 V c t 0)
    (blk0_6 V c t 0) (blk0_7 V c t) (blk0_8 V c t 0) (blk0_9 V c t) (blk0_10 V c t 0) (blk0_11 V c t 0) (blk0_12 V c t 0 0)

/-- An index of the output column is in point `t`'s block iff each coordinate is in the block's range on its axis. -/
theorem mem_blk0_13 (t : Fin cfg0.N) (i : S640000x1.Idx) :
    i ∈ ((cfg0.win 13).blk t).view.set ↔ ∀ a : Fin 2, win0_13.index t a * S4000x1.size a ≤ (i a).val ∧ (i a).val < win0_13.index t a * S4000x1.size a + S4000x1.size a := by
  show i ∈ ((View.whole main_v44).slice (win0_13.rect t)).set ↔ _
  rw [View.set_slice_whole, Rect.mem_set_unit]
  exact Iff.rfl

/-- Every index of the output column lies in the block of the point its row falls in. -/
theorem cover0_13' (i : S640000x1.Idx) :
    ∃ t : Fin cfg0.N, (cfg0.win 13).flush t = true ∧ i ∈ ((cfg0.win 13).blk t).view.set := by
  have hi0 : (i 0).val < 640000 := (i 0).isLt
  have hi1 : (i 1).val < 1 := (i 1).isLt
  have hN : cfg0.N = 160 := N_0
  obtain ⟨t, ht⟩ : ∃ t : Fin cfg0.N, t.val = (i 0).val / 4000 := ⟨⟨(i 0).val / 4000, by rw [hN]; omega⟩, rfl⟩
  obtain ⟨eo0, eo1, e00, e01, e10, e11, e20, e21, e3_0, e3_1, e4_0, e4_1, e5_0, e5_1, e6_0, e6_1, e7_0, e7_1, e8_0, e8_1, e9_0, e9_1, e10_0, e10_1, e11_0, e11_1, e12_0, e12_1⟩ := idx_facts0 t
  refine ⟨t, flush0_13 t, ?_⟩
  rw [mem_blk0_13]
  intro a
  match a with
  | ⟨0, _⟩ => show win0_13.index t (0 : Fin 2) * 4000 ≤ (i 0).val ∧ (i 0).val < win0_13.index t (0 : Fin 2) * 4000 + 4000; omega
  | ⟨1, _⟩ => show win0_13.index t (1 : Fin 2) * 1 ≤ (i 1).val ∧ (i 1).val < win0_13.index t (1 : Fin 2) * 1 + 1; omega

/-- The output column after the region: `edgeArr` of the arrays the region found. -/
theorem final0_13 (c : Dev nD) : (dat0 V c).arrAt 13 cfg0.N = edgeArr (V c main_v10) (V c main_v17) (V c main_v35) (V c main_v36) (V c main_v37) (V c main_v38) (V c main_v39) (V c main_arg9) (V c main_v40) (V c main_arg11) (V c main_v41) (V c main_v43) (V c main_v42) :=
  (dat0 V c).arrAt_eq_of_cover 13 _ (fun t _ => flushed0_13_eq V c t) cover0_13'

end

end Cert.KernelIdeal.Values

end
-- ==== Proof.LibGram.lean ====
/-
  Rows stacked along the middle axis of a rank-3 array, and the batched product of such an array with itself, for any
  extents.

  * Two arrays of shapes [n, p, d] and [n, q, d] concatenated along the middle axis give an array of shape [n, r, d]
    (r = p + q).  Read at the coordinates (b, f, e) the result is the first array at (b, f, e) when f < p, and the second
    array at (b, f - p, e) otherwise.
  * The batched contraction "bfe,bge->bfg" of two arrays of shape [n, f, d] (batch axis 0, free axis 1, contracted
    axis 2) has, at the output coordinates (b, i, j), the operand coordinates (b, i, e) on the left and (b, j, e) on the
    right, where e runs over the contracted axis.  So on the extended reals the matrix unit's product into a zero
    accumulator and the host's general dot product are both, at (b, i, j), the sum over e of left(b, i, e) * right(b, j, e).
-/
import Idealize.ShloMosaic.PureOps.Ideal.Laws
import Idealize.ShloMosaic.Lib.ValueIdx
import Idealize.ShloMosaic.Lib.Pipeline.Value

noncomputable section

namespace Idealize.ShloMosaic.GramLib

open Idealize.ShloMosaic Idealize.ShloMosaic.ValueIdx

/-! ## Two arrays stacked along the middle axis -/

section Stack
variable {α : Type} {n p q r d : ℕ}

/-- Below the first extent the stacked array reads the first piece, at the same coordinates. -/
theorem concat_mid_left (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : f.val < p) :
    concatenate ⟨3, ![n, r, d]⟩ 1 [⟨⟨3, ![n, p, d]⟩, x⟩, ⟨⟨3, ![n, q, d]⟩, y⟩] h (ix3 b f e) = x (ix3 b ⟨f.val, hf⟩ e) :=
  concatenate_pair_apply_left (t := ⟨3, ![n, r, d]⟩) (s₁ := ⟨3, ![n, p, d]⟩) (s₂ := ⟨3, ![n, q, d]⟩) 1 x y h (ix3 b f e) rfl
    (ix3 b ⟨f.val, hf⟩ e) (fun ax => by
      match ax with
      | ⟨0, _⟩ => rfl
      | ⟨1, _⟩ => rfl
      | ⟨2, _⟩ => rfl)

/-- From the first extent on it reads the second piece, the middle coordinate the first extent less. -/
theorem concat_mid_right (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : p ≤ f.val) (hq : f.val - p < q) :
    concatenate ⟨3, ![n, r, d]⟩ 1 [⟨⟨3, ![n, p, d]⟩, x⟩, ⟨⟨3, ![n, q, d]⟩, y⟩] h (ix3 b f e) = y (ix3 b ⟨f.val - p, hq⟩ e) :=
  concatenate_pair_apply_right (t := ⟨3, ![n, r, d]⟩) (s₁ := ⟨3, ![n, p, d]⟩) (s₂ := ⟨3, ![n, q, d]⟩) 1 x y h (ix3 b f e) rfl rfl
    (ix3 b ⟨f.val - p, hq⟩ e) (fun ax hax => by
      match ax with
      | ⟨0, _⟩ => rfl
      | ⟨1, _⟩ => exact absurd rfl hax
      | ⟨2, _⟩ => rfl)
    (by show (f.val - p) + p = f.val; omega)

end Stack

/-! ## The batched product of an [n, f, d] array with another, contracted over the last axis -/

section Dims
variable {n f d : ℕ}

/-- The dimension numbers of "bfe,bge->bfg": contracted axes 2 and 2, free axes 1 and 1, batch axes 0 and 0. -/
def gramDims (n f d : ℕ)
    (wf : DotDims.WF (⟨3, ![n, f, d]⟩ : Shape) ⟨3, ![n, f, d]⟩ ⟨3, ![n, f, f]⟩ [2] [2] [1] [1] [0] [0]) :
    DotDims ⟨3, ![n, f, d]⟩ ⟨3, ![n, f, d]⟩ ⟨3, ![n, f, f]⟩ where
  lhsContracting := [2]
  rhsContracting := [2]
  lhsNonContracting := [1]
  rhsNonContracting := [1]
  lhsBatch := [0]
  rhsBatch := [0]
  wf := wf

variable (wf : DotDims.WF (⟨3, ![n, f, d]⟩ : Shape) ⟨3, ![n, f, d]⟩ ⟨3, ![n, f, f]⟩ [2] [2] [1] [1] [0] [0])

/-- The left operand's coordinates: the batch and the first free coordinate of the output, and the contraction's. -/
theorem lhs_batch (j : (⟨3, ![n, f, f]⟩ : Shape).Idx) (k : (gramDims n f d wf).contr.Idx) :
    ((gramDims n f d wf).lhsIdx j k 0 : ℕ) = j 0 := by
  simp [DotDims.lhsIdx, gramDims] <;> rfl
theorem lhs_free (j : (⟨3, ![n, f, f]⟩ : Shape).Idx) (k : (gramDims n f d wf).contr.Idx) :
    ((gramDims n f d wf).lhsIdx j k 1 : ℕ) = j 1 := by
  simp [DotDims.lhsIdx, gramDims] <;> rfl
/-- The right operand's: the batch and the SECOND free coordinate of the output, and the contraction's. -/
theorem rhs_batch (j : (⟨3, ![n, f, f]⟩ : Shape).Idx) (k : (gramDims n f d wf).contr.Idx) :
    ((gramDims n f d wf).rhsIdx j k 0 : ℕ) = j 0 := by
  simp [DotDims.rhsIdx, gramDims] <;> rfl
theorem rhs_free (j : (⟨3, ![n, f, f]⟩ : Shape).Idx) (k : (gramDims n f d wf).contr.Idx) :
    ((gramDims n f d wf).rhsIdx j k 1 : ℕ) = j 2 := by
  simp [DotDims.rhsIdx, gramDims] <;> rfl

theorem contr_rank : (gramDims n f d wf).contr.rank = 1 := (gramDims n f d wf).rank_contr

theorem contr_size : (gramDims n f d wf).contr.size ⟨0, by rw [contr_rank]; exact Nat.one_pos⟩ = d :=
  (gramDims n f d wf).size_contr 0 Nat.one_pos

/-- The contraction's indices are the coordinates of the last axis. -/
def contrFin : (gramDims n f d wf).contr.Idx ≃ Fin d :=
  contrEquiv1 (gramDims n f d wf) d (contr_rank wf) (contr_size wf)

theorem lhs_at (b : Fin n) (i j : Fin f) (e : Fin d) :
    (gramDims n f d wf).lhsIdx (ix3 b i j) ((contrFin wf).symm e) = ix3 b i e := by
  funext a
  apply Fin.ext
  match a with
  | ⟨0, _⟩ => exact lhs_batch wf (ix3 b i j) _
  | ⟨1, _⟩ => exact lhs_free wf (ix3 b i j) _
  | ⟨2, _⟩ =>
    exact ((gramDims n f d wf).lhsIdx_val_of_single (cl := 2) rfl (ix3 b i j) _).trans
      (contrEquiv1_symm_val (gramDims n f d wf) d (contr_rank wf) (contr_size wf) e)

theorem rhs_at (b : Fin n) (i j : Fin f) (e : Fin d) :
    (gramDims n f d wf).rhsIdx (ix3 b i j) ((contrFin wf).symm e) = ix3 b j e := by
  funext a
  apply Fin.ext
  match a with
  | ⟨0, _⟩ => exact rhs_batch wf (ix3 b i j) _
  | ⟨1, _⟩ => exact rhs_free wf (ix3 b i j) _
  | ⟨2, _⟩ =>
    exact ((gramDims n f d wf).rhsIdx_val_of_single (cr := 2) rfl (ix3 b i j) _).trans
      (contrEquiv1_symm_val (gramDims n f d wf) d (contr_rank wf) (contr_size wf) e)

/-- The contraction at the output coordinates (b, i, j), as a sum over the last axis. -/
theorem sum_contr {M : Type} [AddCommMonoid M] (F : (⟨3, ![n, f, d]⟩ : Shape).Idx → (⟨3, ![n, f, d]⟩ : Shape).Idx → M)
    (b : Fin n) (i j : Fin f) :
    (∑ k : (gramDims n f d wf).contr.Idx,
        F ((gramDims n f d wf).lhsIdx (ix3 b i j) k) ((gramDims n f d wf).rhsIdx (ix3 b i j) k))
      = ∑ e : Fin d, F (ix3 b i e) (ix3 b j e) := by
  rw [← Equiv.sum_comp (contrFin wf).symm]
  exact Finset.sum_congr rfl fun e _ => by rw [lhs_at, rhs_at]

variable {φ₁ φ₂ : FTy}

/-- The matrix unit's product into a zero accumulator, on the extended reals, at (b, i, j). -/
theorem matmul_zero_apply (prec : Option ContractPrecision) (lhs : FVec Ideal ⟨3, ![n, f, d]⟩ φ₁)
    (rhs : FVec Ideal ⟨3, ![n, f, d]⟩ φ₂) (b : Fin n) (i j : Fin f) :
    FloatOps.matmul (gramDims n f d wf) prec lhs rhs (constant ⟨3, ![n, f, f]⟩ .f32 0x00000000#32) (ix3 b i j)
      = ∑ e : Fin d, lhs (ix3 b i e) * rhs (ix3 b j e) :=
  (Ideal.matmul_constant_zero_apply (gramDims n f d wf) prec lhs rhs (ix3 b i j)).trans
    (sum_contr wf (fun u v => lhs u * rhs v) b i j)

/-- The host's general dot product, on the extended reals, at (b, i, j): the same sum. -/
theorem dotGeneral_apply (prec : Option ContractPrecision) (sched : HostSchedule) (lhs : FVec Ideal ⟨3, ![n, f, d]⟩ φ₁)
    (rhs : FVec Ideal ⟨3, ![n, f, d]⟩ φ₂) (b : Fin n) (i j : Fin f) :
    FloatOps.dotGeneral (gramDims n f d wf) prec sched lhs rhs (ix3 b i j)
      = ∑ e : Fin d, lhs (ix3 b i e) * rhs (ix3 b j e) :=
  (Ideal.dotGeneral_apply (gramDims n f d wf) prec sched lhs rhs (ix3 b i j)).trans
    (sum_contr wf (fun u v => lhs u * rhs v) b i j)

end Dims

end Idealize.ShloMosaic.GramLib

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.NodeRefRow.lean ====
/-
  The reference's node features, read one row at a time.

  The host computes, for all 50000 nodes at once: the three projections of the inputs to 512 lanes each (one product
  with a 1536-column weight plus a bias, cut into three column blocks), the blocks read as 8 heads of 64 coordinates,
  every head's scores of every head (a batched contraction over the 64 coordinates, times 1/8), a softmax over the
  eight scores (shifted by their maximum taken from minus infinity), the softmax-weighted sum of the value heads, the
  heads laid side by side again as 512 lanes, and a last projection to 128 lanes plus a bias.  Here each of these
  array operations is read at an index given by its coordinates, and the chain of readings is the row function
  `Cert.Spec.nodeRow` of the node's own 128 inputs: no other node's row enters.
-/
import proofs.«151386_j49555332662092_1_alg».proof.Proof.Gen.ReferenceIdeal
import proofs.«151386_j49555332662092_1_alg».proof.Proof.Spec
import proofs.«151386_j49555332662092_1_alg».proof.Proof.LibRowMax
import proofs.«151386_j49555332662092_1_alg».proof.Proof.LibGram
import proofs.«151386_j49555332662092_1_alg».proof.Proof.LibKeepdims
import Idealize.ShloMosaic.Lib.IdealHost
import Idealize.ShloMosaic.Lib.StackMember

noncomputable section

namespace Cert.NodeRef

open Cert.ReferenceIdeal Cert.ReferenceIdeal.Gen Idealize.ShloMosaic Idealize.ShloMosaic.ValueIdx

/-! ## The arrays -/

/-- The three projections side by side, `[50000, 1536]`: the inputs times the weight, plus the bias on every row. -/
def qkv (A0 : FVec Ideal S50000x128 .f32) (A3 : FVec Ideal S128x1536 .f32) (A4 : FVec Ideal S1536 .f32) :
    FVec Ideal S50000x1536 .f32 :=
  addf (Host.dotGeneral dot_S50000x128_S128x1536_S50000x1536_1_0_0_1_n_n none A0 A3) (broadcastInDim S50000x1536 ![0, 1] bcast_S1x1536_S50000x1536_0_1 (broadcastInDim S1x1536 ![1] bcast_S1536_S1x1536_1 A4))

/-- Every head's score of every head, `[50000, 8, 8]`: the queries' heads against the keys' heads, times 1/8. -/
def scores (A0 : FVec Ideal S50000x128 .f32) (A3 : FVec Ideal S128x1536 .f32) (A4 : FVec Ideal S1536 .f32) :
    FVec Ideal S50000x8x8 .f32 :=
  mulf (Host.dotGeneral dot_S50000x8x64_S50000x8x64_S50000x8x8_2_2_1_1_0_0 none (shapeCast _ (extractStridedSlice S50000x512 ![0, 0] (qkv A0 A3 A4) slices_S50000x1536_S50000x512_0_0) shapeCasts_S50000x512_S50000x8x64) (shapeCast _ (extractStridedSlice S50000x512 ![0, 512] (qkv A0 A3 A4) slices_S50000x1536_S50000x512_0_512) shapeCasts_S50000x512_S50000x8x64)) (broadcastInDim S50000x8x8 ![] bcast_S_S50000x8x8 (constant (F := Ideal) S_ .f32 0x3E000000#32))

/-- The exponentials of the scores shifted by their maximum over the last axis. -/
def expd (A0 : FVec Ideal S50000x128 .f32) (A3 : FVec Ideal S128x1536 .f32) (A4 : FVec Ideal S1536 .f32) :
    FVec Ideal S50000x8x8 .f32 :=
  Host.exp (subf (scores A0 A3 A4) (broadcastInDim S50000x8x8 ![0, 1, 2] bcast_S50000x8x1_S50000x8x8_0_1_2 (broadcastInDim S50000x8x1 ![0, 1] bcast_S50000x8_S50000x8x1_0_1 (maximumf (broadcastInDim S50000x8 ![] bcast_S_S50000x8 (constant (F := Ideal) S_ .f32 0xFF800000#32)) (Host.reduce (FloatOps.maximumf (F := Ideal) (φ := .f32)) (scores A0 A3 A4) (constant (F := Ideal) S_ .f32 0xFF800000#32) reducesTo_S50000x8x8_S50000x8_d2 h_S_)))))

/-- The node features, `[50000, 128]`. -/
def feats (A0 : FVec Ideal S50000x128 .f32) (A3 : FVec Ideal S128x1536 .f32) (A4 : FVec Ideal S1536 .f32)
    (A5 : FVec Ideal S512x128 .f32) (A6 : FVec Ideal S128 .f32) : FVec Ideal S50000x128 .f32 :=
  addf (Host.dotGeneral dot_S50000x512_S512x128_S50000x128_1_0_0_1_n_n none (shapeCast _ (Host.dotGeneral dot_S50000x8x8_S50000x8x64_S50000x8x64_2_1_1_2_0_0 none (Host.divf (expd A0 A3 A4) (broadcastInDim S50000x8x8 ![0, 1, 2] bcast_S50000x8x1_S50000x8x8_0_1_2 (broadcastInDim S50000x8x1 ![0, 1] bcast_S50000x8_S50000x8x1_0_1 (Host.reduceAdd (expd A0 A3 A4) (constant (F := Ideal) S_ .f32 0x00000000#32) reducesTo_S50000x8x8_S50000x8_d2 h_S_)))) (shapeCast _ (extractStridedSlice S50000x512 ![0, 1024] (qkv A0 A3 A4) slices_S50000x1536_S50000x512_0_1024) shapeCasts_S50000x512_S50000x8x64)) shapeCasts_S50000x8x64_S50000x512) A5) (broadcastInDim S50000x128 ![0, 1] bcast_S1x128_S50000x128_0_1 (broadcastInDim S1x128 ![1] bcast_S128_S1x128_1 A6))

/-! ## Single operations read at coordinates -/

section Ops
variable {α : Type}

/-- A column block of a 1536-lane array, cut out at column `off` and read as 8 heads of 64: coordinate `d` of head
    `h` of row `n` is the array's entry in column `off + (h·64 + d)`. -/
theorem block_heads_apply (x : S50000x1536.Idx → α) (off : ℕ) (hs : S50000x1536.Slices ![0, off] S50000x512)
    (hc : S50000x512.ShapeCasts S50000x8x64) (n : Fin 50000) (h : Fin 8) (d : Fin 64) (c : Fin 1536)
    (hcv : c.val = off + (h.val * 64 + d.val)) :
    shapeCast S50000x8x64 (extractStridedSlice S50000x512 ![0, off] x hs) hc (ix3 n h d) = x (ix2 n c) := by
  refine (shapeCast_apply _ hc (ix3 n h d) (ix2 n (Cert.Spec.lane h d)) ?_).trans ?_
  · rw [Shape.rowMajor_val_two, Shape.rowMajor_val_three]
    show n.val * 512 + (h.val * 64 + d.val) = (n.val * 8 + h.val) * 64 + d.val
    omega
  · refine extractStridedSlice_apply _ x hs _ (ix2 n c) fun a => ?_
    match a with
    | ⟨0, _⟩ =>
      show n.val = 0 + n.val
      omega
    | ⟨1, _⟩ =>
      show c.val = off + (h.val * 64 + d.val)
      exact hcv

/-- Eight heads of 64 laid side by side as 512 lanes: lane `c` of row `n` is coordinate `c % 64` of head `c / 64`. -/
theorem heads_lanes_apply (y : S50000x8x64.Idx → α) (hc : S50000x8x64.ShapeCasts S50000x512) (n : Fin 50000)
    (c : Fin 512) :
    shapeCast S50000x512 y hc (ix2 n c) = y (ix3 n (Cert.Spec.headOf c) (Cert.Spec.coordOf c)) := by
  refine shapeCast_apply y hc (ix2 n c) _ ?_
  rw [Shape.rowMajor_val_two, Shape.rowMajor_val_three]
  show (n.val * 8 + c.val / 64) * 64 + c.val % 64 = n.val * 512 + c.val
  omega

/-- An `[a, b]` array kept as `[a, b, 1]` and broadcast along a last axis of extent `c` reads, at `(i, j, k)`, the
    array at `(i, j)`. -/
theorem keep_last_apply {a b c : ℕ} (x : (⟨2, ![a, b]⟩ : Shape).Idx → α)
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h2 (broadcastInDim ⟨3, ![a, b, 1]⟩ ![0, 1] h1 x) (ix3 i j k)
      = x (ix2 i j) := by
  refine (broadcastInDim_apply _ h2 _ (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show 0 = if (1 : ℕ) = 1 then 0 else k.val
      rw [if_pos rfl]
  · refine broadcastInDim_apply _ h1 x (ix3 i j (0 : Fin 1)) (ix2 i j) fun ax => ?_
    match ax with
    | ⟨0, _⟩ =>
      show i.val = if a = 1 then 0 else i.val
      split
      · have := i.isLt; omega
      · rfl
    | ⟨1, _⟩ =>
      show j.val = if b = 1 then 0 else j.val
      split
      · have := j.isLt; omega
      · rfl

/-- The host's sum along the last axis, at `(i, j)`: the initial value plus the sum over `k`. -/
theorem hostSum_last_apply {a b c : ℕ} {u : Shape} {φ : FTy} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (i : Fin a) (j : Fin b) :
    Host.reduceAdd x init h' hu (ix2 i j) = init (Shape.Idx.first hu) + ∑ k : Fin c, x (ix3 i j k) := by
  refine (Ideal.hostReduceAdd_single h' h x (init (Shape.Idx.first hu)) (ix2 i j)).trans ?_
  refine congrArg (init (Shape.Idx.first hu) + ·) ?_
  exact Finset.sum_congr rfl fun k _ => congrArg x (Keepdims.lift_last h i j k)

end Ops

/-- The witness that names the coordinate a reduction over the last axis of `[50000, 8, 8]` inserts. -/
theorem reduces_last : S50000x8x8.Reduces [2] S50000x8 := by decide

/-! ## The softmax's two keepdims expressions, for any score array -/

/-- The shift: at `(n, h, j)` the maximum of minus infinity and the fold of `max` from minus infinity over row
    `(n, h)`. -/
theorem shift_apply (S : FVec Ideal S50000x8x8 .f32) (n : Fin 50000) (h j : Fin 8) :
    (broadcastInDim S50000x8x8 ![0, 1, 2] bcast_S50000x8x1_S50000x8x8_0_1_2 (broadcastInDim S50000x8x1 ![0, 1] bcast_S50000x8_S50000x8x1_0_1 (maximumf (broadcastInDim S50000x8 ![] bcast_S_S50000x8 (constant (F := Ideal) S_ .f32 0xFF800000#32)) (Host.reduce (FloatOps.maximumf (F := Ideal) (φ := .f32)) S (constant (F := Ideal) S_ .f32 0xFF800000#32) reducesTo_S50000x8x8_S50000x8_d2 h_S_)))) (ix3 n h j)
      = max (Ideal.ofBits .f32 0xFF800000#32)
          ((Finset.univ : Finset (Fin 8)).fold max (Ideal.ofBits .f32 0xFF800000#32) fun k => S (ix3 n h k)) := by
  refine (keep_last_apply _ _ _ n h j).trans ?_
  refine (maximumf_apply _ _ _).trans ?_
  refine congrArg₂ max ?_ ?_
  · exact broadcastInDim_scalar_apply _ _ _
  · exact Keepdims.hostReduce_max_last S _ _ reduces_last _ n h

/-- The normalized weights: at `(n, h, j)` the entry divided by the sum of row `(n, h)`. -/
theorem norm_apply (E : FVec Ideal S50000x8x8 .f32) (n : Fin 50000) (h j : Fin 8) :
    (Host.divf E (broadcastInDim S50000x8x8 ![0, 1, 2] bcast_S50000x8x1_S50000x8x8_0_1_2 (broadcastInDim S50000x8x1 ![0, 1] bcast_S50000x8_S50000x8x1_0_1 (Host.reduceAdd E (constant (F := Ideal) S_ .f32 0x00000000#32) reducesTo_S50000x8x8_S50000x8_d2 h_S_)))) (ix3 n h j)
      = Ideal.div (E (ix3 n h j)) (∑ k : Fin 8, E (ix3 n h k)) := by
  refine (hostDivf_apply _ _ _).trans ?_
  refine congrArg (Ideal.div (E (ix3 n h j))) ?_
  refine (keep_last_apply _ _ _ n h j).trans ?_
  refine (hostSum_last_apply E _ _ reduces_last _ n h).trans ?_
  show Ideal.ofBits .f32 0x00000000#32 + _ = _
  rw [Ideal.ofBits_zero_f32, zero_add]

/-! ## The chain, one node at a time -/

section Row
variable (A0 : FVec Ideal S50000x128 .f32) (A3 : FVec Ideal S128x1536 .f32) (A4 : FVec Ideal S1536 .f32)

/-- The row's inputs, and block `o` of the projection weight and bias. -/
abbrev xrow (n : Fin 50000) : Fin 128 → EReal := fun a => A0 (ix2 n a)
abbrev wblk (o : Fin 3) : Fin 128 → Fin 512 → EReal := fun a c => A3 (ix2 a (Cert.Spec.col3 o c))
abbrev bblk (o : Fin 3) : Fin 512 → EReal := fun c => A4 (ix1 (Cert.Spec.col3 o c))

/-- The projections at `(n, c')`: the sum over the inputs, plus the bias. -/
theorem qkv_apply (n : Fin 50000) (c : Fin 1536) :
    qkv A0 A3 A4 (ix2 n c) = (∑ a : Fin 128, A0 (ix2 n a) * A3 (ix2 a c)) + A4 (ix1 c) := by
  unfold qkv
  refine (addf_apply _ _ _).trans ?_
  refine congrArg₂ (· + ·) ?_ ?_
  · exact Cert.LibRowMax.dotGeneral_plain_apply dot_S50000x128_S128x1536_S50000x1536_1_0_0_1_n_n_wf none .single A0 A3 n c
  · exact (Cert.LibRowMax.broadcastInDim_1b_ab_apply _ _ n c).trans
      (Cert.LibRowMax.broadcastInDim_b_1b_apply A4 _ (0 : Fin 1) c)

/-- Lane `c` of block `o` is the row's projection by that block. -/
theorem qkv_proj (n : Fin 50000) (o : Fin 3) (c : Fin 512) :
    qkv A0 A3 A4 (ix2 n (Cert.Spec.col3 o c)) = Cert.Spec.proj (xrow A0 n) (wblk A3 o) (bblk A4 o) c :=
  qkv_apply A0 A3 A4 n (Cert.Spec.col3 o c)

/-- The row's three projections. -/
abbrev qrow (n : Fin 50000) (o : Fin 3) : Fin 512 → EReal := Cert.Spec.proj (xrow A0 n) (wblk A3 o) (bblk A4 o)

/-- Head `h`'s score of head `j` at node `n`. -/
theorem scores_apply (n : Fin 50000) (h j : Fin 8) :
    scores A0 A3 A4 (ix3 n h j) = Cert.Spec.score (qrow A0 A3 A4 n 0) (qrow A0 A3 A4 n 1) h j := by
  unfold scores
  refine (mulf_apply _ _ _).trans ?_
  refine congrArg₂ (· * ·) ?_ ?_
  · refine (GramLib.dotGeneral_apply dot_S50000x8x64_S50000x8x64_S50000x8x8_2_2_1_1_0_0_wf none .single _ _ n h j).trans ?_
    refine Finset.sum_congr rfl fun d _ => congrArg₂ (· * ·) ?_ ?_
    · refine (block_heads_apply _ 0 _ _ n h d (Cert.Spec.col3 0 (Cert.Spec.lane h d)) ?_).trans (qkv_proj A0 A3 A4 n 0 _)
      show 0 * 512 + (h.val * 64 + d.val) = 0 + (h.val * 64 + d.val)
      omega
    · refine (block_heads_apply _ 512 _ _ n j d (Cert.Spec.col3 1 (Cert.Spec.lane j d)) ?_).trans (qkv_proj A0 A3 A4 n 1 _)
      show 1 * 512 + (j.val * 64 + d.val) = 512 + (j.val * 64 + d.val)
      omega
  · exact broadcastInDim_scalar_apply _ _ _

/-- The shifted exponentials at `(n, h, j)`. -/
theorem expd_apply (n : Fin 50000) (h j : Fin 8) :
    expd A0 A3 A4 (ix3 n h j)
      = Ideal.exp (Cert.Spec.score (qrow A0 A3 A4 n 0) (qrow A0 A3 A4 n 1) h j
          - Cert.Spec.shift (Cert.Spec.score (qrow A0 A3 A4 n 0) (qrow A0 A3 A4 n 1) h)) := by
  unfold expd
  show Ideal.exp (scores A0 A3 A4 (ix3 n h j) - (broadcastInDim S50000x8x8 ![0, 1, 2] bcast_S50000x8x1_S50000x8x8_0_1_2 (broadcastInDim S50000x8x1 ![0, 1] bcast_S50000x8_S50000x8x1_0_1 (maximumf (broadcastInDim S50000x8 ![] bcast_S_S50000x8 (constant (F := Ideal) S_ .f32 0xFF800000#32)) (Host.reduce (FloatOps.maximumf (F := Ideal) (φ := .f32)) (scores A0 A3 A4) (constant (F := Ideal) S_ .f32 0xFF800000#32) reducesTo_S50000x8x8_S50000x8_d2 h_S_)))) (ix3 n h j)) = _
  refine congrArg Ideal.exp (congrArg₂ (· - ·) (scores_apply A0 A3 A4 n h j) ?_)
  refine (shift_apply _ n h j).trans ?_
  show _ = max Cert.Spec.FLOOR ((Finset.univ : Finset (Fin 8)).fold max Cert.Spec.FLOOR _)
  refine congrArg (max Cert.Spec.FLOOR) ?_
  exact congrArg (Finset.fold max Cert.Spec.FLOOR · Finset.univ) (funext fun k => scores_apply A0 A3 A4 n h k)

/-- The row reading of the node features. -/
theorem feats_row (A5 : FVec Ideal S512x128 .f32) (A6 : FVec Ideal S128 .f32) (n : Fin 50000) (f : Fin 128) :
    feats A0 A3 A4 A5 A6 (ix2 n f)
      = Cert.Spec.nodeRow (fun a => A0 (ix2 n a))
          (fun a c => A3 (ix2 a (Cert.Spec.col3 0 c))) (fun c => A4 (ix1 (Cert.Spec.col3 0 c)))
          (fun a c => A3 (ix2 a (Cert.Spec.col3 1 c))) (fun c => A4 (ix1 (Cert.Spec.col3 1 c)))
          (fun a c => A3 (ix2 a (Cert.Spec.col3 2 c))) (fun c => A4 (ix1 (Cert.Spec.col3 2 c)))
          (fun c f => A5 (ix2 c f)) (fun f => A6 (ix1 f)) f := by
  unfold feats
  refine (addf_apply _ _ _).trans ?_
  show _ = (∑ c : Fin 512, Cert.Spec.feat (qrow A0 A3 A4 n 0) (qrow A0 A3 A4 n 1) (qrow A0 A3 A4 n 2)
      (Cert.Spec.headOf c) (Cert.Spec.coordOf c) * A5 (ix2 c f)) + A6 (ix1 f)
  refine congrArg₂ (· + ·) ?_ ?_
  · refine (Cert.LibRowMax.dotGeneral_plain_apply dot_S50000x512_S512x128_S50000x128_1_0_0_1_n_n_wf none .single _ A5 n f).trans ?_
    refine Finset.sum_congr rfl fun c _ => congrArg (· * A5 (ix2 c f)) ?_
    refine (heads_lanes_apply _ _ n c).trans ?_
    refine (StackMember.dotGeneral_stack_apply dot_S50000x8x8_S50000x8x64_S50000x8x64_2_1_1_2_0_0_wf none _ _ n
      (Cert.Spec.headOf c) (Cert.Spec.coordOf c)).trans ?_
    refine Finset.sum_congr rfl fun j _ => congrArg₂ (· * ·) ?_ ?_
    · refine (norm_apply _ n (Cert.Spec.headOf c) j).trans ?_
      show _ = Ideal.div _ (∑ j' : Fin 8, _)
      refine congrArg₂ Ideal.div (expd_apply A0 A3 A4 n _ j) ?_
      exact Finset.sum_congr rfl fun k _ => expd_apply A0 A3 A4 n _ k
    · refine (block_heads_apply _ 1024 _ _ n j (Cert.Spec.coordOf c)
        (Cert.Spec.col3 2 (Cert.Spec.lane j (Cert.Spec.coordOf c))) ?_).trans (qkv_proj A0 A3 A4 n 2 _)
      show 2 * 512 + (j.val * 64 + c.val % 64) = 1024 + (j.val * 64 + c.val % 64)
      omega
  · exact (Cert.LibRowMax.broadcastInDim_1b_ab_apply _ _ n f).trans
      (Cert.LibRowMax.broadcastInDim_b_1b_apply A6 _ (0 : Fin 1) f)

end Row

end Cert.NodeRef

end
-- ==== Proof.NodeBridge.lean ====
/-
  The kernel program's node array and the reference's node features are the same function of the five arrays both read.

  The kernel program's array is, at `(n, f)`, the node row function of row `n` of the inputs, the three column blocks of
  the projection weight, the three blocks of its bias laid as one-row matrices, the output weight and the output bias
  laid as a one-row matrix.  A column block read at `(a, c)` is the weight at column `o·512 + c`; a bias block cut out
  and laid as a row reads, at `(0, c)`, the bias at `o·512 + c`; the output bias laid as a row reads the bias.  With these
  readings the row function's arguments are, entry by entry, the ones the reference's row reading takes.
-/
import proofs.«151386_j49555332662092_1_alg».proof.Proof.ArrDef
import proofs.«151386_j49555332662092_1_alg».proof.Proof.NodeRefRow
import Idealize.ShloMosaic.Lib.ValueLayout

noncomputable section

namespace Cert.NodeBridge

open Cert.KernelIdeal Cert.KernelIdeal.Gen
open Idealize.ShloMosaic Idealize.ShloMosaic.ValueIdx

variable {α : Type}

/-- Column block `o` of the projection weight, cut out at column `off = o·512`, reads at `(a, c)` the weight at
    `(a, o·512 + c)`. -/
theorem wblock_apply (W : S128x1536.Idx → α) (off : ℕ) (hs : S128x1536.Slices ![0, off] S128x512) (o : Fin 3)
    (ho : off = o.val * 512) (a : Fin 128) (c : Fin 512) :
    extractStridedSlice S128x512 ![0, off] W hs (ix2 a c) = W (ix2 a (Cert.Spec.col3 o c)) :=
  slice2_axis1_apply off W hs a c (Cert.Spec.col3 o c) (by
    show o.val * 512 + c.val = off + c.val
    omega)

/-- Block `o` of the projection bias, cut out at `off = o·512` and laid as a one-row matrix, reads at `(0, c)` the bias
    at `o·512 + c`. -/
theorem bblock_apply (b : S1536.Idx → α) (off : ℕ) (hs : S1536.Slices ![off] S512) (hc : S512.ShapeCasts S1x512)
    (o : Fin 3) (ho : off = o.val * 512) (u : Fin 1) (c : Fin 512) :
    shapeCast S1x512 (extractStridedSlice S512 ![off] b hs) hc (ix2 u c) = b (ix1 (Cert.Spec.col3 o c)) := by
  refine (shapeCast_a_1a_apply _ hc u c).trans ?_
  refine extractStridedSlice_apply _ b hs (ix1 c) (ix1 (Cert.Spec.col3 o c)) fun ax => ?_
  match ax with
  | ⟨0, _⟩ =>
    show o.val * 512 + c.val = off + c.val
    omega

/-- The two arrays are equal. -/
theorem arr_eq (a0 : FVec Ideal S50000x128 .f32) (a3 : FVec Ideal S128x1536 .f32) (a4 : FVec Ideal S1536 .f32)
    (a5 : FVec Ideal S512x128 .f32) (a6 : FVec Ideal S128 .f32) :
    Cert.KernelIdeal.Values.nodeArr a0
      (extractStridedSlice S128x512 ![0, 0] a3 slices_S128x1536_S128x512_0_0)
      (shapeCast S1x512 (extractStridedSlice S512 ![0] a4 slices_S1536_S512_0) shapeCasts_S512_S1x512)
      (extractStridedSlice S128x512 ![0, 512] a3 slices_S128x1536_S128x512_0_512)
      (shapeCast S1x512 (extractStridedSlice S512 ![512] a4 slices_S1536_S512_512) shapeCasts_S512_S1x512)
      (extractStridedSlice S128x512 ![0, 1024] a3 slices_S128x1536_S128x512_0_1024)
      (shapeCast S1x512 (extractStridedSlice S512 ![1024] a4 slices_S1536_S512_1024) shapeCasts_S512_S1x512)
      a5 (shapeCast S1x128 a6 shapeCasts_S128_S1x128)
    = Cert.NodeRef.feats a0 a3 a4 a5 a6 := by
  funext i
  obtain ⟨n, f, rfl⟩ : ∃ (n : Fin 50000) (f : Fin 128), i = ix2 n f := ⟨i 0, i 1, eq_ix2 i⟩
  refine Eq.trans ?_ (Cert.NodeRef.feats_row a0 a3 a4 a5 a6 n f).symm
  unfold Cert.KernelIdeal.Values.nodeArr
  exact Cert.KernelIdeal.Values.nodeRow_congr (fun _ => rfl)
    (fun a c => wblock_apply a3 0 _ 0 rfl a c) (fun c => bblock_apply a4 0 _ _ 0 rfl 0 c)
    (fun a c => wblock_apply a3 512 _ 1 rfl a c) (fun c => bblock_apply a4 512 _ _ 1 rfl 0 c)
    (fun a c => wblock_apply a3 1024 _ 2 rfl a c) (fun c => bblock_apply a4 1024 _ _ 2 rfl 0 c)
    (fun _ _ => rfl) (fun l => shapeCast_a_1a_apply a6 _ 0 l) rfl

end Cert.NodeBridge

end
-- ==== Proof.EdgeRef.lean ====
/-
  The edge branch of the reference, read row by row.

  The reference computes all 640000 edge logits at once on the host: the two gathered node rows and the squared
  distance are joined into 257 lanes, multiplied by the 257 × 128 first weight, and the bias added; then
  `u · (1 / (1 + exp (−u)))`; two more layers of the same kind with 128 × 128 weights; a last product with a
  128 × 1 weight and a bias.  `logits` is that term over the three joined operands and the eight weight arrays;
  the reference's printed term is `logits` of its own operands (`res_eq`), and entry `(e, 0)` of `logits` is
  `Cert.Spec.edgeRow` of row `e` of the operands (`logits_row`): the sum over the 257 joined lanes splits as
  128 + 128 + 1, the first weight's rows 0–127 meeting the first gathered row, rows 128–255 the second, row 256 the
  squared distance.
-/
import proofs.«151386_j49555332662092_1_alg».proof.Proof.Gen.ReferenceIdeal.Run
import proofs.«151386_j49555332662092_1_alg».proof.Proof.Spec
import proofs.«151386_j49555332662092_1_alg».proof.Proof.HostTerms
import proofs.«151386_j49555332662092_1_alg».proof.Proof.LibRowMax
import proofs.«151386_j49555332662092_1_alg».proof.Proof.LibSilu

noncomputable section

namespace Cert.EdgeRef

open Idealize.ShloMosaic Idealize.ShloMosaic.ValueIdx Cert.ReferenceIdeal Cert.ReferenceIdeal.Gen

/-! ## The reference's term -/

/-- `u · (1 / (1 + exp (−u)))` entry by entry, as the host spells it: both ones are the f32 word of one, splat. -/
def hsilu (u : FVec Ideal S640000x128 .f32) : FVec Ideal S640000x128 .f32 :=
  mulf u (Host.divf (broadcastInDim S640000x128 ![] bcast_S_S640000x128 (constant (F := Ideal) S_ .f32 0x3F800000#32)) (addf (broadcastInDim S640000x128 ![] bcast_S_S640000x128 (constant (F := Ideal) S_ .f32 0x3F800000#32)) (Host.exp (Host.negf u))))

/-- A 128-lane bias placed as one row and repeated down the 640000 rows. -/
def bias (b : FVec Ideal S128 .f32) : FVec Ideal S640000x128 .f32 :=
  broadcastInDim S640000x128 ![0, 1] bcast_S1x128_S640000x128_0_1 (broadcastInDim S1x128 ![1] bcast_S128_S1x128_1 b)

/-- The first layer before its activation: the three operands joined along the lanes, times the first weight, plus
    the bias. -/
def pre1 (HR HC : FVec Ideal S640000x128 .f32) (RD : FVec Ideal S640000x1 .f32) (A7 : FVec Ideal S257x128 .f32)
    (A8 : FVec Ideal S128 .f32) : FVec Ideal S640000x128 .f32 :=
  addf (Host.dotGeneral dot_S640000x257_S257x128_S640000x128_1_0_0_1_n_n none (concatenate S640000x257 1 [⟨S640000x128, HR⟩, ⟨S640000x128, HC⟩, ⟨S640000x1, RD⟩] concatenates_S640000x128_S640000x128_S640000x1_S640000x257_d1) A7) (bias A8)

/-- A later layer before its activation: the activated previous layer times the weight, plus the bias. -/
def next (u : FVec Ideal S640000x128 .f32) (W : FVec Ideal S128x128 .f32) (b : FVec Ideal S128 .f32) :
    FVec Ideal S640000x128 .f32 :=
  addf (Host.dotGeneral dot_S640000x128_S128x128_S640000x128_1_0_0_1_n_n none (hsilu u) W) (bias b)

/-- The reference's logits over the joined operands and the weights. -/
def logits (HR HC : FVec Ideal S640000x128 .f32) (RD : FVec Ideal S640000x1 .f32) (A7 : FVec Ideal S257x128 .f32)
    (A8 : FVec Ideal S128 .f32) (A9 : FVec Ideal S128x128 .f32) (A10 : FVec Ideal S128 .f32)
    (A11 : FVec Ideal S128x128 .f32) (A12 : FVec Ideal S128 .f32) (A13 : FVec Ideal S128x1 .f32)
    (A14 : FVec Ideal S1 .f32) : FVec Ideal S640000x1 .f32 :=
  addf (Host.dotGeneral dot_S640000x128_S128x1_S640000x1_1_0_0_1_n_n none (hsilu (next (next (pre1 HR HC RD A7 A8) A9 A10) A11 A12)) A13) (broadcastInDim S640000x1 ![0, 1] bcast_S1x1_S640000x1_0_1 (broadcastInDim S1x1 ![1] bcast_S1_S1x1_1 A14))

/-- The reference's printed logits are `logits` of its own gathered rows, squared distances and weights. -/
theorem res_eq (V0 : Valuation τ sig (Elt Ideal)) :
    Cert.ReferenceIdeal.Value.res_main_v103 (F := Ideal) V0
      = logits (Cert.HostTerms.gatherRow (V0 (Proc.devRef .tc main_arg0)) (V0 (Proc.devRef .tc main_arg2)))
          (Cert.HostTerms.gatherCol (V0 (Proc.devRef .tc main_arg0)) (V0 (Proc.devRef .tc main_arg2)))
          (Cert.HostTerms.sqDist (V0 (Proc.devRef .tc main_arg1)) (V0 (Proc.devRef .tc main_arg2)))
          (V0 (Proc.devRef .tc main_arg7)) (V0 (Proc.devRef .tc main_arg8)) (V0 (Proc.devRef .tc main_arg9))
          (V0 (Proc.devRef .tc main_arg10)) (V0 (Proc.devRef .tc main_arg11)) (V0 (Proc.devRef .tc main_arg12))
          (V0 (Proc.devRef .tc main_arg13)) (V0 (Proc.devRef .tc main_arg14)) := by
  unfold Cert.ReferenceIdeal.Value.res_main_v103 Cert.ReferenceIdeal.Value.res_main_v92
    Cert.ReferenceIdeal.Value.res_main_v51 Cert.ReferenceIdeal.Value.res_main_v40
    Cert.ReferenceIdeal.Value.res_main_v18 Cert.ReferenceIdeal.Value.res_main_v1
    Cert.ReferenceIdeal.Value.res_main_v3
  unfold logits next pre1 hsilu bias Cert.HostTerms.gatherRow Cert.HostTerms.gatherCol Cert.HostTerms.sqDist
    Cert.HostTerms.relPos Cert.HostTerms.wrap Cert.HostTerms.rowIdx Cert.HostTerms.colIdx
  rfl

/-! ## Reading it at a row -/

/-- A rank-0 value splat over the 640000 × 128 array reads that value everywhere. -/
theorem splat_apply (x : FVec Ideal S_ .f32) (j : S640000x128.Idx) :
    broadcastInDim S640000x128 ![] bcast_S_S640000x128 x j = x ix0 :=
  broadcastInDim_apply _ bcast_S_S640000x128 x j ix0 fun a => a.elim0

/-- The host's activation at an entry is `z · logistic z` of the entry. -/
theorem hsilu_apply (u : FVec Ideal S640000x128 .f32) (j : S640000x128.Idx) : hsilu u j = Spec.silu (u j) := by
  unfold hsilu
  show FloatOps.mulf (u j) (FloatOps.hostDivf (broadcastInDim S640000x128 ![] bcast_S_S640000x128 (constant (F := Ideal) S_ .f32 0x3F800000#32) j)
      (FloatOps.addf (broadcastInDim S640000x128 ![] bcast_S_S640000x128 (constant (F := Ideal) S_ .f32 0x3F800000#32) j)
        (FloatOps.hostUnary .exp (FloatOps.hostNegf (u j))))) = _
  rw [splat_apply]
  exact LibSilu.host_spelling (u j)

/-- The repeated bias at `(e, l)` is the bias at lane `l`. -/
theorem bias_apply (b : FVec Ideal S128 .f32) (e : Fin 640000) (l : Fin 128) : bias b (ix2 e l) = b (ix1 l) :=
  (LibRowMax.broadcastInDim_1b_ab_apply _ bcast_S1x128_S640000x128_0_1 e l).trans
    (LibRowMax.broadcastInDim_b_1b_apply b bcast_S128_S1x128_1 0 l)

/-- A later layer before its activation, at `(e, l)`. -/
theorem next_apply (u : FVec Ideal S640000x128 .f32) (W : FVec Ideal S128x128 .f32) (b : FVec Ideal S128 .f32)
    (e : Fin 640000) (l : Fin 128) :
    next u W b (ix2 e l) = Spec.lin (fun a => Spec.silu (u (ix2 e a))) (fun a l => W (ix2 a l)) l + b (ix1 l) := by
  unfold next
  refine (addf_apply _ _ _).trans ?_
  refine congrArg₂ (· + ·) ?_ (bias_apply b e l)
  refine (LibRowMax.dotGeneral_plain_apply (a := 640000) (k := 128) (b := 128)
    dot_S640000x128_S128x128_S640000x128_1_0_0_1_n_n.wf none .single _ W e l).trans ?_
  exact Finset.sum_congr rfl fun a _ => congrArg (· * _) (hsilu_apply u _)

/-- A sum over the 257 joined lanes splits as the first 128, the next 128 and the last one. -/
theorem sum257 (f : Fin 257 → EReal) :
    ∑ k : Fin 257, f k
      = ((∑ a : Fin 128, f (Spec.row2 0 a)) + ∑ a : Fin 128, f (Spec.row2 1 a)) + f Spec.rowLast := by
  refine (Fin.sum_univ_castSucc (n := 256) f).trans ?_
  refine congrArg₂ (· + ·) ?_ rfl
  refine (Fin.sum_univ_add (a := 128) (b := 128) fun i => f (Fin.castSucc i)).trans ?_
  refine congrArg₂ (· + ·) ?_ ?_
  · exact Finset.sum_congr rfl fun a _ => congrArg f (Fin.ext (by simp [Spec.row2]))
  · exact Finset.sum_congr rfl fun a _ => congrArg f (Fin.ext (by simp [Spec.row2]; omega))

/-- The joined array at a lane of its first block reads the first operand. -/
theorem cat_first (HR HC : FVec Ideal S640000x128 .f32) (RD : FVec Ideal S640000x1 .f32) (e : Fin 640000) (a : Fin 128) :
    concatenate S640000x257 1 [⟨S640000x128, HR⟩, ⟨S640000x128, HC⟩, ⟨S640000x1, RD⟩]
        concatenates_S640000x128_S640000x128_S640000x1_S640000x257_d1 (ix2 e (Spec.row2 0 a)) = HR (ix2 e a) := by
  refine concatenate_apply_piece (t := S640000x257) 1 [⟨S640000x128, HR⟩, ⟨S640000x128, HC⟩, ⟨S640000x1, RD⟩]
    concatenates_S640000x128_S640000x128_S640000x1_S640000x257_d1 _ 0 (by show 0 < 3; omega)
    S640000x128 HR rfl rfl 0 rfl (ix2 e a) (fun b hb => ?_) ?_
  · match b with
    | ⟨0, _⟩ => rfl
    | ⟨1, _⟩ => exact absurd rfl hb
  · show 0 + a.val = 0 * 128 + a.val
    omega

/-- At a lane of its second block it reads the second operand. -/
theorem cat_second (HR HC : FVec Ideal S640000x128 .f32) (RD : FVec Ideal S640000x1 .f32) (e : Fin 640000) (a : Fin 128) :
    concatenate S640000x257 1 [⟨S640000x128, HR⟩, ⟨S640000x128, HC⟩, ⟨S640000x1, RD⟩]
        concatenates_S640000x128_S640000x128_S640000x1_S640000x257_d1 (ix2 e (Spec.row2 1 a)) = HC (ix2 e a) := by
  refine concatenate_apply_piece (t := S640000x257) 1 [⟨S640000x128, HR⟩, ⟨S640000x128, HC⟩, ⟨S640000x1, RD⟩]
    concatenates_S640000x128_S640000x128_S640000x1_S640000x257_d1 _ 1 (by show 1 < 3; omega)
    S640000x128 HC rfl rfl 128 rfl (ix2 e a) (fun b hb => ?_) ?_
  · match b with
    | ⟨0, _⟩ => rfl
    | ⟨1, _⟩ => exact absurd rfl hb
  · show 128 + a.val = 1 * 128 + a.val
    omega

/-- At its last lane it reads the third operand. -/
theorem cat_last (HR HC : FVec Ideal S640000x128 .f32) (RD : FVec Ideal S640000x1 .f32) (e : Fin 640000) :
    concatenate S640000x257 1 [⟨S640000x128, HR⟩, ⟨S640000x128, HC⟩, ⟨S640000x1, RD⟩]
        concatenates_S640000x128_S640000x128_S640000x1_S640000x257_d1 (ix2 e Spec.rowLast) = RD (ix2 e 0) := by
  refine concatenate_apply_piece (t := S640000x257) 1 [⟨S640000x128, HR⟩, ⟨S640000x128, HC⟩, ⟨S640000x1, RD⟩]
    concatenates_S640000x128_S640000x128_S640000x1_S640000x257_d1 _ 2 (by show 2 < 3; omega)
    S640000x1 RD rfl rfl 256 rfl (ix2 e (0 : Fin 1)) (fun b hb => ?_) ?_
  · match b with
    | ⟨0, _⟩ => rfl
    | ⟨1, _⟩ => exact absurd rfl hb
  · rfl

/-- The first layer before its activation, at `(e, l)`: the two gathered rows through their halves of the weight, the
    squared distance times the weight's last row, and the bias. -/
theorem pre1_apply (HR HC : FVec Ideal S640000x128 .f32) (RD : FVec Ideal S640000x1 .f32) (A7 : FVec Ideal S257x128 .f32)
    (A8 : FVec Ideal S128 .f32) (e : Fin 640000) (l : Fin 128) :
    pre1 HR HC RD A7 A8 (ix2 e l)
      = ((Spec.lin (fun a => HR (ix2 e a)) (fun a l => A7 (ix2 (Spec.row2 0 a) l)) l
            + Spec.lin (fun a => HC (ix2 e a)) (fun a l => A7 (ix2 (Spec.row2 1 a) l)) l)
          + RD (ix2 e 0) * A7 (ix2 Spec.rowLast l)) + A8 (ix1 l) := by
  unfold pre1
  refine (addf_apply _ _ _).trans ?_
  refine congrArg₂ (· + ·) ?_ (bias_apply A8 e l)
  refine (LibRowMax.dotGeneral_plain_apply (a := 640000) (k := 257) (b := 128)
    dot_S640000x257_S257x128_S640000x128_1_0_0_1_n_n.wf none .single _ A7 e l).trans ?_
  refine (sum257 _).trans ?_
  refine congrArg₂ (· + ·) (congrArg₂ (· + ·) ?_ ?_) ?_
  · exact Finset.sum_congr rfl fun a _ => congrArg (· * _) (cat_first HR HC RD e a)
  · exact Finset.sum_congr rfl fun a _ => congrArg (· * _) (cat_second HR HC RD e a)
  · exact congrArg (· * _) (cat_last HR HC RD e)

/-- Entry `(e, z)` of the reference's logits is the edge logit of row `e` of the operands. -/
theorem logits_row (HR HC : FVec Ideal S640000x128 .f32) (RD : FVec Ideal S640000x1 .f32) (A7 : FVec Ideal S257x128 .f32)
    (A8 : FVec Ideal S128 .f32) (A9 : FVec Ideal S128x128 .f32) (A10 : FVec Ideal S128 .f32)
    (A11 : FVec Ideal S128x128 .f32) (A12 : FVec Ideal S128 .f32) (A13 : FVec Ideal S128x1 .f32)
    (A14 : FVec Ideal S1 .f32) (e : Fin 640000) (z : Fin 1) :
    logits HR HC RD A7 A8 A9 A10 A11 A12 A13 A14 (ix2 e z)
      = Cert.Spec.edgeRow (fun a => HR (ix2 e a)) (fun a => HC (ix2 e a)) (RD (ix2 e 0))
          (fun a l => A7 (ix2 (Cert.Spec.row2 0 a) l)) (fun a l => A7 (ix2 (Cert.Spec.row2 1 a) l))
          (fun l => A7 (ix2 Cert.Spec.rowLast l))
          (fun l => A8 (ix1 l)) (fun a l => A9 (ix2 a l)) (fun l => A10 (ix1 l)) (fun a l => A11 (ix2 a l))
          (fun l => A12 (ix1 l)) (fun l => A13 (ix2 l 0)) (A14 (ix1 0)) := by
  obtain rfl : z = 0 := Subsingleton.elim _ _
  unfold logits
  refine (addf_apply _ _ _).trans ?_
  unfold Spec.edgeRow
  refine congrArg₂ (· + ·) ?_ ?_
  · refine (LibRowMax.dotGeneral_plain_apply (a := 640000) (k := 128) (b := 1)
      dot_S640000x128_S128x1_S640000x1_1_0_0_1_n_n.wf none .single _ A13 e 0).trans ?_
    refine Finset.sum_congr rfl fun l _ => congrArg (· * _) ?_
    refine (hsilu_apply _ _).trans ?_
    rw [next_apply]
    refine congrArg (fun f => Spec.layer f (fun a l => A11 (ix2 a l)) (fun l => A12 (ix1 l)) l) (funext fun a => ?_)
    rw [next_apply]
    refine congrArg (fun f => Spec.layer f (fun a l => A9 (ix2 a l)) (fun l => A10 (ix1 l)) a) (funext fun a' => ?_)
    rw [pre1_apply]
    rfl
  · exact (LibRowMax.broadcastInDim_1b_ab_apply _ bcast_S1x1_S640000x1_0_1 e 0).trans
      (LibRowMax.broadcastInDim_b_1b_apply A14 bcast_S1_S1x1_1 0 0)

end Cert.EdgeRef

end
-- ==== Proof.EdgeBridge.lean ====
/-
  The kernel program's column of edge logits and the reference's are the same function of the arrays both read.

  The kernel program's column is, at `(e, 0)`, the edge row function of rows `e` of the two gathered tables, entry `e`
  of the distance column, the two 128-row blocks and the last row of the first weight, the later weights, and the
  biases and the last weight laid as one-row matrices.  A row block read at `(a, l)` is the weight at row `o·128 + a`;
  the last row cut out reads row 256; a vector laid as a row reads the vector; the `[128, 1]` column laid as a row
  reads, at `(0, l)`, the column at `(l, 0)`.  With these readings the row function's arguments are, entry by entry,
  the ones the reference's row reading takes.
-/
import proofs.«151386_j49555332662092_1_alg».proof.Proof.ArrDef
import proofs.«151386_j49555332662092_1_alg».proof.Proof.EdgeRef
import Idealize.ShloMosaic.Lib.ValueLayout
import Idealize.ShloMosaic.Lib.Pipeline.Value

noncomputable section

namespace Cert.EdgeBridge

open Cert.KernelIdeal Cert.KernelIdeal.Gen
open Idealize.ShloMosaic Idealize.ShloMosaic.ValueIdx

variable {α : Type}

/-- Row block `o` of the first weight, cut out at row `off = o·128`, reads at `(a, l)` the weight at `(o·128 + a, l)`. -/
theorem rblock_apply (W : S257x128.Idx → α) (off : ℕ) (hs : S257x128.Slices ![off, 0] S128x128) (o : Fin 2)
    (ho : off = o.val * 128) (a l : Fin 128) :
    extractStridedSlice S128x128 ![off, 0] W hs (ix2 a l) = W (ix2 (Cert.Spec.row2 o a) l) :=
  slice2_axis0_apply off W hs a l (Cert.Spec.row2 o a) (by
    show o.val * 128 + a.val = off + a.val
    omega)

/-- The last row of the first weight, cut out, reads at `(0, l)` the weight at `(256, l)`. -/
theorem rlast_apply (W : S257x128.Idx → α) (hs : S257x128.Slices ![256, 0] S1x128) (u : Fin 1) (l : Fin 128) :
    extractStridedSlice S1x128 ![256, 0] W hs (ix2 u l) = W (ix2 Cert.Spec.rowLast l) :=
  slice2_axis0_apply 256 W hs u l Cert.Spec.rowLast (by
    show 256 = 256 + u.val
    omega)

/-- A `[128, 1]` column laid as a one-row matrix reads, at `(0, l)`, the column at `(l, 0)`. -/
theorem col_row_apply (w : S128x1.Idx → α) (hc : S128x1.ShapeCasts S1x128) (u v : Fin 1) (l : Fin 128) :
    shapeCast S1x128 w hc (ix2 u l) = w (ix2 l v) := by
  refine shapeCast_apply w hc (ix2 u l) (ix2 l v) ?_
  rw [Shape.rowMajor_val_two, Shape.rowMajor_val_two]
  show l.val * 1 + v.val = u.val * 128 + l.val
  omega

/-- The two columns are equal. -/
theorem arr_eq (HR HC : FVec Ideal S640000x128 .f32) (RD : FVec Ideal S640000x1 .f32) (a7 : FVec Ideal S257x128 .f32)
    (a8 : FVec Ideal S128 .f32) (a9 : FVec Ideal S128x128 .f32) (a10 : FVec Ideal S128 .f32)
    (a11 : FVec Ideal S128x128 .f32) (a12 : FVec Ideal S128 .f32) (a13 : FVec Ideal S128x1 .f32)
    (a14 : FVec Ideal S1 .f32) :
    Cert.KernelIdeal.Values.edgeArr HR HC RD
      (extractStridedSlice S128x128 ![0, 0] a7 slices_S257x128_S128x128_0_0)
      (extractStridedSlice S128x128 ![128, 0] a7 slices_S257x128_S128x128_128_0)
      (extractStridedSlice S1x128 ![256, 0] a7 slices_S257x128_S1x128_256_0)
      (shapeCast S1x128 a8 shapeCasts_S128_S1x128) a9 (shapeCast S1x128 a10 shapeCasts_S128_S1x128) a11
      (shapeCast S1x128 a12 shapeCasts_S128_S1x128) (shapeCast S1x128 a13 shapeCasts_S128x1_S1x128)
      (shapeCast S1x1 a14 shapeCasts_S1_S1x1)
    = Cert.EdgeRef.logits HR HC RD a7 a8 a9 a10 a11 a12 a13 a14 := by
  funext i
  obtain ⟨e, z, rfl⟩ : ∃ (e : Fin 640000) (z : Fin 1), i = ix2 e z := ⟨i 0, i 1, eq_ix2 i⟩
  refine Eq.trans ?_ (Cert.EdgeRef.logits_row HR HC RD a7 a8 a9 a10 a11 a12 a13 a14 e z).symm
  unfold Cert.KernelIdeal.Values.edgeArr
  exact Cert.KernelIdeal.Values.edgeRow_congr (fun _ => rfl) (fun _ => rfl) rfl
    (fun a l => rblock_apply a7 0 _ 0 rfl a l) (fun a l => rblock_apply a7 128 _ 1 rfl a l)
    (fun l => rlast_apply a7 _ 0 l) (fun l => shapeCast_a_1a_apply a8 _ 0 l) (fun _ _ => rfl)
    (fun l => shapeCast_a_1a_apply a10 _ 0 l) (fun _ _ => rfl) (fun l => shapeCast_a_1a_apply a12 _ 0 l)
    (fun l => col_row_apply a13 _ 0 0 l) (shapeCast_a_1a_apply a14 _ 0 0)

end Cert.EdgeBridge

end
-- ==== Proof.KernelFinal.lean ====
/-
  The kernel program's two results as functions of its arguments.

  The node region's output array is `nodeArr` of the arrays it finds, which are the node table, the three column
  blocks of the projection weight and bias, and the output weight and bias: index by index that is the reference's
  feature array.  The coordinate result is the shared last stretch of the edge region's output column, which is
  `edgeArr` of the gathered rows, the squared distances and the cut edge weights: index by index the reference's
  logits.
-/
import proofs.«151386_j49555332662092_1_alg».proof.Proof.KernelSide
import proofs.«151386_j49555332662092_1_alg».proof.Proof.NodeArray
import proofs.«151386_j49555332662092_1_alg».proof.Proof.EdgeArray
import proofs.«151386_j49555332662092_1_alg».proof.Proof.NodeBridge
import proofs.«151386_j49555332662092_1_alg».proof.Proof.EdgeBridge

set_option maxRecDepth 16384

noncomputable section

namespace Cert.KernelIdeal.Values

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

/-- The feature result: the reference's feature array of the arguments. -/
theorem feats_final : W4 m ρ c (Proc.devRef .tc main_v76)
    = Cert.NodeRef.feats (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  refine (W4_arr m ρ c 9).trans ?_
  rw [final1_9 (V3 m ρ) c]
  show nodeArr (W3 m ρ c (Proc.devRef .tc main_arg0)) (W3 m ρ c (Proc.devRef .tc main_v66)) (W3 m ρ c (Proc.devRef .tc main_v70))
      (W3 m ρ c (Proc.devRef .tc main_v67)) (W3 m ρ c (Proc.devRef .tc main_v72)) (W3 m ρ c (Proc.devRef .tc main_v68))
      (W3 m ρ c (Proc.devRef .tc main_v74)) (W3 m ρ c (Proc.devRef .tc main_arg5)) (W3 m ρ c (Proc.devRef .tc main_v75)) = _
  rw [W3_arg0, W3_v66, W3_v70, W3_v67, W3_v72, W3_v68, W3_v74, W3_arg5, W3_v75]
  exact Cert.NodeBridge.arr_eq _ _ _ _ _

/-- The coordinate result: the shared last stretch of the reference's logits, relative positions and row indices. -/
theorem coords_final : W4 m ρ c (Proc.devRef .tc main_v65)
    = Cert.Tail.coords
        (Cert.EdgeRef.logits (Cert.HostTerms.gatherRow (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.HostTerms.gatherCol (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
          (Cert.HostTerms.sqDist (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
        (Cert.HostTerms.relPos (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.HostTerms.rowIdx (m ((c.tc : Thread Cert.KernelIdeal.nD Cert.KernelIdeal.τ).loc Cert.KernelIdeal.main_arg2))) := by
  refine (W4_of_ne m ρ c main_v65 (by decide)).trans ?_
  rw [W3_v65, W2_v32, W2_v1]
  refine congrArg (fun e => Cert.Tail.coords e _ _) ?_
  refine (W2_arr m ρ c 13).trans ?_
  rw [final0_13 (V1 m ρ) c]
  show edgeArr (W1 m ρ c (Proc.devRef .tc main_v10)) (W1 m ρ c (Proc.devRef .tc main_v17)) (W1 m ρ c (Proc.devRef .tc main_v35))
      (W1 m ρ c (Proc.devRef .tc main_v36)) (W1 m ρ c (Proc.devRef .tc main_v37)) (W1 m ρ c (Proc.devRef .tc main_v38))
      (W1 m ρ c (Proc.devRef .tc main_v39)) (W1 m ρ c (Proc.devRef .tc main_arg9)) (W1 m ρ c (Proc.devRef .tc main_v40))
      (W1 m ρ c (Proc.devRef .tc main_arg11)) (W1 m ρ c (Proc.devRef .tc main_v41)) (W1 m ρ c (Proc.devRef .tc main_v43))
      (W1 m ρ c (Proc.devRef .tc main_v42)) = _
  rw [W1_v10, W1_v17, W1_v35, W1_v36, W1_v37, W1_v38, W1_v39, W1_arg9, W1_v40, W1_arg11, W1_v41, W1_v43, W1_v42]
  exact Cert.EdgeBridge.arr_eq _ _ _ _ _ _ _ _ _ _ _

end Cert.KernelIdeal.Values

end
-- ==== Proof.RefSide.lean ====
/-
  The idealized reference's two results in the shared vocabulary: its coordinate result is the shared last stretch
  applied to its own edge logits, relative positions and row indices, and those two are the shared host terms of
  its arguments.
-/
import proofs.«151386_j49555332662092_1_alg».proof.Proof.Gen.ReferenceIdeal.Run
import proofs.«151386_j49555332662092_1_alg».proof.Proof.Tail
import proofs.«151386_j49555332662092_1_alg».proof.Proof.HostTerms

noncomputable section

namespace Cert.RefSide

open Cert.ReferenceIdeal Cert.ReferenceIdeal.Gen Cert.ReferenceIdeal.Value Idealize.ShloMosaic Idealize.ShloMosaic.TcCoe Idealize.ShloMosaic.StableHlo

variable (V0 : Valuation τ sig (Elt Ideal))

theorem rowIdx_eq : res_main_v1 (F := Ideal) V0 = Cert.HostTerms.rowIdx (V0 (Proc.devRef .tc main_arg2)) := rfl

theorem relPos_eq : res_main_v18 (F := Ideal) V0
    = Cert.HostTerms.relPos (V0 (Proc.devRef .tc main_arg1)) (V0 (Proc.devRef .tc main_arg2)) := rfl

theorem coords_eq :
    Host.scatterAdd (F := Ideal) scatter_S50000x3_S640000x1_S640000x3_1_0_0_1 (broadcastInDim S50000x3 ![] bcast_S_S50000x3 (constant (F := Ideal) S_ .f32 0x00000000#32)) (broadcastInDim S640000x1 ![0] bcast_S640000_S640000x1_0 (select (cmpi .slt (res_main_v1 V0) (broadcastInDim S640000 ![] bcast_S_S640000 (constantI S_ 32 0#32))) (addi (res_main_v1 V0) (broadcastInDim S640000 ![] bcast_S_S640000 (constantI S_ 32 50000#32))) (res_main_v1 V0))) (mulf (broadcastInDim S640000x3 ![0, 1] bcast_S640000x1_S640000x3_0_1 (Host.divf (F := Ideal) (res_main_v110 V0) (broadcastInDim S640000x1 ![0, 1] bcast_S1x1_S640000x1_0_1 (broadcastInDim S1x1 ![1] bcast_S1_S1x1_1 (Host.reduceAdd (F := Ideal) (res_main_v110 V0) (constant (F := Ideal) S_ .f32 0x00000000#32) reducesTo_S640000x1_S1_d0 h_S_))))) (res_main_v18 V0))
      = Cert.Tail.coords (res_main_v103 (F := Ideal) V0) (res_main_v18 (F := Ideal) V0) (res_main_v1 (F := Ideal) V0) := rfl

end Cert.RefSide

end
-- ==== Proof.NodeRef.lean ====
/-
  The reference's node-feature result, as the run of its host operations composes it, is the array `feats` of the five
  arguments it reads: the inputs, the projection weight and bias, the output weight and bias.
-/
import proofs.«151386_j49555332662092_1_alg».proof.Proof.Gen.ReferenceIdeal.Run
import proofs.«151386_j49555332662092_1_alg».proof.Proof.NodeRefRow

noncomputable section

namespace Cert.NodeRef

open Cert.ReferenceIdeal Cert.ReferenceIdeal.Gen Cert.ReferenceIdeal.Value Idealize.ShloMosaic Idealize.ShloMosaic.TcCoe
  Idealize.SL.Sem Idealize.ShloMosaic.StableHlo

set_option maxRecDepth 8192 in
/-- The composed term of the node-feature result is `feats` of the arguments' contents. -/
theorem run_eq (V0 : Valuation τ sig (Elt Ideal)) :
    addf (F := Ideal) (φ := .f32) (Host.dotGeneral (F := Ideal) (φ₁ := .f32) (φ₂ := .f32) dot_S50000x512_S512x128_S50000x128_1_0_0_1_n_n none (shapeCast _ (Host.dotGeneral (F := Ideal) (φ₁ := .f32) (φ₂ := .f32) dot_S50000x8x8_S50000x8x64_S50000x8x64_2_1_1_2_0_0 none (Host.divf (F := Ideal) (φ := .f32) (res_main_v78 V0) (broadcastInDim S50000x8x8 ![0, 1, 2] bcast_S50000x8x1_S50000x8x8_0_1_2 (broadcastInDim S50000x8x1 ![0, 1] bcast_S50000x8_S50000x8x1_0_1 (Host.reduceAdd (F := Ideal) (φ := .f32) (res_main_v78 V0) (constant (F := Ideal) S_ .f32 0x00000000#32) reducesTo_S50000x8x8_S50000x8_d2 h_S_)))) (shapeCast _ (extractStridedSlice S50000x512 ![0, 1024] (res_main_v62 V0) slices_S50000x1536_S50000x512_0_1024) shapeCasts_S50000x512_S50000x8x64)) shapeCasts_S50000x8x64_S50000x512) (V0 (Proc.devRef .tc main_arg5))) (broadcastInDim S50000x128 ![0, 1] bcast_S1x128_S50000x128_0_1 (broadcastInDim S1x128 ![1] bcast_S128_S1x128_1 (V0 (Proc.devRef .tc main_arg6))))
      = feats (V0 (Proc.devRef .tc main_arg0)) (V0 (Proc.devRef .tc main_arg3)) (V0 (Proc.devRef .tc main_arg4))
          (V0 (Proc.devRef .tc main_arg5)) (V0 (Proc.devRef .tc main_arg6)) := by
  unfold res_main_v78 res_main_v71 res_main_v62
  rfl

end Cert.NodeRef

end
-- ==== Proof.lean ====
/-
  The certificate: a kernel program with two regions — an MLP per edge producing a logit, and an attention over the
  eight heads of each node — against its plain reference, on the extended reals.

  Both programs compute, per node, the node row function (three projections to 512 lanes, per head a softmax over
  the eight heads' scores, the weighted sum of the value heads, the output projection), and per edge the edge row
  function (three affine layers with `z · logistic z`, a final dot product), then apply the same last host stretch
  (a softmax over all edges, times the relative positions, scatter-added by row) to the logits.  The kernel
  computes the first edge layer as two 128-term sums and one product where the reference contracts a 257-wide
  concatenation, tiles rows over a grid and unrolls the heads; sums on the extended reals may be regrouped freely,
  and no other law is needed, so the precondition is never opened.  The frames of the two kernel programs and the
  reference's run are the generated ones.
-/
import proofs.«151386_j49555332662092_1_alg».proof.Defs
import proofs.«151386_j49555332662092_1_alg».proof.Proof.Gen.Kernel
import proofs.«151386_j49555332662092_1_alg».proof.Proof.Gen.Kernel.Skeleton
import proofs.«151386_j49555332662092_1_alg».proof.Proof.Gen.Kernel.Launch
import proofs.«151386_j49555332662092_1_alg».proof.Proof.Gen.Kernel.Points
import proofs.«151386_j49555332662092_1_alg».proof.Proof.Gen.Kernel.Frame
import proofs.«151386_j49555332662092_1_alg».proof.Proof.Gen.KernelIdeal
import proofs.«151386_j49555332662092_1_alg».proof.Proof.Gen.KernelIdeal.Skeleton
import proofs.«151386_j49555332662092_1_alg».proof.Proof.Gen.KernelIdeal.Launch
import proofs.«151386_j49555332662092_1_alg».proof.Proof.Gen.KernelIdeal.Points
import proofs.«151386_j49555332662092_1_alg».proof.Proof.Gen.KernelIdeal.Frame
import proofs.«151386_j49555332662092_1_alg».proof.Proof.Gen.ReferenceIdeal
import proofs.«151386_j49555332662092_1_alg».proof.Proof.Gen.Pre_finite_inputs
import proofs.«151386_j49555332662092_1_alg».proof.Proof.Gen.ReferenceIdeal.Run
import proofs.«151386_j49555332662092_1_alg».proof.Proof.KernelFinal
import proofs.«151386_j49555332662092_1_alg».proof.Proof.RefSide
import proofs.«151386_j49555332662092_1_alg».proof.Proof.NodeRef
import proofs.«151386_j49555332662092_1_alg».proof.Proof.EdgeRef
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized. -/
theorem preserves : Cert.preserves_Kernel_KernelIdeal := trivial

/-- Both programs end with the feature array and the coordinate update of the arguments: the kernel program by its
    run read back through its stretches, the reference by its run, term by term, the arguments' agreement rewritten. -/
theorem algebraic : Cert.algebraic_KernelIdeal_ReferenceIdeal := by
  intro m ρ m' ρ' _ hagree
  refine ⟨fun c => (Cert.NodeRef.feats (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), fun c => (Cert.Tail.coords
        (Cert.EdgeRef.logits (Cert.HostTerms.gatherRow (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.HostTerms.gatherCol (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
          (Cert.HostTerms.sqDist (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)))
        (Cert.HostTerms.relPos (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.HostTerms.rowIdx (m ((c.tc : Thread Cert.KernelIdeal.nD Cert.KernelIdeal.τ).loc Cert.KernelIdeal.main_arg2)))), ?_, ?_⟩
  · exact (θ_run Cert.KernelIdeal.defs _ _).mono
      (fun r h c => ⟨(h c).1.trans (Cert.KernelIdeal.Values.feats_final m ρ c),
        (h c).2.1.trans (Cert.KernelIdeal.Values.coords_final m ρ c), (h c).2.2⟩)
      (Cert.KernelIdeal.Values.run_values m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      refine (Cert.NodeRef.run_eq (Idealize.ShloMosaic.StableHlo.launchContents m' c)).trans ?_
      show (Cert.NodeRef.feats (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) = _
      rw [h0, h3, h4, h5, h6]
    · obtain ⟨h0, h1, h2, h3, h4, h5, h6, h7, h8, h9, h10, h11, h12, h13, h14⟩ := hagree c
      refine (Cert.RefSide.coords_eq (Idealize.ShloMosaic.StableHlo.launchContents m' c)).trans ?_
      rw [Cert.EdgeRef.res_eq, Cert.RefSide.relPos_eq, Cert.RefSide.rowIdx_eq]
      show (Cert.Tail.coords
        (Cert.EdgeRef.logits (Cert.HostTerms.gatherRow (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (Cert.HostTerms.gatherCol (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)))
          (Cert.HostTerms.sqDist (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))
        (Cert.HostTerms.relPos (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.HostTerms.rowIdx (m' ((c.tc : Thread Cert.ReferenceIdeal.nD Cert.ReferenceIdeal.τ).loc Cert.ReferenceIdeal.main_arg2)))) = _
      rw [h0, h1, h2, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
